-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x128 : Shape := ⟨3, ![4096, 64, 128]⟩
abbrev S_ : Shape := ⟨0, ![]⟩

class Facts : Prop where
  bcast_S_S4096x64x128 : S_.BroadcastsInDim S4096x64x128 (![] : Fin 0 → Fin S4096x64x128.rank)
  reducesTo_S4096x64x128_S_d0_1_2 : S4096x64x128.ReducesTo [0, 1, 2] S_
  h_S_ : 0 < S_.numel

variable [Facts]

def fn {F : FTy → Type} [FloatOps F] (main_arg0 : FVec F S4096x64x128 .f32) : IVec S_ 1 :=
  let main_v0 : FVec F S4096x64x128 .f32 := Host.absf main_arg0
  let main_cst : FVec F S_ .f32 := constant S_ .f32 0x7F800000#32
  let main_v1 : FVec F S4096x64x128 .f32 := broadcastInDim S4096x64x128 ![] bcast_S_S4096x64x128 main_cst
  let main_v2 : IVec S4096x64x128 1 := cmpf .olt main_v0 main_v1
  let main_c : IVec S_ 1 := constantI S_ 1 1#1
  let main_v3 : IVec S_ 1 := (fun x v => Host.reduce IntOp.andi x v reducesTo_S4096x64x128_S_d0_1_2 h_S_) main_v2 main_c
  main_v3
-- ==== Kernel.lean ====
abbrev S4096x64x128 : Shape := ⟨3, ![4096, 64, 128]⟩
abbrev S4096x2018 : Shape := ⟨2, ![4096, 2018]⟩
abbrev S256x64x128 : Shape := ⟨3, ![256, 64, 128]⟩
abbrev S256x2018 : Shape := ⟨2, ![256, 2018]⟩
abbrev S256x64x64 : Shape := ⟨3, ![256, 64, 64]⟩
abbrev S256x1 : Shape := ⟨2, ![256, 1]⟩
abbrev S256x1x63 : Shape := ⟨3, ![256, 1, 63]⟩
abbrev S256x63 : Shape := ⟨2, ![256, 63]⟩
abbrev S256 : Shape := ⟨1, ![256]⟩
abbrev S256x1x62 : Shape := ⟨3, ![256, 1, 62]⟩
abbrev S256x62 : Shape := ⟨2, ![256, 62]⟩
abbrev S256x1x61 : Shape := ⟨3, ![256, 1, 61]⟩
abbrev S256x61 : Shape := ⟨2, ![256, 61]⟩
abbrev S256x1x60 : Shape := ⟨3, ![256, 1, 60]⟩
abbrev S256x60 : Shape := ⟨2, ![256, 60]⟩
abbrev S256x1x59 : Shape := ⟨3, ![256, 1, 59]⟩
abbrev S256x59 : Shape := ⟨2, ![256, 59]⟩
abbrev S256x1x58 : Shape := ⟨3, ![256, 1, 58]⟩
abbrev S256x58 : Shape := ⟨2, ![256, 58]⟩
abbrev S256x1x57 : Shape := ⟨3, ![256, 1, 57]⟩
abbrev S256x57 : Shape := ⟨2, ![256, 57]⟩
abbrev S256x1x56 : Shape := ⟨3, ![256, 1, 56]⟩
abbrev S256x56 : Shape := ⟨2, ![256, 56]⟩
abbrev S256x1x55 : Shape := ⟨3, ![256, 1, 55]⟩
abbrev S256x55 : Shape := ⟨2, ![256, 55]⟩
abbrev S256x1x54 : Shape := ⟨3, ![256, 1, 54]⟩
abbrev S256x54 : Shape := ⟨2, ![256, 54]⟩
abbrev S256x1x53 : Shape := ⟨3, ![256, 1, 53]⟩
abbrev S256x53 : Shape := ⟨2, ![256, 53]⟩
abbrev S256x1x52 : Shape := ⟨3, ![256, 1, 52]⟩
abbrev S256x52 : Shape := ⟨2, ![256, 52]⟩
abbrev S256x1x51 : Shape := ⟨3, ![256, 1, 51]⟩
abbrev S256x51 : Shape := ⟨2, ![256, 51]⟩
abbrev S256x1x50 : Shape := ⟨3, ![256, 1, 50]⟩
abbrev S256x50 : Shape := ⟨2, ![256, 50]⟩
abbrev S256x1x49 : Shape := ⟨3, ![256, 1, 49]⟩
abbrev S256x49 : Shape := ⟨2, ![256, 49]⟩
abbrev S256x1x48 : Shape := ⟨3, ![256, 1, 48]⟩
abbrev S256x48 : Shape := ⟨2, ![256, 48]⟩
abbrev S256x1x47 : Shape := ⟨3, ![256, 1, 47]⟩
abbrev S256x47 : Shape := ⟨2, ![256, 47]⟩
abbrev S256x1x46 : Shape := ⟨3, ![256, 1, 46]⟩
abbrev S256x46 : Shape := ⟨2, ![256, 46]⟩
abbrev S256x1x45 : Shape := ⟨3, ![256, 1, 45]⟩
abbrev S256x45 : Shape := ⟨2, ![256, 45]⟩
abbrev S256x1x44 : Shape := ⟨3, ![256, 1, 44]⟩
abbrev S256x44 : Shape := ⟨2, ![256, 44]⟩
abbrev S256x1x43 : Shape := ⟨3, ![256, 1, 43]⟩
abbrev S256x43 : Shape := ⟨2, ![256, 43]⟩
abbrev S256x1x42 : Shape := ⟨3, ![256, 1, 42]⟩
abbrev S256x42 : Shape := ⟨2, ![256, 42]⟩
abbrev S256x1x41 : Shape := ⟨3, ![256, 1, 41]⟩
abbrev S256x41 : Shape := ⟨2, ![256, 41]⟩
abbrev S256x1x40 : Shape := ⟨3, ![256, 1, 40]⟩
abbrev S256x40 : Shape := ⟨2, ![256, 40]⟩
abbrev S256x1x39 : Shape := ⟨3, ![256, 1, 39]⟩
abbrev S256x39 : Shape := ⟨2, ![256, 39]⟩
abbrev S256x1x38 : Shape := ⟨3, ![256, 1, 38]⟩
abbrev S256x38 : Shape := ⟨2, ![256, 38]⟩
abbrev S256x1x37 : Shape := ⟨3, ![256, 1, 37]⟩
abbrev S256x37 : Shape := ⟨2, ![256, 37]⟩
abbrev S256x1x36 : Shape := ⟨3, ![256, 1, 36]⟩
abbrev S256x36 : Shape := ⟨2, ![256, 36]⟩
abbrev S256x1x35 : Shape := ⟨3, ![256, 1, 35]⟩
abbrev S256x35 : Shape := ⟨2, ![256, 35]⟩
abbrev S256x1x34 : Shape := ⟨3, ![256, 1, 34]⟩
abbrev S256x34 : Shape := ⟨2, ![256, 34]⟩
abbrev S256x1x33 : Shape := ⟨3, ![256, 1, 33]⟩
abbrev S256x33 : Shape := ⟨2, ![256, 33]⟩
abbrev S256x1x32 : Shape := ⟨3, ![256, 1, 32]⟩
abbrev S256x32 : Shape := ⟨2, ![256, 32]⟩
abbrev S256x1x31 : Shape := ⟨3, ![256, 1, 31]⟩
abbrev S256x31 : Shape := ⟨2, ![256, 31]⟩
abbrev S256x1x30 : Shape := ⟨3, ![256, 1, 30]⟩
abbrev S256x30 : Shape := ⟨2, ![256, 30]⟩
abbrev S256x1x29 : Shape := ⟨3, ![256, 1, 29]⟩
abbrev S256x29 : Shape := ⟨2, ![256, 29]⟩
abbrev S256x1x28 : Shape := ⟨3, ![256, 1, 28]⟩
abbrev S256x28 : Shape := ⟨2, ![256, 28]⟩
abbrev S256x1x27 : Shape := ⟨3, ![256, 1, 27]⟩
abbrev S256x27 : Shape := ⟨2, ![256, 27]⟩
abbrev S256x1x26 : Shape := ⟨3, ![256, 1, 26]⟩
abbrev S256x26 : Shape := ⟨2, ![256, 26]⟩
abbrev S256x1x25 : Shape := ⟨3, ![256, 1, 25]⟩
abbrev S256x25 : Shape := ⟨2, ![256, 25]⟩
abbrev S256x1x24 : Shape := ⟨3, ![256, 1, 24]⟩
abbrev S256x24 : Shape := ⟨2, ![256, 24]⟩
abbrev S256x1x23 : Shape := ⟨3, ![256, 1, 23]⟩
abbrev S256x23 : Shape := ⟨2, ![256, 23]⟩
abbrev S256x1x22 : Shape := ⟨3, ![256, 1, 22]⟩
abbrev S256x22 : Shape := ⟨2, ![256, 22]⟩
abbrev S256x1x21 : Shape := ⟨3, ![256, 1, 21]⟩
abbrev S256x21 : Shape := ⟨2, ![256, 21]⟩
abbrev S256x1x20 : Shape := ⟨3, ![256, 1, 20]⟩
abbrev S256x20 : Shape := ⟨2, ![256, 20]⟩
abbrev S256x1x19 : Shape := ⟨3, ![256, 1, 19]⟩
abbrev S256x19 : Shape := ⟨2, ![256, 19]⟩
abbrev S256x1x18 : Shape := ⟨3, ![256, 1, 18]⟩
abbrev S256x18 : Shape := ⟨2, ![256, 18]⟩
abbrev S256x1x17 : Shape := ⟨3, ![256, 1, 17]⟩
abbrev S256x17 : Shape := ⟨2, ![256, 17]⟩
abbrev S256x1x16 : Shape := ⟨3, ![256, 1, 16]⟩
abbrev S256x16 : Shape := ⟨2, ![256, 16]⟩
abbrev S256x1x15 : Shape := ⟨3, ![256, 1, 15]⟩
abbrev S256x15 : Shape := ⟨2, ![256, 15]⟩
abbrev S256x1x14 : Shape := ⟨3, ![256, 1, 14]⟩
abbrev S256x14 : Shape := ⟨2, ![256, 14]⟩
abbrev S256x1x13 : Shape := ⟨3, ![256, 1, 13]⟩
abbrev S256x13 : Shape := ⟨2, ![256, 13]⟩
abbrev S256x1x12 : Shape := ⟨3, ![256, 1, 12]⟩
abbrev S256x12 : Shape := ⟨2, ![256, 12]⟩
abbrev S256x1x11 : Shape := ⟨3, ![256, 1, 11]⟩
abbrev S256x11 : Shape := ⟨2, ![256, 11]⟩
abbrev S256x1x10 : Shape := ⟨3, ![256, 1, 10]⟩
abbrev S256x10 : Shape := ⟨2, ![256, 10]⟩
abbrev S256x1x9 : Shape := ⟨3, ![256, 1, 9]⟩
abbrev S256x9 : Shape := ⟨2, ![256, 9]⟩
abbrev S256x1x8 : Shape := ⟨3, ![256, 1, 8]⟩
abbrev S256x8 : Shape := ⟨2, ![256, 8]⟩
abbrev S256x1x7 : Shape := ⟨3, ![256, 1, 7]⟩
abbrev S256x7 : Shape := ⟨2, ![256, 7]⟩
abbrev S256x1x6 : Shape := ⟨3, ![256, 1, 6]⟩
abbrev S256x6 : Shape := ⟨2, ![256, 6]⟩
abbrev S256x1x5 : Shape := ⟨3, ![256, 1, 5]⟩
abbrev S256x5 : Shape := ⟨2, ![256, 5]⟩
abbrev S256x1x4 : Shape := ⟨3, ![256, 1, 4]⟩
abbrev S256x4 : Shape := ⟨2, ![256, 4]⟩
abbrev S256x1x3 : Shape := ⟨3, ![256, 1, 3]⟩
abbrev S256x3 : Shape := ⟨2, ![256, 3]⟩
abbrev S256x1x2 : Shape := ⟨3, ![256, 1, 2]⟩
abbrev S256x2 : Shape := ⟨2, ![256, 2]⟩
abbrev S256x1x1 : Shape := ⟨3, ![256, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S4096x64x128, .f32⟩
  | .hbm, ⟨1, _⟩ => ⟨S4096x2018, .f32⟩
  | .local _ .vmem, ⟨0, _⟩ => ⟨S256x64x128, .f32⟩
  | .local _ .vmem, ⟨1, _⟩ => ⟨S256x64x128, .f32⟩
  | .local _ .vmem, ⟨2, _⟩ => ⟨S256x2018, .f32⟩
  | .local _ .vmem, ⟨3, _⟩ => ⟨S256x2018, .f32⟩
  | _, _ => ⟨S4096x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2018 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x64x128_S256x64x128_0_0_0 : ∀ a, (![0, 0, 0] : Fin 3 → Nat) a + S256x64x128.size a ≤ S256x64x128.size a
  h_S256x64x128 : 0 < S256x64x128.numel
  bitsLt_bf16_f32 : FTy.bits .bf16 < FTy.bits .f32
  slices_S256x64x64_o0_0_1_S256x1x63 : S256x64x64.Slices ![0, 0, 1] S256x1x63
  shapeCasts_S256x1x63_S256x63 : S256x1x63.ShapeCasts S256x63
  inb_S256x2018_S256x63_0_0 : ∀ a, (![0, 0] : Fin 2 → Nat) a + S256x63.size a ≤ S256x2018.size a
  h_S256x63 : 0 < S256x63.numel
  reduces_S256x63_S256 : S256x63.Reduces [1] S256
  shapeCasts_S256_S256x1 : S256.ShapeCasts S256x1
  slices_S256x64x64_o0_1_2_S256x1x62 : S256x64x64.Slices ![0, 1, 2] S256x1x62
  shapeCasts_S256x1x62_S256x62 : S256x1x62.ShapeCasts S256x62
  inb_S256x2018_S256x62_0_63 : ∀ a, (![0, 63] : Fin 2 → Nat) a + S256x62.size a ≤ S256x2018.size a
  h_S256x62 : 0 < S256x62.numel
  reduces_S256x62_S256 : S256x62.Reduces [1] S256
  slices_S256x64x64_o0_2_3_S256x1x61 : S256x64x64.Slices ![0, 2, 3] S256x1x61
  shapeCasts_S256x1x61_S256x61 : S256x1x61.ShapeCasts S256x61
  inb_S256x2018_S256x61_0_125 : ∀ a, (![0, 125] : Fin 2 → Nat) a + S256x61.size a ≤ S256x2018.size a
  h_S256x61 : 0 < S256x61.numel
  reduces_S256x61_S256 : S256x61.Reduces [1] S256
  slices_S256x64x64_o0_3_4_S256x1x60 : S256x64x64.Slices ![0, 3, 4] S256x1x60
  shapeCasts_S256x1x60_S256x60 : S256x1x60.ShapeCasts S256x60
  inb_S256x2018_S256x60_0_186 : ∀ a, (![0, 186] : Fin 2 → Nat) a + S256x60.size a ≤ S256x2018.size a
  h_S256x60 : 0 < S256x60.numel
  reduces_S256x60_S256 : S256x60.Reduces [1] S256
  slices_S256x64x64_o0_4_5_S256x1x59 : S256x64x64.Slices ![0, 4, 5] S256x1x59
  shapeCasts_S256x1x59_S256x59 : S256x1x59.ShapeCasts S256x59
  inb_S256x2018_S256x59_0_246 : ∀ a, (![0, 246] : Fin 2 → Nat) a + S256x59.size a ≤ S256x2018.size a
  h_S256x59 : 0 < S256x59.numel
  reduces_S256x59_S256 : S256x59.Reduces [1] S256
  slices_S256x64x64_o0_5_6_S256x1x58 : S256x64x64.Slices ![0, 5, 6] S256x1x58
  shapeCasts_S256x1x58_S256x58 : S256x1x58.ShapeCasts S256x58
  inb_S256x2018_S256x58_0_305 : ∀ a, (![0, 305] : Fin 2 → Nat) a + S256x58.size a ≤ S256x2018.size a
  h_S256x58 : 0 < S256x58.numel
  reduces_S256x58_S256 : S256x58.Reduces [1] S256
  slices_S256x64x64_o0_6_7_S256x1x57 : S256x64x64.Slices ![0, 6, 7] S256x1x57
  shapeCasts_S256x1x57_S256x57 : S256x1x57.ShapeCasts S256x57
  inb_S256x2018_S256x57_0_363 : ∀ a, (![0, 363] : Fin 2 → Nat) a + S256x57.size a ≤ S256x2018.size a
  h_S256x57 : 0 < S256x57.numel
  reduces_S256x57_S256 : S256x57.Reduces [1] S256
  slices_S256x64x64_o0_7_8_S256x1x56 : S256x64x64.Slices ![0, 7, 8] S256x1x56
  shapeCasts_S256x1x56_S256x56 : S256x1x56.ShapeCasts S256x56
  inb_S256x2018_S256x56_0_420 : ∀ a, (![0, 420] : Fin 2 → Nat) a + S256x56.size a ≤ S256x2018.size a
  h_S256x56 : 0 < S256x56.numel
  reduces_S256x56_S256 : S256x56.Reduces [1] S256
  slices_S256x64x64_o0_8_9_S256x1x55 : S256x64x64.Slices ![0, 8, 9] S256x1x55
  shapeCasts_S256x1x55_S256x55 : S256x1x55.ShapeCasts S256x55
  inb_S256x2018_S256x55_0_476 : ∀ a, (![0, 476] : Fin 2 → Nat) a + S256x55.size a ≤ S256x2018.size a
  h_S256x55 : 0 < S256x55.numel
  reduces_S256x55_S256 : S256x55.Reduces [1] S256
  slices_S256x64x64_o0_9_10_S256x1x54 : S256x64x64.Slices ![0, 9, 10] S256x1x54
  shapeCasts_S256x1x54_S256x54 : S256x1x54.ShapeCasts S256x54
  inb_S256x2018_S256x54_0_531 : ∀ a, (![0, 531] : Fin 2 → Nat) a + S256x54.size a ≤ S256x2018.size a
  h_S256x54 : 0 < S256x54.numel
  reduces_S256x54_S256 : S256x54.Reduces [1] S256
  slices_S256x64x64_o0_10_11_S256x1x53 : S256x64x64.Slices ![0, 10, 11] S256x1x53
  shapeCasts_S256x1x53_S256x53 : S256x1x53.ShapeCasts S256x53
  inb_S256x2018_S256x53_0_585 : ∀ a, (![0, 585] : Fin 2 → Nat) a + S256x53.size a ≤ S256x2018.size a
  h_S256x53 : 0 < S256x53.numel
  reduces_S256x53_S256 : S256x53.Reduces [1] S256
  slices_S256x64x64_o0_11_12_S256x1x52 : S256x64x64.Slices ![0, 11, 12] S256x1x52
  shapeCasts_S256x1x52_S256x52 : S256x1x52.ShapeCasts S256x52
  inb_S256x2018_S256x52_0_638 : ∀ a, (![0, 638] : Fin 2 → Nat) a + S256x52.size a ≤ S256x2018.size a
  h_S256x52 : 0 < S256x52.numel
  reduces_S256x52_S256 : S256x52.Reduces [1] S256
  slices_S256x64x64_o0_12_13_S256x1x51 : S256x64x64.Slices ![0, 12, 13] S256x1x51
  shapeCasts_S256x1x51_S256x51 : S256x1x51.ShapeCasts S256x51
  inb_S256x2018_S256x51_0_690 : ∀ a, (![0, 690] : Fin 2 → Nat) a + S256x51.size a ≤ S256x2018.size a
  h_S256x51 : 0 < S256x51.numel
  reduces_S256x51_S256 : S256x51.Reduces [1] S256
  slices_S256x64x64_o0_13_14_S256x1x50 : S256x64x64.Slices ![0, 13, 14] S256x1x50
  shapeCasts_S256x1x50_S256x50 : S256x1x50.ShapeCasts S256x50
  inb_S256x2018_S256x50_0_741 : ∀ a, (![0, 741] : Fin 2 → Nat) a + S256x50.size a ≤ S256x2018.size a
  h_S256x50 : 0 < S256x50.numel
  reduces_S256x50_S256 : S256x50.Reduces [1] S256
  slices_S256x64x64_o0_14_15_S256x1x49 : S256x64x64.Slices ![0, 14, 15] S256x1x49
  shapeCasts_S256x1x49_S256x49 : S256x1x49.ShapeCasts S256x49
  inb_S256x2018_S256x49_0_791 : ∀ a, (![0, 791] : Fin 2 → Nat) a + S256x49.size a ≤ S256x2018.size a
  h_S256x49 : 0 < S256x49.numel
  reduces_S256x49_S256 : S256x49.Reduces [1] S256
  slices_S256x64x64_o0_15_16_S256x1x48 : S256x64x64.Slices ![0, 15, 16] S256x1x48
  shapeCasts_S256x1x48_S256x48 : S256x1x48.ShapeCasts S256x48
  inb_S256x2018_S256x48_0_840 : ∀ a, (![0, 840] : Fin 2 → Nat) a + S256x48.size a ≤ S256x2018.size a
  h_S256x48 : 0 < S256x48.numel
  reduces_S256x48_S256 : S256x48.Reduces [1] S256
  slices_S256x64x64_o0_16_17_S256x1x47 : S256x64x64.Slices ![0, 16, 17] S256x1x47
  shapeCasts_S256x1x47_S256x47 : S256x1x47.ShapeCasts S256x47
  inb_S256x2018_S256x47_0_888 : ∀ a, (![0, 888] : Fin 2 → Nat) a + S256x47.size a ≤ S256x2018.size a
  h_S256x47 : 0 < S256x47.numel
  reduces_S256x47_S256 : S256x47.Reduces [1] S256
  slices_S256x64x64_o0_17_18_S256x1x46 : S256x64x64.Slices ![0, 17, 18] S256x1x46
  shapeCasts_S256x1x46_S256x46 : S256x1x46.ShapeCasts S256x46
  inb_S256x2018_S256x46_0_935 : ∀ a, (![0, 935] : Fin 2 → Nat) a + S256x46.size a ≤ S256x2018.size a
  h_S256x46 : 0 < S256x46.numel
  reduces_S256x46_S256 : S256x46.Reduces [1] S256
  slices_S256x64x64_o0_18_19_S256x1x45 : S256x64x64.Slices ![0, 18, 19] S256x1x45
  shapeCasts_S256x1x45_S256x45 : S256x1x45.ShapeCasts S256x45
  inb_S256x2018_S256x45_0_981 : ∀ a, (![0, 981] : Fin 2 → Nat) a + S256x45.size a ≤ S256x2018.size a
  h_S256x45 : 0 < S256x45.numel
  reduces_S256x45_S256 : S256x45.Reduces [1] S256
  slices_S256x64x64_o0_19_20_S256x1x44 : S256x64x64.Slices ![0, 19, 20] S256x1x44
  shapeCasts_S256x1x44_S256x44 : S256x1x44.ShapeCasts S256x44
  inb_S256x2018_S256x44_0_1026 : ∀ a, (![0, 1026] : Fin 2 → Nat) a + S256x44.size a ≤ S256x2018.size a
  h_S256x44 : 0 < S256x44.numel
  reduces_S256x44_S256 : S256x44.Reduces [1] S256
  slices_S256x64x64_o0_20_21_S256x1x43 : S256x64x64.Slices ![0, 20, 21] S256x1x43
  shapeCasts_S256x1x43_S256x43 : S256x1x43.ShapeCasts S256x43
  inb_S256x2018_S256x43_0_1070 : ∀ a, (![0, 1070] : Fin 2 → Nat) a + S256x43.size a ≤ S256x2018.size a
  h_S256x43 : 0 < S256x43.numel
  reduces_S256x43_S256 : S256x43.Reduces [1] S256
  slices_S256x64x64_o0_21_22_S256x1x42 : S256x64x64.Slices ![0, 21, 22] S256x1x42
  shapeCasts_S256x1x42_S256x42 : S256x1x42.ShapeCasts S256x42
  inb_S256x2018_S256x42_0_1113 : ∀ a, (![0, 1113] : Fin 2 → Nat) a + S256x42.size a ≤ S256x2018.size a
  h_S256x42 : 0 < S256x42.numel
  reduces_S256x42_S256 : S256x42.Reduces [1] S256
  slices_S256x64x64_o0_22_23_S256x1x41 : S256x64x64.Slices ![0, 22, 23] S256x1x41
  shapeCasts_S256x1x41_S256x41 : S256x1x41.ShapeCasts S256x41
  inb_S256x2018_S256x41_0_1155 : ∀ a, (![0, 1155] : Fin 2 → Nat) a + S256x41.size a ≤ S256x2018.size a
  h_S256x41 : 0 < S256x41.numel
  reduces_S256x41_S256 : S256x41.Reduces [1] S256
  slices_S256x64x64_o0_23_24_S256x1x40 : S256x64x64.Slices ![0, 23, 24] S256x1x40
  shapeCasts_S256x1x40_S256x40 : S256x1x40.ShapeCasts S256x40
  inb_S256x2018_S256x40_0_1196 : ∀ a, (![0, 1196] : Fin 2 → Nat) a + S256x40.size a ≤ S256x2018.size a
  h_S256x40 : 0 < S256x40.numel
  reduces_S256x40_S256 : S256x40.Reduces [1] S256
  slices_S256x64x64_o0_24_25_S256x1x39 : S256x64x64.Slices ![0, 24, 25] S256x1x39
  shapeCasts_S256x1x39_S256x39 : S256x1x39.ShapeCasts S256x39
  inb_S256x2018_S256x39_0_1236 : ∀ a, (![0, 1236] : Fin 2 → Nat) a + S256x39.size a ≤ S256x2018.size a
  h_S256x39 : 0 < S256x39.numel
  reduces_S256x39_S256 : S256x39.Reduces [1] S256
  slices_S256x64x64_o0_25_26_S256x1x38 : S256x64x64.Slices ![0, 25, 26] S256x1x38
  shapeCasts_S256x1x38_S256x38 : S256x1x38.ShapeCasts S256x38
  inb_S256x2018_S256x38_0_1275 : ∀ a, (![0, 1275] : Fin 2 → Nat) a + S256x38.size a ≤ S256x2018.size a
  h_S256x38 : 0 < S256x38.numel
  reduces_S256x38_S256 : S256x38.Reduces [1] S256
  slices_S256x64x64_o0_26_27_S256x1x37 : S256x64x64.Slices ![0, 26, 27] S256x1x37
  shapeCasts_S256x1x37_S256x37 : S256x1x37.ShapeCasts S256x37
  inb_S256x2018_S256x37_0_1313 : ∀ a, (![0, 1313] : Fin 2 → Nat) a + S256x37.size a ≤ S256x2018.size a
  h_S256x37 : 0 < S256x37.numel
  reduces_S256x37_S256 : S256x37.Reduces [1] S256
  slices_S256x64x64_o0_27_28_S256x1x36 : S256x64x64.Slices ![0, 27, 28] S256x1x36
  shapeCasts_S256x1x36_S256x36 : S256x1x36.ShapeCasts S256x36
  inb_S256x2018_S256x36_0_1350 : ∀ a, (![0, 1350] : Fin 2 → Nat) a + S256x36.size a ≤ S256x2018.size a
  h_S256x36 : 0 < S256x36.numel
  reduces_S256x36_S256 : S256x36.Reduces [1] S256
  slices_S256x64x64_o0_28_29_S256x1x35 : S256x64x64.Slices ![0, 28, 29] S256x1x35
  shapeCasts_S256x1x35_S256x35 : S256x1x35.ShapeCasts S256x35
  inb_S256x2018_S256x35_0_1386 : ∀ a, (![0, 1386] : Fin 2 → Nat) a + S256x35.size a ≤ S256x2018.size a
  h_S256x35 : 0 < S256x35.numel
  reduces_S256x35_S256 : S256x35.Reduces [1] S256
  slices_S256x64x64_o0_29_30_S256x1x34 : S256x64x64.Slices ![0, 29, 30] S256x1x34
  shapeCasts_S256x1x34_S256x34 : S256x1x34.ShapeCasts S256x34
  inb_S256x2018_S256x34_0_1421 : ∀ a, (![0, 1421] : Fin 2 → Nat) a + S256x34.size a ≤ S256x2018.size a
  h_S256x34 : 0 < S256x34.numel
  reduces_S256x34_S256 : S256x34.Reduces [1] S256
  slices_S256x64x64_o0_30_31_S256x1x33 : S256x64x64.Slices ![0, 30, 31] S256x1x33
  shapeCasts_S256x1x33_S256x33 : S256x1x33.ShapeCasts S256x33
  inb_S256x2018_S256x33_0_1455 : ∀ a, (![0, 1455] : Fin 2 → Nat) a + S256x33.size a ≤ S256x2018.size a
  h_S256x33 : 0 < S256x33.numel
  reduces_S256x33_S256 : S256x33.Reduces [1] S256
  slices_S256x64x64_o0_31_32_S256x1x32 : S256x64x64.Slices ![0, 31, 32] S256x1x32
  shapeCasts_S256x1x32_S256x32 : S256x1x32.ShapeCasts S256x32
  inb_S256x2018_S256x32_0_1488 : ∀ a, (![0, 1488] : Fin 2 → Nat) a + S256x32.size a ≤ S256x2018.size a
  h_S256x32 : 0 < S256x32.numel
  reduces_S256x32_S256 : S256x32.Reduces [1] S256
  slices_S256x64x64_o0_32_33_S256x1x31 : S256x64x64.Slices ![0, 32, 33] S256x1x31
  shapeCasts_S256x1x31_S256x31 : S256x1x31.ShapeCasts S256x31
  inb_S256x2018_S256x31_0_1520 : ∀ a, (![0, 1520] : Fin 2 → Nat) a + S256x31.size a ≤ S256x2018.size a
  h_S256x31 : 0 < S256x31.numel
  reduces_S256x31_S256 : S256x31.Reduces [1] S256
  slices_S256x64x64_o0_33_34_S256x1x30 : S256x64x64.Slices ![0, 33, 34] S256x1x30
  shapeCasts_S256x1x30_S256x30 : S256x1x30.ShapeCasts S256x30
  inb_S256x2018_S256x30_0_1551 : ∀ a, (![0, 1551] : Fin 2 → Nat) a + S256x30.size a ≤ S256x2018.size a
  h_S256x30 : 0 < S256x30.numel
  reduces_S256x30_S256 : S256x30.Reduces [1] S256
  slices_S256x64x64_o0_34_35_S256x1x29 : S256x64x64.Slices ![0, 34, 35] S256x1x29
  shapeCasts_S256x1x29_S256x29 : S256x1x29.ShapeCasts S256x29
  inb_S256x2018_S256x29_0_1581 : ∀ a, (![0, 1581] : Fin 2 → Nat) a + S256x29.size a ≤ S256x2018.size a
  h_S256x29 : 0 < S256x29.numel
  reduces_S256x29_S256 : S256x29.Reduces [1] S256
  slices_S256x64x64_o0_35_36_S256x1x28 : S256x64x64.Slices ![0, 35, 36] S256x1x28
  shapeCasts_S256x1x28_S256x28 : S256x1x28.ShapeCasts S256x28
  inb_S256x2018_S256x28_0_1610 : ∀ a, (![0, 1610] : Fin 2 → Nat) a + S256x28.size a ≤ S256x2018.size a
  h_S256x28 : 0 < S256x28.numel
  reduces_S256x28_S256 : S256x28.Reduces [1] S256
  slices_S256x64x64_o0_36_37_S256x1x27 : S256x64x64.Slices ![0, 36, 37] S256x1x27
  shapeCasts_S256x1x27_S256x27 : S256x1x27.ShapeCasts S256x27
  inb_S256x2018_S256x27_0_1638 : ∀ a, (![0, 1638] : Fin 2 → Nat) a + S256x27.size a ≤ S256x2018.size a
  h_S256x27 : 0 < S256x27.numel
  reduces_S256x27_S256 : S256x27.Reduces [1] S256
  slices_S256x64x64_o0_37_38_S256x1x26 : S256x64x64.Slices ![0, 37, 38] S256x1x26
  shapeCasts_S256x1x26_S256x26 : S256x1x26.ShapeCasts S256x26
  inb_S256x2018_S256x26_0_1665 : ∀ a, (![0, 1665] : Fin 2 → Nat) a + S256x26.size a ≤ S256x2018.size a
  h_S256x26 : 0 < S256x26.numel
  reduces_S256x26_S256 : S256x26.Reduces [1] S256
  slices_S256x64x64_o0_38_39_S256x1x25 : S256x64x64.Slices ![0, 38, 39] S256x1x25
  shapeCasts_S256x1x25_S256x25 : S256x1x25.ShapeCasts S256x25
  inb_S256x2018_S256x25_0_1691 : ∀ a, (![0, 1691] : Fin 2 → Nat) a + S256x25.size a ≤ S256x2018.size a
  h_S256x25 : 0 < S256x25.numel
  reduces_S256x25_S256 : S256x25.Reduces [1] S256
  slices_S256x64x64_o0_39_40_S256x1x24 : S256x64x64.Slices ![0, 39, 40] S256x1x24
  shapeCasts_S256x1x24_S256x24 : S256x1x24.ShapeCasts S256x24
  inb_S256x2018_S256x24_0_1716 : ∀ a, (![0, 1716] : Fin 2 → Nat) a + S256x24.size a ≤ S256x2018.size a
  h_S256x24 : 0 < S256x24.numel
  reduces_S256x24_S256 : S256x24.Reduces [1] S256
  slices_S256x64x64_o0_40_41_S256x1x23 : S256x64x64.Slices ![0, 40, 41] S256x1x23
  shapeCasts_S256x1x23_S256x23 : S256x1x23.ShapeCasts S256x23
  inb_S256x2018_S256x23_0_1740 : ∀ a, (![0, 1740] : Fin 2 → Nat) a + S256x23.size a ≤ S256x2018.size a
  h_S256x23 : 0 < S256x23.numel
  reduces_S256x23_S256 : S256x23.Reduces [1] S256
  slices_S256x64x64_o0_41_42_S256x1x22 : S256x64x64.Slices ![0, 41, 42] S256x1x22
  shapeCasts_S256x1x22_S256x22 : S256x1x22.ShapeCasts S256x22
  inb_S256x2018_S256x22_0_1763 : ∀ a, (![0, 1763] : Fin 2 → Nat) a + S256x22.size a ≤ S256x2018.size a
  h_S256x22 : 0 < S256x22.numel
  reduces_S256x22_S256 : S256x22.Reduces [1] S256
  slices_S256x64x64_o0_42_43_S256x1x21 : S256x64x64.Slices ![0, 42, 43] S256x1x21
  shapeCasts_S256x1x21_S256x21 : S256x1x21.ShapeCasts S256x21
  inb_S256x2018_S256x21_0_1785 : ∀ a, (![0, 1785] : Fin 2 → Nat) a + S256x21.size a ≤ S256x2018.size a
  h_S256x21 : 0 < S256x21.numel
  reduces_S256x21_S256 : S256x21.Reduces [1] S256
  slices_S256x64x64_o0_43_44_S256x1x20 : S256x64x64.Slices ![0, 43, 44] S256x1x20
  shapeCasts_S256x1x20_S256x20 : S256x1x20.ShapeCasts S256x20
  inb_S256x2018_S256x20_0_1806 : ∀ a, (![0, 1806] : Fin 2 → Nat) a + S256x20.size a ≤ S256x2018.size a
  h_S256x20 : 0 < S256x20.numel
  reduces_S256x20_S256 : S256x20.Reduces [1] S256
  slices_S256x64x64_o0_44_45_S256x1x19 : S256x64x64.Slices ![0, 44, 45] S256x1x19
  shapeCasts_S256x1x19_S256x19 : S256x1x19.ShapeCasts S256x19
  inb_S256x2018_S256x19_0_1826 : ∀ a, (![0, 1826] : Fin 2 → Nat) a + S256x19.size a ≤ S256x2018.size a
  h_S256x19 : 0 < S256x19.numel
  reduces_S256x19_S256 : S256x19.Reduces [1] S256
  slices_S256x64x64_o0_45_46_S256x1x18 : S256x64x64.Slices ![0, 45, 46] S256x1x18
  shapeCasts_S256x1x18_S256x18 : S256x1x18.ShapeCasts S256x18
  inb_S256x2018_S256x18_0_1845 : ∀ a, (![0, 1845] : Fin 2 → Nat) a + S256x18.size a ≤ S256x2018.size a
  h_S256x18 : 0 < S256x18.numel
  reduces_S256x18_S256 : S256x18.Reduces [1] S256
  slices_S256x64x64_o0_46_47_S256x1x17 : S256x64x64.Slices ![0, 46, 47] S256x1x17
  shapeCasts_S256x1x17_S256x17 : S256x1x17.ShapeCasts S256x17
  inb_S256x2018_S256x17_0_1863 : ∀ a, (![0, 1863] : Fin 2 → Nat) a + S256x17.size a ≤ S256x2018.size a
  h_S256x17 : 0 < S256x17.numel
  reduces_S256x17_S256 : S256x17.Reduces [1] S256
  slices_S256x64x64_o0_47_48_S256x1x16 : S256x64x64.Slices ![0, 47, 48] S256x1x16
  shapeCasts_S256x1x16_S256x16 : S256x1x16.ShapeCasts S256x16
  inb_S256x2018_S256x16_0_1880 : ∀ a, (![0, 1880] : Fin 2 → Nat) a + S256x16.size a ≤ S256x2018.size a
  h_S256x16 : 0 < S256x16.numel
  reduces_S256x16_S256 : S256x16.Reduces [1] S256
  slices_S256x64x64_o0_48_49_S256x1x15 : S256x64x64.Slices ![0, 48, 49] S256x1x15
  shapeCasts_S256x1x15_S256x15 : S256x1x15.ShapeCasts S256x15
  inb_S256x2018_S256x15_0_1896 : ∀ a, (![0, 1896] : Fin 2 → Nat) a + S256x15.size a ≤ S256x2018.size a
  h_S256x15 : 0 < S256x15.numel
  reduces_S256x15_S256 : S256x15.Reduces [1] S256
  slices_S256x64x64_o0_49_50_S256x1x14 : S256x64x64.Slices ![0, 49, 50] S256x1x14
  shapeCasts_S256x1x14_S256x14 : S256x1x14.ShapeCasts S256x14
  inb_S256x2018_S256x14_0_1911 : ∀ a, (![0, 1911] : Fin 2 → Nat) a + S256x14.size a ≤ S256x2018.size a
  h_S256x14 : 0 < S256x14.numel
  reduces_S256x14_S256 : S256x14.Reduces [1] S256
  slices_S256x64x64_o0_50_51_S256x1x13 : S256x64x64.Slices ![0, 50, 51] S256x1x13
  shapeCasts_S256x1x13_S256x13 : S256x1x13.ShapeCasts S256x13
  inb_S256x2018_S256x13_0_1925 : ∀ a, (![0, 1925] : Fin 2 → Nat) a + S256x13.size a ≤ S256x2018.size a
  h_S256x13 : 0 < S256x13.numel
  reduces_S256x13_S256 : S256x13.Reduces [1] S256
  slices_S256x64x64_o0_51_52_S256x1x12 : S256x64x64.Slices ![0, 51, 52] S256x1x12
  shapeCasts_S256x1x12_S256x12 : S256x1x12.ShapeCasts S256x12
  inb_S256x2018_S256x12_0_1938 : ∀ a, (![0, 1938] : Fin 2 → Nat) a + S256x12.size a ≤ S256x2018.size a
  h_S256x12 : 0 < S256x12.numel
  reduces_S256x12_S256 : S256x12.Reduces [1] S256
  slices_S256x64x64_o0_52_53_S256x1x11 : S256x64x64.Slices ![0, 52, 53] S256x1x11
  shapeCasts_S256x1x11_S256x11 : S256x1x11.ShapeCasts S256x11
  inb_S256x2018_S256x11_0_1950 : ∀ a, (![0, 1950] : Fin 2 → Nat) a + S256x11.size a ≤ S256x2018.size a
  h_S256x11 : 0 < S256x11.numel
  reduces_S256x11_S256 : S256x11.Reduces [1] S256
  slices_S256x64x64_o0_53_54_S256x1x10 : S256x64x64.Slices ![0, 53, 54] S256x1x10
  shapeCasts_S256x1x10_S256x10 : S256x1x10.ShapeCasts S256x10
  inb_S256x2018_S256x10_0_1961 : ∀ a, (![0, 1961] : Fin 2 → Nat) a + S256x10.size a ≤ S256x2018.size a
  h_S256x10 : 0 < S256x10.numel
  reduces_S256x10_S256 : S256x10.Reduces [1] S256
  slices_S256x64x64_o0_54_55_S256x1x9 : S256x64x64.Slices ![0, 54, 55] S256x1x9
  shapeCasts_S256x1x9_S256x9 : S256x1x9.ShapeCasts S256x9
  inb_S256x2018_S256x9_0_1971 : ∀ a, (![0, 1971] : Fin 2 → Nat) a + S256x9.size a ≤ S256x2018.size a
  h_S256x9 : 0 < S256x9.numel
  reduces_S256x9_S256 : S256x9.Reduces [1] S256
  slices_S256x64x64_o0_55_56_S256x1x8 : S256x64x64.Slices ![0, 55, 56] S256x1x8
  shapeCasts_S256x1x8_S256x8 : S256x1x8.ShapeCasts S256x8
  inb_S256x2018_S256x8_0_1980 : ∀ a, (![0, 1980] : Fin 2 → Nat) a + S256x8.size a ≤ S256x2018.size a
  h_S256x8 : 0 < S256x8.numel
  reduces_S256x8_S256 : S256x8.Reduces [1] S256
  slices_S256x64x64_o0_56_57_S256x1x7 : S256x64x64.Slices ![0, 56, 57] S256x1x7
  shapeCasts_S256x1x7_S256x7 : S256x1x7.ShapeCasts S256x7
  inb_S256x2018_S256x7_0_1988 : ∀ a, (![0, 1988] : Fin 2 → Nat) a + S256x7.size a ≤ S256x2018.size a
  h_S256x7 : 0 < S256x7.numel
  reduces_S256x7_S256 : S256x7.Reduces [1] S256
  slices_S256x64x64_o0_57_58_S256x1x6 : S256x64x64.Slices ![0, 57, 58] S256x1x6
  shapeCasts_S256x1x6_S256x6 : S256x1x6.ShapeCasts S256x6
  inb_S256x2018_S256x6_0_1995 : ∀ a, (![0, 1995] : Fin 2 → Nat) a + S256x6.size a ≤ S256x2018.size a
  h_S256x6 : 0 < S256x6.numel
  reduces_S256x6_S256 : S256x6.Reduces [1] S256
  slices_S256x64x64_o0_58_59_S256x1x5 : S256x64x64.Slices ![0, 58, 59] S256x1x5
  shapeCasts_S256x1x5_S256x5 : S256x1x5.ShapeCasts S256x5
  inb_S256x2018_S256x5_0_2001 : ∀ a, (![0, 2001] : Fin 2 → Nat) a + S256x5.size a ≤ S256x2018.size a
  h_S256x5 : 0 < S256x5.numel
  reduces_S256x5_S256 : S256x5.Reduces [1] S256
  slices_S256x64x64_o0_59_60_S256x1x4 : S256x64x64.Slices ![0, 59, 60] S256x1x4
  shapeCasts_S256x1x4_S256x4 : S256x1x4.ShapeCasts S256x4
  inb_S256x2018_S256x4_0_2006 : ∀ a, (![0, 2006] : Fin 2 → Nat) a + S256x4.size a ≤ S256x2018.size a
  h_S256x4 : 0 < S256x4.numel
  reduces_S256x4_S256 : S256x4.Reduces [1] S256
  slices_S256x64x64_o0_60_61_S256x1x3 : S256x64x64.Slices ![0, 60, 61] S256x1x3
  shapeCasts_S256x1x3_S256x3 : S256x1x3.ShapeCasts S256x3
  inb_S256x2018_S256x3_0_2010 : ∀ a, (![0, 2010] : Fin 2 → Nat) a + S256x3.size a ≤ S256x2018.size a
  h_S256x3 : 0 < S256x3.numel
  reduces_S256x3_S256 : S256x3.Reduces [1] S256
  slices_S256x64x64_o0_61_62_S256x1x2 : S256x64x64.Slices ![0, 61, 62] S256x1x2
  shapeCasts_S256x1x2_S256x2 : S256x1x2.ShapeCasts S256x2
  inb_S256x2018_S256x2_0_2013 : ∀ a, (![0, 2013] : Fin 2 → Nat) a + S256x2.size a ≤ S256x2018.size a
  h_S256x2 : 0 < S256x2.numel
  reduces_S256x2_S256 : S256x2.Reduces [1] S256
  slices_S256x64x64_o0_62_63_S256x1x1 : S256x64x64.Slices ![0, 62, 63] S256x1x1
  shapeCasts_S256x1x1_S256x1 : S256x1x1.ShapeCasts S256x1
  inb_S256x2018_S256x1_0_2015 : ∀ a, (![0, 2015] : Fin 2 → Nat) a + S256x1.size a ≤ S256x2018.size a
  h_S256x1 : 0 < S256x1.numel
  reduces_S256x1_S256 : S256x1.Reduces [1] S256
  inb_S256x2018_S256x1_0_2016 : ∀ a, (![0, 2016] : Fin 2 → Nat) a + S256x1.size a ≤ S256x2018.size a
  inb_S256x2018_S256x1_0_2017 : ∀ a, (![0, 2017] : Fin 2 → Nat) a + S256x1.size a ≤ S256x2018.size a
  dot_S256x64x128_S256x64x128_S256x64x64_2_2_1_1_0_0_wf : DotDims.WF S256x64x128 S256x64x128 S256x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x128.size a ≤ S4096x64x128.size a
  hwx0_0 : ∀ i : grid0.Coords, EltTy.bits .f32 = 32 ∨ (Rect.block (s := S4096x64x128) S256x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2018.size a ≤ S4096x2018.size a
  hwx0_1 : ∀ i : grid0.Coords, EltTy.bits .f32 = 32 ∨ (Rect.block (s := S4096x2018) S256x2018.size (cc0_transform_1 i) (hinb0_1 i)).WholeWords (EltTy.packing .f32)

variable [Facts₀]

def dot_S256x64x128_S256x64x128_S256x64x64_2_2_1_1_0_0 : DotDims S256x64x128 S256x64x128 S256x64x64 where
  lhsContracting := [2]
  rhsContracting := [2]
  lhsNonContracting := [1]
  rhsNonContracting := [1]
  lhsBatch := [0]
  rhsBatch := [0]
  wf := dot_S256x64x128_S256x64x128_S256x64x64_2_2_1_1_0_0_wf

abbrev win0_0 : Pipeline.Window sig grid0 :=
  Pipeline.Window.ofSpec (Memref.whole main_arg0) S256x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2018.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x64x128 : Shape := ⟨3, ![4096, 64, 128]⟩
abbrev S4096x64x64 : Shape := ⟨3, ![4096, 64, 64]⟩
abbrev S_ : Shape := ⟨0, ![]⟩
abbrev S64x64 : Shape := ⟨2, ![64, 64]⟩
abbrev S4096 : Shape := ⟨1, ![4096]⟩
abbrev S2016 : Shape := ⟨1, ![2016]⟩
abbrev S4096x1 : Shape := ⟨2, ![4096, 1]⟩
abbrev S2016x1 : Shape := ⟨2, ![2016, 1]⟩
abbrev S2016x2 : Shape := ⟨2, ![2016, 2]⟩
abbrev S4096x2016 : Shape := ⟨2, ![4096, 2016]⟩
abbrev S4096x2018 : Shape := ⟨2, ![4096, 2018]⟩

abbrev nBuf : Space → Nat
  | .hbm => 169
  | .vmem => 0
  | .smem => 0
  | _ => 0

abbrev hbmTy0_0 (i : Nat) : BufTy := match i % 128 with
  | 0 => ⟨S4096x64x128, .f32⟩
  | 1 => ⟨S4096x64x64, .f32⟩
  | 2 => ⟨S_, .f32⟩
  | 3 => ⟨S64x64, .f32⟩
  | 4 => ⟨S64x64, .i32⟩
  | 5 => ⟨S_, .i32⟩
  | 6 => ⟨S64x64, .i32⟩
  | 7 => ⟨S64x64, .i32⟩
  | 8 => ⟨S64x64, .i32⟩
  | 9 => ⟨S64x64, .i1⟩
  | 10 => ⟨S_, .f32⟩
  | 11 => ⟨S64x64, .f32⟩
  | 12 => ⟨S64x64, .f32⟩
  | 13 => ⟨S_, .f32⟩
  | 14 => ⟨S64x64, .f32⟩
  | 15 => ⟨S64x64, .i1⟩
  | 16 => ⟨S4096, .i1⟩
  | 17 => ⟨S4096, .i32⟩
  | 18 => ⟨S_, .i32⟩
  | 19 => ⟨S_, .i32⟩
  | 20 => ⟨S4096, .i32⟩
  | 21 => ⟨S_, .i32⟩
  | 22 => ⟨S2016, .i32⟩
  | 23 => ⟨S_, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i1⟩
  | 30 => ⟨S_, .i32⟩
  | 31 => ⟨S4096, .i32⟩
  | 32 => ⟨S4096, .i32⟩
  | 33 => ⟨S4096, .i32⟩
  | 34 => ⟨S4096x1, .i32⟩
  | 35 => ⟨S_, .i32⟩
  | 36 => ⟨S4096, .i32⟩
  | 37 => ⟨S2016, .i32⟩
  | 38 => ⟨S_, .i32⟩
  | 39 => ⟨S_, .i32⟩
  | 40 => ⟨S2016, .i32⟩
  | 41 => ⟨S_, .i32⟩
  | 42 => ⟨S2016, .i32⟩
  | 43 => ⟨S2016, .i32⟩
  | 44 => ⟨S2016, .i32⟩
  | 45 => ⟨S_, .i32⟩
  | 46 => ⟨S2016, .i32⟩
  | 47 => ⟨S2016, .i1⟩
  | 48 => ⟨S2016, .i32⟩
  | 49 => ⟨S2016, .i32⟩
  | 50 => ⟨S_, .i32⟩
  | 51 => ⟨S2016, .i32⟩
  | 52 => ⟨S2016, .i1⟩
  | 53 => ⟨S2016, .i1⟩
  | 54 => ⟨S_, .i32⟩
  | 55 => ⟨S2016, .i32⟩
  | 56 => ⟨S2016, .i32⟩
  | 57 => ⟨S2016, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S2016, .i32⟩
  | 65 => ⟨S2016, .i32⟩
  | 66 => ⟨S_, .i32⟩
  | 67 => ⟨S2016, .i32⟩
  | 68 => ⟨S2016, .i1⟩
  | 69 => ⟨S_, .i32⟩
  | 70 => ⟨S2016, .i32⟩
  | 71 => ⟨S2016, .i1⟩
  | 72 => ⟨S_, .i32⟩
  | 73 => ⟨S_, .i1⟩
  | 74 => ⟨S2016, .i1⟩
  | 75 => ⟨S2016, .i1⟩
  | 76 => ⟨S2016, .i1⟩
  | 77 => ⟨S2016, .i32⟩
  | 78 => ⟨S2016, .i32⟩
  | 79 => ⟨S2016, .i32⟩
  | 80 => ⟨S_, .i32⟩
  | 81 => ⟨S2016, .i32⟩
  | 82 => ⟨S2016, .i32⟩
  | 83 => ⟨S2016, .i32⟩
  | 84 => ⟨S_, .i32⟩
  | 85 => ⟨S2016, .i32⟩
  | 86 => ⟨S2016, .i1⟩
  | 87 => ⟨S2016, .i32⟩
  | 88 => ⟨S2016, .i32⟩
  | 89 => ⟨S_, .i32⟩
  | 90 => ⟨S2016, .i32⟩
  | 91 => ⟨S2016, .i1⟩
  | 92 => ⟨S2016, .i1⟩
  | 93 => ⟨S_, .i32⟩
  | 94 => ⟨S2016, .i32⟩
  | 95 => ⟨S2016, .i32⟩
  | 96 => ⟨S2016, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S2016, .i32⟩
  | 104 => ⟨S2016, .i32⟩
  | 105 => ⟨S_, .i32⟩
  | 106 => ⟨S2016, .i32⟩
  | 107 => ⟨S2016, .i1⟩
  | 108 => ⟨S_, .i32⟩
  | 109 => ⟨S2016, .i32⟩
  | 110 => ⟨S2016, .i1⟩
  | 111 => ⟨S_, .i32⟩
  | 112 => ⟨S_, .i1⟩
  | 113 => ⟨S2016, .i1⟩
  | 114 => ⟨S2016, .i1⟩
  | 115 => ⟨S2016, .i1⟩
  | 116 => ⟨S2016, .i32⟩
  | 117 => ⟨S2016, .i32⟩
  | 118 => ⟨S2016, .i32⟩
  | 119 => ⟨S_, .i32⟩
  | 120 => ⟨S2016, .i32⟩
  | 121 => ⟨S2016, .i1⟩
  | 122 => ⟨S_, .i32⟩
  | 123 => ⟨S2016, .i32⟩
  | 124 => ⟨S2016, .i32⟩
  | 125 => ⟨S2016, .i32⟩
  | 126 => ⟨S_, .i32⟩
  | 127 => ⟨S2016, .i32⟩
  | _ => ⟨S4096x64x128, .f32⟩

abbrev hbmTy0_1 (i : Nat) : BufTy := match i % 128 with
  | 0 => ⟨S2016, .i1⟩
  | 1 => ⟨S_, .i32⟩
  | 2 => ⟨S2016, .i32⟩
  | 3 => ⟨S2016, .i32⟩
  | 4 => ⟨S2016, .i32⟩
  | 5 => ⟨S2016x1, .i32⟩
  | 6 => ⟨S2016x1, .i32⟩
  | 7 => ⟨S2016x2, .i32⟩
  | 8 => ⟨S4096x2016, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .i32⟩
  | 16 => ⟨S_, .f32⟩
  | 17 => ⟨S4096, .f32⟩
  | 18 => ⟨S4096x1, .f32⟩
  | 19 => ⟨S_, .f32⟩
  | 20 => ⟨S4096x1, .f32⟩
  | 21 => ⟨S4096x1, .f32⟩
  | 22 => ⟨S4096x2016, .f32⟩
  | 23 => ⟨S4096x2016, .f32⟩
  | 24 => ⟨S4096x2016, .f32⟩
  | 25 => ⟨S_, .f32⟩
  | 26 => ⟨S_, .f32⟩
  | 27 => ⟨S_, .f32⟩
  | 28 => ⟨S_, .f32⟩
  | 29 => ⟨S4096, .f32⟩
  | 30 => ⟨S4096x1, .f32⟩
  | 31 => ⟨S4096x1, .f32⟩
  | 32 => ⟨S4096x1, .f32⟩
  | 33 => ⟨S_, .f32⟩
  | 34 => ⟨S_, .i1⟩
  | 35 => ⟨S_, .f32⟩
  | 36 => ⟨S_, .f32⟩
  | 37 => ⟨S4096x1, .f32⟩
  | 38 => ⟨S4096x1, .f32⟩
  | 39 => ⟨S4096x1, .f32⟩
  | 40 => ⟨S4096x2018, .f32⟩
  | _ => ⟨S4096x64x128, .f32⟩

abbrev hbmTy (i : Nat) : BufTy := match i / 128 with
  | 0 => hbmTy0_0 i
  | 1 => hbmTy0_1 i
  | _ => ⟨S4096x64x128, .f32⟩

abbrev bufTy : (tb : Table) → Fin (tcTables nBuf tb) → BufTy
  | .hbm, ⟨i, _⟩ => hbmTy i
  | _, _ => ⟨S4096x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev main_cst_13 : Ref sig .tc := ⟨.hbm, 137, rfl⟩
abbrev main_v35 : Ref sig .tc := ⟨.hbm, 138, rfl⟩
abbrev main_v36 : Ref sig .tc := ⟨.hbm, 139, rfl⟩
abbrev main_cst_14 : Ref sig .tc := ⟨.hbm, 140, rfl⟩
abbrev main_v37 : Ref sig .tc := ⟨.hbm, 141, rfl⟩
abbrev main_v38 : Ref sig .tc := ⟨.hbm, 142, rfl⟩
abbrev main_c_15 : Ref sig .tc := ⟨.hbm, 143, rfl⟩
abbrev main_call8_call0_cst : Ref sig .tc := ⟨.hbm, 144, rfl⟩
abbrev main_call8_call0_v0 : Ref sig .tc := ⟨.hbm, 145, rfl⟩
abbrev main_call8_call0_v1 : Ref sig .tc := ⟨.hbm, 146, rfl⟩
abbrev main_call8_call0_cst_0 : Ref sig .tc := ⟨.hbm, 147, rfl⟩
abbrev main_call8_call0_v2 : Ref sig .tc := ⟨.hbm, 148, rfl⟩
abbrev main_call8_call0_v3 : Ref sig .tc := ⟨.hbm, 149, rfl⟩
abbrev main_call8_call0_v4 : Ref sig .tc := ⟨.hbm, 150, rfl⟩
abbrev main_call8_call0_v5 : Ref sig .tc := ⟨.hbm, 151, rfl⟩
abbrev main_call8_call0_v6 : Ref sig .tc := ⟨.hbm, 152, rfl⟩
abbrev main_call8_call0_v7 : Ref sig .tc := ⟨.hbm, 153, rfl⟩
abbrev main_call8_call0_cst_1 : Ref sig .tc := ⟨.hbm, 154, rfl⟩
abbrev main_call8_call0_v8 : Ref sig .tc := ⟨.hbm, 155, rfl⟩
abbrev main_call8_call0_cst_2 : Ref sig .tc := ⟨.hbm, 156, rfl⟩
abbrev main_call8_call0_v9 : Ref sig .tc := ⟨.hbm, 157, rfl⟩
abbrev main_call8_call0_v10 : Ref sig .tc := ⟨.hbm, 158, rfl⟩
abbrev main_call8_call0_v11 : Ref sig .tc := ⟨.hbm, 159, rfl⟩
abbrev main_call8_call0_v12 : Ref sig .tc := ⟨.hbm, 160, rfl⟩
abbrev main_call8_call0_cst_3 : Ref sig .tc := ⟨.hbm, 161, rfl⟩
abbrev main_call8_call0_v13 : Ref sig .tc := ⟨.hbm, 162, rfl⟩
abbrev main_call8_call0_cst_4 : Ref sig .tc := ⟨.hbm, 163, rfl⟩
abbrev main_call8_call0_call0_v0 : Ref sig .tc := ⟨.hbm, 164, rfl⟩
abbrev main_call8_call0_call0_v1 : Ref sig .tc := ⟨.hbm, 165, rfl⟩
abbrev main_call8_v0 : Ref sig .tc := ⟨.hbm, 166, rfl⟩
abbrev main_v39 : Ref sig .tc := ⟨.hbm, 167, rfl⟩
abbrev main_v40 : Ref sig .tc := ⟨.hbm, 168, rfl⟩

abbrev nD : Nat := 1
abbrev τ : Topo := Topo.v7x

variable {F : FTy → Type} [FloatOps F]

class Facts₀ : Prop where
  bcast_S_S64x64 : S_.BroadcastsInDim S64x64 (![] : Fin 0 → Fin S64x64.rank)
  shapeCasts_S64x64_S4096 : S64x64.ShapeCasts S4096
  natLt_1_32 : 1 < 32
  bcast_S_S_ : S_.BroadcastsInDim S_ (![] : Fin 0 → Fin S_.rank)
  reduceWindows_S4096_S4096_w4096s1p4095_0 : S4096.ReduceWindows (![4096] : Fin 1 → Nat) ![1] ![4095] ![0] S4096
  h_S_ : 0 < S_.numel
  bcast_S_S2016 : S_.BroadcastsInDim S2016 (![] : Fin 0 → Fin S2016.rank)
  bcast_S_S4096 : S_.BroadcastsInDim S4096 (![] : Fin 0 → Fin S4096.rank)
  bcast_S4096_S4096x1_0 : S4096.BroadcastsInDim S4096x1 (![0] : Fin 1 → Fin S4096x1.rank)
  reduceWindows_S2016_S2016_w2016s1p2015_0 : S2016.ReduceWindows (![2016] : Fin 1 → Nat) ![1] ![2015] ![0] S2016
  bcast_S2016_S2016x1_0 : S2016.BroadcastsInDim S2016x1 (![0] : Fin 1 → Fin S2016x1.rank)
  concatenates_S2016x1_S2016x1_S2016x2_d1 : Shape.Concatenates [S2016x1, S2016x1] S2016x2 1
  reducesTo_S4096x2016_S4096_d1 : S4096x2016.ReducesTo [1] S4096
  bcast_S_S4096x1 : S_.BroadcastsInDim S4096x1 (![] : Fin 0 → Fin S4096x1.rank)
  bcast_S4096x1_S4096x2016_0_1 : S4096x1.BroadcastsInDim S4096x2016 (![0, 1] : Fin 2 → Fin S4096x2016.rank)
  concatenates_S4096x2016_S4096x1_S4096x1_S4096x2018_d1 : Shape.Concatenates [S4096x2016, S4096x1, S4096x1] S4096x2018 1
  dot_S4096x64x128_S4096x64x128_S4096x64x64_2_2_1_1_0_0_wf : DotDims.WF S4096x64x128 S4096x64x128 S4096x64x64 [2] [2] [1] [1] [0] [0]
  scatter_S2016_S4096x1_S4096_n_0_0_1_wf : ScatterDims.WF S2016 S4096x1 S4096 [] [0] [0] 1
  gather_S4096x64x64_S2016x2_S4096x2016_0_12_n_n_12_1_409611_wf : GatherDims.WF S4096x64x64 S2016x2 S4096x2016 [0] [1, 2] [] [1, 2] [] 1 ![4096, 1, 1]

variable [Facts₀]

def dot_S4096x64x128_S4096x64x128_S4096x64x64_2_2_1_1_0_0 : DotDims S4096x64x128 S4096x64x128 S4096x64x64 where
  lhsContracting := [2]
  rhsContracting := [2]
  lhsNonContracting := [1]
  rhsNonContracting := [1]
  lhsBatch := [0]
  rhsBatch := [0]
  wf := dot_S4096x64x128_S4096x64x128_S4096x64x64_2_2_1_1_0_0_wf
def scatter_S2016_S4096x1_S4096_n_0_0_1 : ScatterDims S2016 S4096x1 S4096 where
  updateWindowDims := []
  insertedWindowDims := [0]
  scatterDimsToOperandDims := [0]
  indexVectorDim := 1
  wf := scatter_S2016_S4096x1_S4096_n_0_0_1_wf
def gather_S4096x64x64_S2016x2_S4096x2016_0_12_n_n_12_1_409611 : GatherDims S4096x64x64 S2016x2 S4096x2016 where
  offsetDims := [0]
  collapsedSliceDims := [1, 2]
  operandBatchingDims := []
  startIndicesBatchingDims := []
  startIndexMap := [1, 2]
  indexVectorDim := 1
  sliceSizes := ![4096, 1, 1]
  wf := gather_S4096x64x64_S2016x2_S4096x2016_0_12_n_n_12_1_409611_wf

class Facts : Prop extends Facts₀ where

variable [Facts]
-- ==== Proof.LibCover.lean ====
/-
  A list of stores into a [256, 2018] block, each filling all 256 rows of a column interval `[lo, lo + w)`, covers an
  entry `y` as soon as the intervals, read from the head of the list, descend without gaps from above `y`'s column to
  below it: either the head's interval holds the column, or the column is left of it and the tail covers it.
-/
import Idealize.ShloMosaic.Lib.Pipeline.Value

noncomputable section

namespace Cert.Tri

open Idealize.ShloMosaic

/-- One step of the descent. -/
theorem cover_cons {Val : EltTy → Type} {e : EltTy} {L : List (View.Piece Val (⟨2, ![256, 2018]⟩ : Shape) e)} (lo w : ℕ)
    (inb : ∀ a, (![0, lo] : Fin 2 → ℕ) a + (![256, w] : Fin 2 → ℕ) a ≤ (⟨2, ![256, 2018]⟩ : Shape).size a)
    (pay : (Rect.unit (s := ⟨2, ![256, 2018]⟩) ![0, lo] ![256, w] inb).shape.Idx → Val e)
    (y : (⟨2, ![256, 2018]⟩ : Shape).Idx) (hhi : (y 1).val < lo + w)
    (rest : (y 1).val < lo → ∃ pc ∈ L, y ∈ pc.1.set) :
    ∃ pc ∈ ((⟨Rect.unit (s := ⟨2, ![256, 2018]⟩) ![0, lo] ![256, w] inb, pay⟩ : View.Piece Val (⟨2, ![256, 2018]⟩ : Shape) e) :: L),
      y ∈ pc.1.set := by
  by_cases h : lo ≤ (y 1).val
  · refine ⟨_, List.mem_cons_self, (Rect.mem_set_unit (inb := inb)).2 fun a => ?_⟩
    match a with
    | ⟨0, _⟩ =>
      have h0 : (y 0).val < 256 := (y 0).isLt
      exact ⟨Nat.zero_le _, by show (y 0).val < 0 + 256; omega⟩
    | ⟨1, _⟩ => exact ⟨h, hhi⟩
  · obtain ⟨pc, hm, hy⟩ := rest (by omega)
    exact ⟨pc, List.mem_cons_of_mem _ hm, hy⟩

end Cert.Tri

end
-- ==== Proof.Spec.lean ====
/-
  The mathematics both programs compute, stated once over literal shapes.

  For a batch entry `b` the 64 rows `x_0 … x_63` of the input (each of 128 numbers) have the Gram matrix
  `gram b i j = ∑_d x_i[d] · x_j[d]`. Its strict upper triangle (the entries with `i < j`), listed row by row,
  has 63 + 62 + … + 1 = 2016 entries: row `i` starts at position `off i = i·(127 − i)/2` and holds the columns
  `i+1 … 63`. `rowOf k` / `colOf k` recover the pair from the position `k`. The result has, per batch entry,
  those 2016 numbers followed by their mean and their (population) standard deviation.
-/
import Idealize.ShloMosaic.PureOps.Ideal
import Idealize.ShloMosaic.Lib.ValueIdx

noncomputable section

open scoped BigOperators

namespace Cert.Tri

open Idealize.ShloMosaic Idealize.ShloMosaic.ValueIdx

/-- The input's shape: 4096 batch entries of 64 rows of 128 numbers. -/
abbrev SIn : Shape := ⟨3, ![4096, 64, 128]⟩
/-- The result's shape: per batch entry the 2016 pair products, their mean, their standard deviation. -/
abbrev SOut : Shape := ⟨2, ![4096, 2018]⟩

/-- The inner product of rows `i` and `j` of batch entry `b`. -/
def gram (X : SIn.Idx → EReal) (b : Fin 4096) (i j : Fin 64) : EReal :=
  ∑ d : Fin 128, X (ix3 b i d) * X (ix3 b j d)

/-- The position at which row `i` of the strict upper triangle starts: `∑_{i' < i} (63 − i')`. -/
def off (i : ℕ) : ℕ := i * (127 - i) / 2

/-- The row of the pair listed at position `k`: the last row that starts at or before `k`. -/
def rowOf (k : ℕ) : ℕ := ((List.range 64).filter fun i => decide (off i ≤ k)).length - 1

/-- The column of the pair listed at position `k`. -/
def colOf (k : ℕ) : ℕ := k - off (rowOf k) + rowOf k + 1

theorem rowOf_lt (k : ℕ) : rowOf k < 64 := by
  unfold rowOf
  have h : ((List.range 64).filter fun i => decide (off i ≤ k)).length ≤ 64 := by
    simpa using List.length_filter_le (fun i => decide (off i ≤ k)) (List.range 64)
  omega

set_option maxRecDepth 100000 in
theorem colOf_lt : ∀ k : Fin 2016, colOf k.val < 64 := by decide +kernel

/-- The row of pair `k`, as a row index. -/
def pI (k : Fin 2016) : Fin 64 := ⟨rowOf k.val, rowOf_lt k.val⟩
/-- The column of pair `k`, as a row index. -/
def pJ (k : Fin 2016) : Fin 64 := ⟨colOf k.val, colOf_lt k⟩

/-- The `k`-th listed entry of the strict upper triangle of batch entry `b`'s Gram matrix. -/
def tri (X : SIn.Idx → EReal) (b : Fin 4096) (k : Fin 2016) : EReal := gram X b (pI k) (pJ k)

end Cert.Tri

end
-- ==== Proof.KSpec.lean ====
/-
  One batch entry's result row, in the arrangement the kernel computes it.

  Write `γ i j` for the Gram entry of rows `i`, `j` of one batch entry. The kernel walks the rows `i = 0 … 62`, each time
  taking the `63 − i` entries `γ i (i+1), …, γ i 63`; it keeps the running sum of these row sums and the running sum of
  the row sums of their squares, and ends with the mean `S₁/2016` and `√(max(S₂/2016 − mean², 0))`.
-/
import proofs.«151155_j42056319762555_1_alg».proof.Proof.Spec

noncomputable section

open scoped BigOperators

namespace Cert.Tri

open Idealize.ShloMosaic Idealize.ShloMosaic.ValueIdx

/-- The sum of the strict upper triangle, row by row. -/
def S1 (γ : ℕ → ℕ → EReal) : EReal := ∑ i ∈ Finset.range 63, ∑ l ∈ Finset.range (63 - i), γ i (i + 1 + l)

/-- The sum of the squares of the strict upper triangle, row by row. -/
def S2 (γ : ℕ → ℕ → EReal) : EReal :=
  ∑ i ∈ Finset.range 63, ∑ l ∈ Finset.range (63 - i), γ i (i + 1 + l) * γ i (i + 1 + l)

/-- The number of pairs, 2016, as the float word both programs divide by. -/
def c2016 : EReal := Ideal.ofBits .f32 0x44FC0000#32

/-- The mean of the strict upper triangle, as the kernel takes it. -/
def meanK (γ : ℕ → ℕ → EReal) : EReal := Ideal.div (S1 γ) c2016

/-- The standard deviation, as the kernel takes it: mean of squares minus square of mean, clamped at zero, rooted. -/
def stdK (γ : ℕ → ℕ → EReal) : EReal :=
  Ideal.sqrt (max (Ideal.div (S2 γ) c2016 - meanK γ * meanK γ) (Ideal.ofBits .f32 0x00000000#32))

/-- One batch entry's result row at column `col`: the listed pair's entry, then the mean, then the deviation. -/
def rowVal (γ : ℕ → ℕ → EReal) (col : ℕ) : EReal :=
  if col < 2016 then γ (rowOf col) (colOf col) else if col = 2016 then meanK γ else stdK γ

/-- The Gram entries of batch entry `b` as a function of two naturals (zero outside the 64 rows). -/
def triN (X : SIn.Idx → EReal) (b : Fin 4096) (i j : ℕ) : EReal :=
  if h : i < 64 ∧ j < 64 then gram X b ⟨i, h.1⟩ ⟨j, h.2⟩ else 0

/-- The whole result in the kernel's arrangement. -/
def Kout (X : SIn.Idx → EReal) : SOut.Idx → EReal := fun y => rowVal (triN X (y 0)) (y 1).val

end Cert.Tri

end
-- ==== Proof.LibRowSlice.lean ====
/-
  One row of the strict upper triangle inside the kernel's body, read at an index.

  The body holds the Gram block `g` of 256 batch entries (`g (b, i, j)`), and for each row `i` it takes the columns
  `i+1 … 63` as a [256, w] matrix (a slice of one row, the unit axis dropped), stores it, and adds its row sums (and the
  row sums of its squares) to two running [256, 1] columns. These lemmas read those steps at an entry, for any width.
-/
import Idealize.ShloMosaic.PureOps.Ideal.Laws
import Idealize.ShloMosaic.Lib.ValueIdx
import Idealize.ShloMosaic.Lib.Pipeline.Value

noncomputable section

open scoped BigOperators

namespace Cert.Tri

open Idealize.ShloMosaic Idealize.ShloMosaic.ValueIdx

/-- The slice `[0:256, o1:o1+1, o2:o2+w]` of the Gram block with its unit axis dropped, at `(r, l)`, is the block at
    `(r, o1, o2 + l)`. -/
theorem rowSlice_apply {α : Type} (o1 o2 w : ℕ) (g : (⟨3, ![256, 64, 64]⟩ : Shape).Idx → α)
    (hs : (⟨3, ![256, 64, 64]⟩ : Shape).Slices ![0, o1, o2] ⟨3, ![256, 1, w]⟩)
    (hc : (⟨3, ![256, 1, w]⟩ : Shape).ShapeCasts ⟨2, ![256, w]⟩)
    (r : Fin 256) (l : Fin w) (ki kj : Fin 64) (hki : ki.val = o1) (hkj : kj.val = o2 + l.val) :
    shapeCast ⟨2, ![256, w]⟩ (extractStridedSlice ⟨3, ![256, 1, w]⟩ ![0, o1, o2] g hs) hc (ix2 r l) = g (ix3 r ki kj) := by
  rw [shapeCast_apply _ hc (ix2 r l) (ix3 r (0 : Fin 1) l) (by
    rw [Shape.rowMajor_val_three, Shape.rowMajor_val_two]
    show (r.val * 1 + 0) * w + l.val = r.val * w + l.val
    ring)]
  exact extractStridedSlice_apply _ _ hs _ _ (fun ax => by
    match ax with
    | ⟨0, _⟩ => exact (Nat.zero_add _).symm
    | ⟨1, _⟩ => exact hki.trans (Nat.add_zero _).symm
    | ⟨2, _⟩ => exact hkj)

/-- A [256] vector viewed as a [256, 1] column, at `(r, 0)`. -/
theorem col_apply {α : Type} (v : (⟨1, ![256]⟩ : Shape).Idx → α) (hc : (⟨1, ![256]⟩ : Shape).ShapeCasts ⟨2, ![256, 1]⟩)
    (r : Fin 256) (z : Fin 1) : shapeCast ⟨2, ![256, 1]⟩ v hc (ix2 r z) = v (ix1 r) := by
  refine shapeCast_apply _ hc _ _ ?_
  rw [Shape.rowMajor_val_two, Shape.rowMajor_val_one]
  have : z.val = 0 := by omega
  show r.val = r.val * 1 + z.val
  omega

/-- The sum along a row of a [256, w] matrix, started from the zero word, at row `r`. -/
theorem rowSum_apply (w : ℕ) (P : FVec Ideal (⟨2, ![256, w]⟩ : Shape) .f32)
    (h : (⟨2, ![256, w]⟩ : Shape).Reduces [(1 : Fin 2)] ⟨1, ![256]⟩) (hφ : FKind.Formats FTy.f32)
    (hacc : (0x00000000#32 : BitVec 32) = FKind.add.neutral FTy.f32 hφ) (r : Fin 256) :
    multiReduction .add [(1 : Fin 2)] (⟨1, ![256]⟩ : Shape) P 0x00000000#32 h hφ hacc (ix1 r) = ∑ l : Fin w, P (ix2 r l) := by
  refine (Ideal.multiReduction_add_single P 0x00000000#32 h hφ hacc (ix1 r)).trans ?_
  refine Finset.sum_congr rfl fun l _ => congrArg P ?_
  funext a
  match a with
  | ⟨0, _⟩ => exact Fin.ext rfl
  | ⟨1, _⟩ => exact Fin.ext rfl

end Cert.Tri

end
-- ==== Proof.LibPairs.lean ====
/-
  The listing of the strict upper triangle of a 64 × 64 matrix, row by row.

  Position `k < 2016` holds the pair `(rowOf k, colOf k)` with `rowOf k < colOf k < 64`; conversely the pair
  `(i, j)` with `i < j < 64` sits at position `off i + (j − i − 1)`. The listing is increasing in the flat
  index `64·i + j`, and a sum over the 2016 positions regroups into the row-by-row double sum.
-/
import proofs.«151155_j42056319762555_1_alg».proof.Proof.Spec
import Mathlib

open scoped BigOperators

namespace Cert.Tri

set_option maxRecDepth 100000 in
/-- Every listed pair lies strictly above the diagonal, in the first 63 rows, and its position is recovered
from the pair: `k = off (rowOf k) + (colOf k − rowOf k − 1)`. -/
theorem pos_facts : ∀ k : Fin 2016, rowOf k.val < 63 ∧ rowOf k.val < colOf k.val ∧
    off (rowOf k.val) + (colOf k.val - rowOf k.val - 1) = k.val := by decide +kernel

/-- Every listed pair lies strictly above the diagonal. -/
theorem row_lt_col (k : Fin 2016) : rowOf k.val < colOf k.val := (pos_facts k).2.1

set_option maxRecDepth 100000 in
/-- The `l`-th entry of row `i` (which has `63 − i` entries) sits at position `off i + l` and is the
pair `(i, i + 1 + l)`. -/
theorem pair_of_off_fin : ∀ i l : Fin 63, i.val + l.val < 63 →
    off i.val + l.val < 2016 ∧ rowOf (off i.val + l.val) = i.val ∧
      colOf (off i.val + l.val) = i.val + 1 + l.val := by decide +kernel

/-- The `l`-th entry of row `i` sits at position `off i + l` and is the pair `(i, i + 1 + l)`. -/
theorem pair_of_off (i l : ℕ) (h : i + l < 63) :
    off i + l < 2016 ∧ rowOf (off i + l) = i ∧ colOf (off i + l) = i + 1 + l :=
  pair_of_off_fin ⟨i, by omega⟩ ⟨l, by omega⟩ h

/-- The pair `(i, j)` with `i < j < 64` is listed at position `off i + (j − i − 1)`. -/
theorem pair_of_pos (i j : Fin 64) (h : i.val < j.val) :
    off i.val + (j.val - i.val - 1) < 2016 ∧ rowOf (off i.val + (j.val - i.val - 1)) = i.val ∧
      colOf (off i.val + (j.val - i.val - 1)) = j.val := by
  have hj := j.isLt
  obtain ⟨h1, h2, h3⟩ := pair_of_off i.val (j.val - i.val - 1) (by omega)
  refine ⟨h1, h2, ?_⟩
  rw [h3]; omega

set_option maxRecDepth 100000 in
theorem flat_succ : ∀ k : Fin 2015, 64 * rowOf k.castSucc.val + colOf k.castSucc.val
    < 64 * rowOf k.succ.val + colOf k.succ.val := by decide +kernel

/-- The flat index `64·i + j` of the listed pairs increases with the position. -/
theorem flat_strictMono : StrictMono fun k : Fin 2016 => 64 * rowOf k.val + colOf k.val :=
  (Fin.strictMono_iff_lt_succ (n := 2015)).2 flat_succ

theorem off_zero : off 0 = 0 := by decide
theorem off_63 : off 63 = 2016 := by decide

/-- Row `i + 1` starts `63 − i` positions after row `i`. -/
theorem off_succ (i : ℕ) (h : i < 63) : off (i + 1) = off i + (63 - i) := by
  have : ∀ i : Fin 63, off (i.val + 1) = off i.val + (63 - i.val) := by decide
  exact this ⟨i, h⟩

/-- The positions before row `i` starts are the entries of rows `0 … i − 1`. -/
theorem sum_pairs_upto {M : Type*} [AddCommMonoid M] (f : ℕ → ℕ → M) (i : ℕ) (hi : i ≤ 63) :
    ∑ k ∈ Finset.range (off i), f (rowOf k) (colOf k)
      = ∑ i' ∈ Finset.range i, ∑ l ∈ Finset.range (63 - i'), f i' (i' + 1 + l) := by
  induction i with
  | zero => simp [off_zero]
  | succ i ih =>
    rw [off_succ i (by omega), Finset.sum_range_add, ih (by omega), Finset.sum_range_succ]
    congr 1
    refine Finset.sum_congr rfl fun l hl => ?_
    rw [Finset.mem_range] at hl
    obtain ⟨_, h2, h3⟩ := pair_of_off i l (by omega)
    rw [h2, h3]

/-- A sum over the 2016 listed pairs is the double sum over rows `i < 63` and, within row `i`, over the
`63 − i` columns `i + 1 … 63`. -/
theorem sum_pairs {M : Type*} [AddCommMonoid M] (f : ℕ → ℕ → M) :
    ∑ k : Fin 2016, f (rowOf k.val) (colOf k.val)
      = ∑ i ∈ Finset.range 63, ∑ l ∈ Finset.range (63 - i), f i (i + 1 + l) := by
  rw [Fin.sum_univ_eq_sum_range (fun k => f (rowOf k) (colOf k)) 2016, ← off_63]
  exact sum_pairs_upto f 63 le_rfl

end Cert.Tri
-- ==== Proof.KBlock.lean ====
/-
  The kernel's block of 256 batch entries, as one function of the block's Gram entries.

  `g (r, i, j)` is the Gram entry of rows `i`, `j` of the block's batch entry `r`. `gN g r` reads it as a function of two
  naturals; the block's result at `(r, col)` is `rowVal (gN g r) col`. The lemmas below read, at an entry, the three
  kinds of value the body stores: a row's slice, the running sums after some rows, and the two statistics.
-/
import proofs.«151155_j42056319762555_1_alg».proof.Proof.KSpec
import proofs.«151155_j42056319762555_1_alg».proof.Proof.LibRowSlice
import proofs.«151155_j42056319762555_1_alg».proof.Proof.LibPairs

noncomputable section

open scoped BigOperators

namespace Cert.Tri

open Idealize.ShloMosaic Idealize.ShloMosaic.ValueIdx

/-- The Gram block's shape: 256 batch entries of a 64 × 64 matrix. -/
abbrev SG : Shape := ⟨3, ![256, 64, 64]⟩

/-- Batch entry `r`'s Gram matrix read at two naturals (zero outside the 64 rows). -/
def gN (g : SG.Idx → EReal) (r : Fin 256) (i j : ℕ) : EReal :=
  if h : i < 64 ∧ j < 64 then g (ix3 r ⟨i, h.1⟩ ⟨j, h.2⟩) else 0

/-- Row `i`'s sum over the columns right of the diagonal. -/
def rs (γ : ℕ → ℕ → EReal) (i : ℕ) : EReal := ∑ l ∈ Finset.range (63 - i), γ i (i + 1 + l)
/-- Row `i`'s sum of squares over the columns right of the diagonal. -/
def rs2 (γ : ℕ → ℕ → EReal) (i : ℕ) : EReal := ∑ l ∈ Finset.range (63 - i), γ i (i + 1 + l) * γ i (i + 1 + l)

/-- The running sum after the first `n` rows. -/
def A1 (γ : ℕ → ℕ → EReal) (n : ℕ) : EReal := ∑ i ∈ Finset.range n, rs γ i
/-- The running sum of squares after the first `n` rows. -/
def A2 (γ : ℕ → ℕ → EReal) (n : ℕ) : EReal := ∑ i ∈ Finset.range n, rs2 γ i

theorem A1_zero (γ : ℕ → ℕ → EReal) : A1 γ 0 = 0 := Finset.sum_range_zero _
theorem A2_zero (γ : ℕ → ℕ → EReal) : A2 γ 0 = 0 := Finset.sum_range_zero _
theorem A1_succ (γ : ℕ → ℕ → EReal) (n : ℕ) : A1 γ (n + 1) = A1 γ n + rs γ n := Finset.sum_range_succ _ _
theorem A2_succ (γ : ℕ → ℕ → EReal) (n : ℕ) : A2 γ (n + 1) = A2 γ n + rs2 γ n := Finset.sum_range_succ _ _
theorem S1_eq_A1 (γ : ℕ → ℕ → EReal) : S1 γ = A1 γ 63 := rfl
theorem S2_eq_A2 (γ : ℕ → ℕ → EReal) : S2 γ = A2 γ 63 := rfl

/-- The block's result. -/
def Blk (g : SG.Idx → EReal) : (⟨2, ![256, 2018]⟩ : Shape).Idx → EReal := fun y => rowVal (gN g (y 0)) (y 1).val

/-- Row `i`'s slice (columns `j = i+1 … 63`, `w` of them) at `(r, l)` is the Gram entry `(i, j + l)`. -/
theorem rowPay_apply (i j w : ℕ) (hj : j = i + 1) (hw : j + w = 64) (g : FVec Ideal SG .f32)
    (hs : SG.Slices ![0, i, j] ⟨3, ![256, 1, w]⟩) (hc : (⟨3, ![256, 1, w]⟩ : Shape).ShapeCasts ⟨2, ![256, w]⟩)
    (r : Fin 256) (l : Fin w) :
    shapeCast ⟨2, ![256, w]⟩ (extractStridedSlice ⟨3, ![256, 1, w]⟩ ![0, i, j] g hs) hc (ix2 r l)
      = gN g r i (j + l.val) := by
  have hl := l.isLt
  unfold gN
  rw [dif_pos ⟨by omega, by omega⟩]
  exact rowSlice_apply i j w g hs hc r l ⟨i, by omega⟩ ⟨j + l.val, by omega⟩ rfl rfl

/-- The sum along row `r` of a [256, w] matrix whose entries are row `i`'s slice is `rs`. -/
theorem sum_row (i j w : ℕ) (hj : j = i + 1) (hw : j + w = 64) (γ : ℕ → ℕ → EReal) (P : (⟨2, ![256, w]⟩ : Shape).Idx → EReal) (r : Fin 256)
    (hP : ∀ l : Fin w, P (ix2 r l) = γ i (j + l.val)) : ∑ l : Fin w, P (ix2 r l) = rs γ i := by
  subst hj
  unfold rs
  rw [show 63 - i = w by omega, ← Fin.sum_univ_eq_sum_range (fun l => γ i (i + 1 + l)) w]
  exact Finset.sum_congr rfl fun l _ => hP l

/-- The same for the squares. -/
theorem sum_row_sq (i j w : ℕ) (hj : j = i + 1) (hw : j + w = 64) (γ : ℕ → ℕ → EReal) (P : (⟨2, ![256, w]⟩ : Shape).Idx → EReal) (r : Fin 256)
    (hP : ∀ l : Fin w, P (ix2 r l) = γ i (j + l.val)) : ∑ l : Fin w, P (ix2 r l) * P (ix2 r l) = rs2 γ i := by
  subst hj
  unfold rs2
  rw [show 63 - i = w by omega, ← Fin.sum_univ_eq_sum_range (fun l => γ i (i + 1 + l) * γ i (i + 1 + l)) w]
  exact Finset.sum_congr rfl fun l _ => by rw [hP l]

/-- One accumulation step of the body, at `(r, 0)`: the running column plus the row sums of a [256, w] matrix. -/
theorem accStep (w : ℕ) (a : FVec Ideal (⟨2, ![256, 1]⟩ : Shape) .f32) (P : FVec Ideal (⟨2, ![256, w]⟩ : Shape) .f32)
    (h : (⟨2, ![256, w]⟩ : Shape).Reduces [(1 : Fin 2)] ⟨1, ![256]⟩) (hφ : FKind.Formats FTy.f32)
    (hacc : (0x00000000#32 : BitVec 32) = FKind.add.neutral FTy.f32 hφ)
    (hc : (⟨1, ![256]⟩ : Shape).ShapeCasts ⟨2, ![256, 1]⟩) (r : Fin 256) (z : Fin 1) :
    addf a (shapeCast ⟨2, ![256, 1]⟩ (multiReduction .add [(1 : Fin 2)] (⟨1, ![256]⟩ : Shape) P 0x00000000#32 h hφ hacc) hc) (ix2 r z)
      = a (ix2 r z) + ∑ l : Fin w, P (ix2 r l) := by
  show a (ix2 r z) + shapeCast ⟨2, ![256, 1]⟩ _ hc (ix2 r z) = _
  rw [col_apply, rowSum_apply]

/-- The same step for the squares. -/
theorem accStepSq (w : ℕ) (a : FVec Ideal (⟨2, ![256, 1]⟩ : Shape) .f32) (P : FVec Ideal (⟨2, ![256, w]⟩ : Shape) .f32)
    (h : (⟨2, ![256, w]⟩ : Shape).Reduces [(1 : Fin 2)] ⟨1, ![256]⟩) (hφ : FKind.Formats FTy.f32)
    (hacc : (0x00000000#32 : BitVec 32) = FKind.add.neutral FTy.f32 hφ)
    (hc : (⟨1, ![256]⟩ : Shape).ShapeCasts ⟨2, ![256, 1]⟩) (r : Fin 256) (z : Fin 1) :
    addf a (shapeCast ⟨2, ![256, 1]⟩ (multiReduction .add [(1 : Fin 2)] (⟨1, ![256]⟩ : Shape) (mulf P P) 0x00000000#32 h hφ hacc) hc) (ix2 r z)
      = a (ix2 r z) + ∑ l : Fin w, P (ix2 r l) * P (ix2 r l) := by
  show a (ix2 r z) + shapeCast ⟨2, ![256, 1]⟩ _ hc (ix2 r z) = _
  rw [col_apply, rowSum_apply]
  rfl

/-- Four more rows added to the running sum. -/
theorem A1_add4 (γ : ℕ → ℕ → EReal) (n : ℕ) : A1 γ (n + 4) = A1 γ n + rs γ n + rs γ (n + 1) + rs γ (n + 2) + rs γ (n + 3) := by
  rw [show n + 4 = n + 1 + 1 + 1 + 1 from rfl, A1_succ, A1_succ, A1_succ, A1_succ]
/-- Four more rows added to the running sum of squares. -/
theorem A2_add4 (γ : ℕ → ℕ → EReal) (n : ℕ) : A2 γ (n + 4) = A2 γ n + rs2 γ n + rs2 γ (n + 1) + rs2 γ (n + 2) + rs2 γ (n + 3) := by
  rw [show n + 4 = n + 1 + 1 + 1 + 1 from rfl, A2_succ, A2_succ, A2_succ, A2_succ]
/-- The first three rows, from zero. -/
theorem A1_three (γ : ℕ → ℕ → EReal) : A1 γ 3 = 0 + rs γ 0 + rs γ 1 + rs γ 2 := by
  rw [show (3 : ℕ) = 0 + 1 + 1 + 1 from rfl, A1_succ, A1_succ, A1_succ, A1_zero]
theorem A2_three (γ : ℕ → ℕ → EReal) : A2 γ 3 = 0 + rs2 γ 0 + rs2 γ 1 + rs2 γ 2 := by
  rw [show (3 : ℕ) = 0 + 1 + 1 + 1 from rfl, A2_succ, A2_succ, A2_succ, A2_zero]

/-- A store of row `i`'s slice at the columns `off i …` of the block holds the block function there: the pair listed at
    position `off i + l` is `(i, i + 1 + l)`. -/
theorem rowPiece (i j w offi : ℕ) (hj : j = i + 1) (hw : j + w = 64) (hoff : offi = off i) (g : SG.Idx → EReal)
    (inb : ∀ a, (![0, offi] : Fin 2 → ℕ) a + (![256, w] : Fin 2 → ℕ) a ≤ (⟨2, ![256, 2018]⟩ : Shape).size a)
    (P : (⟨2, ![256, w]⟩ : Shape).Idx → EReal) (hP : ∀ (r : Fin 256) (l : Fin w), P (ix2 r l) = gN g r i (j + l.val))
    (x : (⟨2, ![256, w]⟩ : Shape).Idx) :
    P x = Blk g ((Rect.unit (s := ⟨2, ![256, 2018]⟩) ![0, offi] ![256, w] inb).emb x) := by
  obtain ⟨r, l, rfl⟩ : ∃ (r : Fin 256) (l : Fin w), x = ix2 r l := ⟨x 0, x 1, eq_ix2 x⟩
  have hl := l.isLt
  obtain ⟨h1, h2, h3⟩ := pair_of_off i l.val (by omega)
  rw [hP]
  unfold Blk rowVal
  have e0 : ((Rect.unit (s := ⟨2, ![256, 2018]⟩) ![0, offi] ![256, w] inb).emb (ix2 r l)) 0 = r :=
    Fin.ext (by show 0 + 1 * r.val = r.val; omega)
  have e1 : (((Rect.unit (s := ⟨2, ![256, 2018]⟩) ![0, offi] ![256, w] inb).emb (ix2 r l)) 1).val = off i + l.val := by
    show offi + 1 * l.val = _; omega
  rw [e0, e1, if_pos h1, h2, h3, hj]

/-- A store of a [256, 1] column at column `col ≥ 2016` of the block. -/
theorem colPiece (col : ℕ) (g : SG.Idx → EReal)
    (inb : ∀ a, (![0, col] : Fin 2 → ℕ) a + (![256, 1] : Fin 2 → ℕ) a ≤ (⟨2, ![256, 2018]⟩ : Shape).size a)
    (P : (⟨2, ![256, 1]⟩ : Shape).Idx → EReal) (hP : ∀ (r : Fin 256) (z : Fin 1), P (ix2 r z) = rowVal (gN g r) col)
    (x : (⟨2, ![256, 1]⟩ : Shape).Idx) :
    P x = Blk g ((Rect.unit (s := ⟨2, ![256, 2018]⟩) ![0, col] ![256, 1] inb).emb x) := by
  obtain ⟨r, z, rfl⟩ : ∃ (r : Fin 256) (z : Fin 1), x = ix2 r z := ⟨x 0, x 1, eq_ix2 x⟩
  have hz : z.val = 0 := by omega
  rw [hP]
  unfold Blk
  have e0 : ((Rect.unit (s := ⟨2, ![256, 2018]⟩) ![0, col] ![256, 1] inb).emb (ix2 r z)) 0 = r :=
    Fin.ext (by show 0 + 1 * r.val = r.val; omega)
  have e1 : (((Rect.unit (s := ⟨2, ![256, 2018]⟩) ![0, col] ![256, 1] inb).emb (ix2 r z)) 1).val = col := by
    show col + 1 * z.val = _; omega
  rw [e0, e1]

theorem rowVal_2016 (γ : ℕ → ℕ → EReal) : rowVal γ 2016 = meanK γ := by
  unfold rowVal; rw [if_neg (by omega), if_pos rfl]
theorem rowVal_2017 (γ : ℕ → ℕ → EReal) : rowVal γ 2017 = stdK γ := by
  unfold rowVal; rw [if_neg (by omega), if_neg (by omega)]

end Cert.Tri

end
-- ==== Proof.KRows.lean ====
/- Each of the 63 rows of the strict upper triangle, and each of the 16 windows of four rows in which the body
   accumulates them, is an instance of the generic lemmas of KBlock.lean (a row's slice read at an entry; a running
   sum plus four row sums). This module lists the instances: row `i` has `63 - i` columns starting at column `i + 1`. -/
import proofs.«151155_j42056319762555_1_alg».proof.Proof.KBlock
import proofs.«151155_j42056319762555_1_alg».proof.Proof.Gen.KernelIdeal.Skeleton

noncomputable section

namespace Cert.Tri

open Idealize.ShloMosaic Idealize.ShloMosaic.ValueIdx Cert.KernelIdeal.Gen

/-! ## The rows -/
theorem pay3_apply (v0 : Vec Ideal Cert.KernelIdeal.S256x64x128 .f32) (r : Fin 256) (l : Fin 63) :
    k0_pay3 (F := Ideal) v0 (ix2 r l) = gN (k0_pay2 (F := Ideal) v0) r 0 (1 + l.val) :=
  rowPay_apply 0 1 63 rfl rfl (k0_pay2 (F := Ideal) v0) _ _ r l
theorem pay4_apply (v0 : Vec Ideal Cert.KernelIdeal.S256x64x128 .f32) (r : Fin 256) (l : Fin 62) :
    k0_pay4 (F := Ideal) v0 (ix2 r l) = gN (k0_pay2 (F := Ideal) v0) r 1 (2 + l.val) :=
  rowPay_apply 1 2 62 rfl rfl (k0_pay2 (F := Ideal) v0) _ _ r l
theorem pay5_apply (v0 : Vec Ideal Cert.KernelIdeal.S256x64x128 .f32) (r : Fin 256) (l : Fin 61) :
    k0_pay5 (F := Ideal) v0 (ix2 r l) = gN (k0_pay2 (F := Ideal) v0) r 2 (3 + l.val) :=
  rowPay_apply 2 3 61 rfl rfl (k0_pay2 (F := Ideal) v0) _ _ r l
theorem pay8_apply (v0 : Vec Ideal Cert.KernelIdeal.S256x64x128 .f32) (r : Fin 256) (l : Fin 60) :
    k0_pay8 (F := Ideal) v0 (ix2 r l) = gN (k0_pay2 (F := Ideal) v0) r 3 (4 + l.val) :=
  rowPay_apply 3 4 60 rfl rfl (k0_pay2 (F := Ideal) v0) _ _ r l
theorem pay9_apply (g : FVec Ideal SG .f32) (r : Fin 256) (l : Fin 59) :
    k0_pay9 (F := Ideal) g (ix2 r l) = gN g r 4 (5 + l.val) :=
  rowPay_apply 4 5 59 rfl rfl g _ _ r l
theorem pay10_apply (g : FVec Ideal SG .f32) (r : Fin 256) (l : Fin 58) :
    k0_pay10 (F := Ideal) g (ix2 r l) = gN g r 5 (6 + l.val) :=
  rowPay_apply 5 6 58 rfl rfl g _ _ r l
theorem pay11_apply (g : FVec Ideal SG .f32) (r : Fin 256) (l : Fin 57) :
    k0_pay11 (F := Ideal) g (ix2 r l) = gN g r 6 (7 + l.val) :=
  rowPay_apply 6 7 57 rfl rfl g _ _ r l
theorem pay14_apply (g : FVec Ideal SG .f32) (r : Fin 256) (l : Fin 56) :
    k0_pay14 (F := Ideal) g (ix2 r l) = gN g r 7 (8 + l.val) :=
  rowPay_apply 7 8 56 rfl rfl g _ _ r l
theorem pay15_apply (g : FVec Ideal SG .f32) (r : Fin 256) (l : Fin 55) :
    k0_pay15 (F := Ideal) g (ix2 r l) = gN g r 8 (9 + l.val) :=
  rowPay_apply 8 9 55 rfl rfl g _ _ r l
theorem pay16_apply (g : FVec Ideal SG .f32) (r : Fin 256) (l : Fin 54) :
    k0_pay16 (F := Ideal) g (ix2 r l) = gN g r 9 (10 + l.val) :=
  rowPay_apply 9 10 54 rfl rfl g _ _ r l
theorem pay17_apply (g : FVec Ideal SG .f32) (r : Fin 256) (l : Fin 53) :
    k0_pay17 (F := Ideal) g (ix2 r l) = gN g r 10 (11 + l.val) :=
  rowPay_apply 10 11 53 rfl rfl g _ _ r l
theorem pay20_apply (g : FVec Ideal SG .f32) (r : Fin 256) (l : Fin 52) :
    k0_pay20 (F := Ideal) g (ix2 r l) = gN g r 11 (12 + l.val) :=
  rowPay_apply 11 12 52 rfl rfl g _ _ r l
theorem pay21_apply (g : FVec Ideal SG .f32) (r : Fin 256) (l : Fin 51) :
    k0_pay21 (F := Ideal) g (ix2 r l) = gN g r 12 (13 + l.val) :=
  rowPay_apply 12 13 51 rfl rfl g _ _ r l
theorem pay22_apply (g : FVec Ideal SG .f32) (r : Fin 256) (l : Fin 50) :
    k0_pay22 (F := Ideal) g (ix2 r l) = gN g r 13 (14 + l.val) :=
  rowPay_apply 13 14 50 rfl rfl g _ _ r l
theorem pay23_apply (g : FVec Ideal SG .f32) (r : Fin 256) (l : Fin 49) :
    k0_pay23 (F := Ideal) g (ix2 r l) = gN g r 14 (15 + l.val) :=
  rowPay_apply 14 15 49 rfl rfl g _ _ r l
theorem pay26_apply (g : FVec Ideal SG .f32) (r : Fin 256) (l : Fin 48) :
    k0_pay26 (F := Ideal) g (ix2 r l) = gN g r 15 (16 + l.val) :=
  rowPay_apply 15 16 48 rfl rfl g _ _ r l
theorem pay27_apply (g : FVec Ideal SG .f32) (r : Fin 256) (l : Fin 47) :
    k0_pay27 (F := Ideal) g (ix2 r l) = gN g r 16 (17 + l.val) :=
  rowPay_apply 16 17 47 rfl rfl g _ _ r l
theorem pay28_apply (g : FVec Ideal SG .f32) (r : Fin 256) (l : Fin 46) :
    k0_pay28 (F := Ideal) g (ix2 r l) = gN g r 17 (18 + l.val) :=
  rowPay_apply 17 18 46 rfl rfl g _ _ r l
theorem pay29_apply (g : FVec Ideal SG .f32) (r : Fin 256) (l : Fin 45) :
    k0_pay29 (F := Ideal) g (ix2 r l) = gN g r 18 (19 + l.val) :=
  rowPay_apply 18 19 45 rfl rfl g _ _ r l
theorem pay32_apply (g : FVec Ideal SG .f32) (r : Fin 256) (l : Fin 44) :
    k0_pay32 (F := Ideal) g (ix2 r l) = gN g r 19 (20 + l.val) :=
  rowPay_apply 19 20 44 rfl rfl g _ _ r l
theorem pay33_apply (g : FVec Ideal SG .f32) (r : Fin 256) (l : Fin 43) :
    k0_pay33 (F := Ideal) g (ix2 r l) = gN g r 20 (21 + l.val) :=
  rowPay_apply 20 21 43 rfl rfl g _ _ r l
theorem pay34_apply (g : FVec Ideal SG .f32) (r : Fin 256) (l : Fin 42) :
    k0_pay34 (F := Ideal) g (ix2 r l) = gN g r 21 (22 + l.val) :=
  rowPay_apply 21 22 42 rfl rfl g _ _ r l
theorem pay35_apply (g : FVec Ideal SG .f32) (r : Fin 256) (l : Fin 41) :
    k0_pay35 (F := Ideal) g (ix2 r l) = gN g r 22 (23 + l.val) :=
  rowPay_apply 22 23 41 rfl rfl g _ _ r l
theorem pay38_apply (g : FVec Ideal SG .f32) (r : Fin 256) (l : Fin 40) :
    k0_pay38 (F := Ideal) g (ix2 r l) = gN g r 23 (24 + l.val) :=
  rowPay_apply 23 24 40 rfl rfl g _ _ r l
theorem pay39_apply (g : FVec Ideal SG .f32) (r : Fin 256) (l : Fin 39) :
    k0_pay39 (F := Ideal) g (ix2 r l) = gN g r 24 (25 + l.val) :=
  rowPay_apply 24 25 39 rfl rfl g _ _ r l
theorem pay40_apply (g : FVec Ideal SG .f32) (r : Fin 256) (l : Fin 38) :
    k0_pay40 (F := Ideal) g (ix2 r l) = gN g r 25 (26 + l.val) :=
  rowPay_apply 25 26 38 rfl rfl g _ _ r l
theorem pay41_apply (g : FVec Ideal SG .f32) (r : Fin 256) (l : Fin 37) :
    k0_pay41 (F := Ideal) g (ix2 r l) = gN g r 26 (27 + l.val) :=
  rowPay_apply 26 27 37 rfl rfl g _ _ r l
theorem pay44_apply (g : FVec Ideal SG .f32) (r : Fin 256) (l : Fin 36) :
    k0_pay44 (F := Ideal) g (ix2 r l) = gN g r 27 (28 + l.val) :=
  rowPay_apply 27 28 36 rfl rfl g _ _ r l
theorem pay45_apply (g : FVec Ideal SG .f32) (r : Fin 256) (l : Fin 35) :
    k0_pay45 (F := Ideal) g (ix2 r l) = gN g r 28 (29 + l.val) :=
  rowPay_apply 28 29 35 rfl rfl g _ _ r l
theorem pay46_apply (g : FVec Ideal SG .f32) (r : Fin 256) (l : Fin 34) :
    k0_pay46 (F := Ideal) g (ix2 r l) = gN g r 29 (30 + l.val) :=
  rowPay_apply 29 30 34 rfl rfl g _ _ r l
theorem pay47_apply (g : FVec Ideal SG .f32) (r : Fin 256) (l : Fin 33) :
    k0_pay47 (F := Ideal) g (ix2 r l) = gN g r 30 (31 + l.val) :=
  rowPay_apply 30 31 33 rfl rfl g _ _ r l
theorem pay50_apply (g : FVec Ideal SG .f32) (r : Fin 256) (l : Fin 32) :
    k0_pay50 (F := Ideal) g (ix2 r l) = gN g r 31 (32 + l.val) :=
  rowPay_apply 31 32 32 rfl rfl g _ _ r l
theorem pay51_apply (g : FVec Ideal SG .f32) (r : Fin 256) (l : Fin 31) :
    k0_pay51 (F := Ideal) g (ix2 r l) = gN g r 32 (33 + l.val) :=
  rowPay_apply 32 33 31 rfl rfl g _ _ r l
theorem pay52_apply (g : FVec Ideal SG .f32) (r : Fin 256) (l : Fin 30) :
    k0_pay52 (F := Ideal) g (ix2 r l) = gN g r 33 (34 + l.val) :=
  rowPay_apply 33 34 30 rfl rfl g _ _ r l
theorem pay53_apply (g : FVec Ideal SG .f32) (r : Fin 256) (l : Fin 29) :
    k0_pay53 (F := Ideal) g (ix2 r l) = gN g r 34 (35 + l.val) :=
  rowPay_apply 34 35 29 rfl rfl g _ _ r l
theorem pay56_apply (g : FVec Ideal SG .f32) (r : Fin 256) (l : Fin 28) :
    k0_pay56 (F := Ideal) g (ix2 r l) = gN g r 35 (36 + l.val) :=
  rowPay_apply 35 36 28 rfl rfl g _ _ r l
theorem pay57_apply (g : FVec Ideal SG .f32) (r : Fin 256) (l : Fin 27) :
    k0_pay57 (F := Ideal) g (ix2 r l) = gN g r 36 (37 + l.val) :=
  rowPay_apply 36 37 27 rfl rfl g _ _ r l
theorem pay58_apply (g : FVec Ideal SG .f32) (r : Fin 256) (l : Fin 26) :
    k0_pay58 (F := Ideal) g (ix2 r l) = gN g r 37 (38 + l.val) :=
  rowPay_apply 37 38 26 rfl rfl g _ _ r l
theorem pay59_apply (g : FVec Ideal SG .f32) (r : Fin 256) (l : Fin 25) :
    k0_pay59 (F := Ideal) g (ix2 r l) = gN g r 38 (39 + l.val) :=
  rowPay_apply 38 39 25 rfl rfl g _ _ r l
theorem pay62_apply (g : FVec Ideal SG .f32) (r : Fin 256) (l : Fin 24) :
    k0_pay62 (F := Ideal) g (ix2 r l) = gN g r 39 (40 + l.val) :=
  rowPay_apply 39 40 24 rfl rfl g _ _ r l
theorem pay63_apply (g : FVec Ideal SG .f32) (r : Fin 256) (l : Fin 23) :
    k0_pay63 (F := Ideal) g (ix2 r l) = gN g r 40 (41 + l.val) :=
  rowPay_apply 40 41 23 rfl rfl g _ _ r l
theorem pay64_apply (g : FVec Ideal SG .f32) (r : Fin 256) (l : Fin 22) :
    k0_pay64 (F := Ideal) g (ix2 r l) = gN g r 41 (42 + l.val) :=
  rowPay_apply 41 42 22 rfl rfl g _ _ r l
theorem pay65_apply (g : FVec Ideal SG .f32) (r : Fin 256) (l : Fin 21) :
    k0_pay65 (F := Ideal) g (ix2 r l) = gN g r 42 (43 + l.val) :=
  rowPay_apply 42 43 21 rfl rfl g _ _ r l
theorem pay68_apply (g : FVec Ideal SG .f32) (r : Fin 256) (l : Fin 20) :
    k0_pay68 (F := Ideal) g (ix2 r l) = gN g r 43 (44 + l.val) :=
  rowPay_apply 43 44 20 rfl rfl g _ _ r l
theorem pay69_apply (g : FVec Ideal SG .f32) (r : Fin 256) (l : Fin 19) :
    k0_pay69 (F := Ideal) g (ix2 r l) = gN g r 44 (45 + l.val) :=
  rowPay_apply 44 45 19 rfl rfl g _ _ r l
theorem pay70_apply (g : FVec Ideal SG .f32) (r : Fin 256) (l : Fin 18) :
    k0_pay70 (F := Ideal) g (ix2 r l) = gN g r 45 (46 + l.val) :=
  rowPay_apply 45 46 18 rfl rfl g _ _ r l
theorem pay71_apply (g : FVec Ideal SG .f32) (r : Fin 256) (l : Fin 17) :
    k0_pay71 (F := Ideal) g (ix2 r l) = gN g r 46 (47 + l.val) :=
  rowPay_apply 46 47 17 rfl rfl g _ _ r l
theorem pay74_apply (g : FVec Ideal SG .f32) (r : Fin 256) (l : Fin 16) :
    k0_pay74 (F := Ideal) g (ix2 r l) = gN g r 47 (48 + l.val) :=
  rowPay_apply 47 48 16 rfl rfl g _ _ r l
theorem pay75_apply (g : FVec Ideal SG .f32) (r : Fin 256) (l : Fin 15) :
    k0_pay75 (F := Ideal) g (ix2 r l) = gN g r 48 (49 + l.val) :=
  rowPay_apply 48 49 15 rfl rfl g _ _ r l
theorem pay76_apply (g : FVec Ideal SG .f32) (r : Fin 256) (l : Fin 14) :
    k0_pay76 (F := Ideal) g (ix2 r l) = gN g r 49 (50 + l.val) :=
  rowPay_apply 49 50 14 rfl rfl g _ _ r l
theorem pay77_apply (g : FVec Ideal SG .f32) (r : Fin 256) (l : Fin 13) :
    k0_pay77 (F := Ideal) g (ix2 r l) = gN g r 50 (51 + l.val) :=
  rowPay_apply 50 51 13 rfl rfl g _ _ r l
theorem pay80_apply (g : FVec Ideal SG .f32) (r : Fin 256) (l : Fin 12) :
    k0_pay80 (F := Ideal) g (ix2 r l) = gN g r 51 (52 + l.val) :=
  rowPay_apply 51 52 12 rfl rfl g _ _ r l
theorem pay81_apply (g : FVec Ideal SG .f32) (r : Fin 256) (l : Fin 11) :
    k0_pay81 (F := Ideal) g (ix2 r l) = gN g r 52 (53 + l.val) :=
  rowPay_apply 52 53 11 rfl rfl g _ _ r l
theorem pay82_apply (g : FVec Ideal SG .f32) (r : Fin 256) (l : Fin 10) :
    k0_pay82 (F := Ideal) g (ix2 r l) = gN g r 53 (54 + l.val) :=
  rowPay_apply 53 54 10 rfl rfl g _ _ r l
theorem pay83_apply (g : FVec Ideal SG .f32) (r : Fin 256) (l : Fin 9) :
    k0_pay83 (F := Ideal) g (ix2 r l) = gN g r 54 (55 + l.val) :=
  rowPay_apply 54 55 9 rfl rfl g _ _ r l
theorem pay86_apply (g : FVec Ideal SG .f32) (r : Fin 256) (l : Fin 8) :
    k0_pay86 (F := Ideal) g (ix2 r l) = gN g r 55 (56 + l.val) :=
  rowPay_apply 55 56 8 rfl rfl g _ _ r l
theorem pay87_apply (g : FVec Ideal SG .f32) (r : Fin 256) (l : Fin 7) :
    k0_pay87 (F := Ideal) g (ix2 r l) = gN g r 56 (57 + l.val) :=
  rowPay_apply 56 57 7 rfl rfl g _ _ r l
theorem pay88_apply (g : FVec Ideal SG .f32) (r : Fin 256) (l : Fin 6) :
    k0_pay88 (F := Ideal) g (ix2 r l) = gN g r 57 (58 + l.val) :=
  rowPay_apply 57 58 6 rfl rfl g _ _ r l
theorem pay89_apply (g : FVec Ideal SG .f32) (r : Fin 256) (l : Fin 5) :
    k0_pay89 (F := Ideal) g (ix2 r l) = gN g r 58 (59 + l.val) :=
  rowPay_apply 58 59 5 rfl rfl g _ _ r l
theorem pay92_apply (g : FVec Ideal SG .f32) (r : Fin 256) (l : Fin 4) :
    k0_pay92 (F := Ideal) g (ix2 r l) = gN g r 59 (60 + l.val) :=
  rowPay_apply 59 60 4 rfl rfl g _ _ r l
theorem pay93_apply (g : FVec Ideal SG .f32) (r : Fin 256) (l : Fin 3) :
    k0_pay93 (F := Ideal) g (ix2 r l) = gN g r 60 (61 + l.val) :=
  rowPay_apply 60 61 3 rfl rfl g _ _ r l
theorem pay94_apply (g : FVec Ideal SG .f32) (r : Fin 256) (l : Fin 2) :
    k0_pay94 (F := Ideal) g (ix2 r l) = gN g r 61 (62 + l.val) :=
  rowPay_apply 61 62 2 rfl rfl g _ _ r l
theorem pay95_apply (g : FVec Ideal SG .f32) (r : Fin 256) (l : Fin 1) :
    k0_pay95 (F := Ideal) g (ix2 r l) = gN g r 62 (63 + l.val) :=
  rowPay_apply 62 63 1 rfl rfl g _ _ r l

/-! ## The windows: the running sum, and the running sum of squares, after each window of rows -/
theorem pay6_apply (v0 : Vec Ideal Cert.KernelIdeal.S256x64x128 .f32) (r : Fin 256) (z : Fin 1) :
    k0_pay6 (F := Ideal) v0 (ix2 r z) = 0 + rs (gN (k0_pay2 (F := Ideal) v0) r) 0 + rs (gN (k0_pay2 (F := Ideal) v0) r) 1 + rs (gN (k0_pay2 (F := Ideal) v0) r) 2 := by
  refine (accStep 61 _ _ _ _ _ _ r z).trans (congrArg₂ (· + ·) ?_ (sum_row 2 3 61 rfl rfl _ _ r (pay5_apply v0 r)))
  refine (accStep 62 _ _ _ _ _ _ r z).trans (congrArg₂ (· + ·) ?_ (sum_row 1 2 62 rfl rfl _ _ r (pay4_apply v0 r)))
  exact (accStep 63 _ _ _ _ _ _ r z).trans (congrArg₂ (· + ·) Ideal.ofBits_zero_f32 (sum_row 0 1 63 rfl rfl _ _ r (pay3_apply v0 r)))
theorem pay7_apply (v0 : Vec Ideal Cert.KernelIdeal.S256x64x128 .f32) (r : Fin 256) (z : Fin 1) :
    k0_pay7 (F := Ideal) v0 (ix2 r z) = 0 + rs2 (gN (k0_pay2 (F := Ideal) v0) r) 0 + rs2 (gN (k0_pay2 (F := Ideal) v0) r) 1 + rs2 (gN (k0_pay2 (F := Ideal) v0) r) 2 := by
  refine (accStepSq 61 _ _ _ _ _ _ r z).trans (congrArg₂ (· + ·) ?_ (sum_row_sq 2 3 61 rfl rfl _ _ r (pay5_apply v0 r)))
  refine (accStepSq 62 _ _ _ _ _ _ r z).trans (congrArg₂ (· + ·) ?_ (sum_row_sq 1 2 62 rfl rfl _ _ r (pay4_apply v0 r)))
  exact (accStepSq 63 _ _ _ _ _ _ r z).trans (congrArg₂ (· + ·) Ideal.ofBits_zero_f32 (sum_row_sq 0 1 63 rfl rfl _ _ r (pay3_apply v0 r)))
theorem pay12_apply (g : FVec Ideal SG .f32) (a : FVec Ideal (⟨2, ![256, 1]⟩ : Shape) .f32) (cr : FVec Ideal (⟨2, ![256, 60]⟩ : Shape) .f32)
    (r : Fin 256) (z : Fin 1) (s : EReal) (ha : a (ix2 r z) = s) (hcr : ∀ l : Fin 60, cr (ix2 r l) = gN g r 3 (4 + l.val)) :
    k0_pay12 (F := Ideal) g a cr (ix2 r z) = s + rs (gN g r) 3 + rs (gN g r) 4 + rs (gN g r) 5 + rs (gN g r) 6 := by
  refine (accStep 57 _ _ _ _ _ _ r z).trans (congrArg₂ (· + ·) ?_ (sum_row 6 7 57 rfl rfl _ _ r (pay11_apply g r)))
  refine (accStep 58 _ _ _ _ _ _ r z).trans (congrArg₂ (· + ·) ?_ (sum_row 5 6 58 rfl rfl _ _ r (pay10_apply g r)))
  refine (accStep 59 _ _ _ _ _ _ r z).trans (congrArg₂ (· + ·) ?_ (sum_row 4 5 59 rfl rfl _ _ r (pay9_apply g r)))
  exact (accStep 60 _ _ _ _ _ _ r z).trans (congrArg₂ (· + ·) ha (sum_row 3 4 60 rfl rfl _ _ r hcr))
theorem pay13_apply (g : FVec Ideal SG .f32) (a : FVec Ideal (⟨2, ![256, 1]⟩ : Shape) .f32) (cr : FVec Ideal (⟨2, ![256, 60]⟩ : Shape) .f32)
    (r : Fin 256) (z : Fin 1) (s : EReal) (ha : a (ix2 r z) = s) (hcr : ∀ l : Fin 60, cr (ix2 r l) = gN g r 3 (4 + l.val)) :
    k0_pay13 (F := Ideal) g a cr (ix2 r z) = s + rs2 (gN g r) 3 + rs2 (gN g r) 4 + rs2 (gN g r) 5 + rs2 (gN g r) 6 := by
  refine (accStepSq 57 _ _ _ _ _ _ r z).trans (congrArg₂ (· + ·) ?_ (sum_row_sq 6 7 57 rfl rfl _ _ r (pay11_apply g r)))
  refine (accStepSq 58 _ _ _ _ _ _ r z).trans (congrArg₂ (· + ·) ?_ (sum_row_sq 5 6 58 rfl rfl _ _ r (pay10_apply g r)))
  refine (accStepSq 59 _ _ _ _ _ _ r z).trans (congrArg₂ (· + ·) ?_ (sum_row_sq 4 5 59 rfl rfl _ _ r (pay9_apply g r)))
  exact (accStepSq 60 _ _ _ _ _ _ r z).trans (congrArg₂ (· + ·) ha (sum_row_sq 3 4 60 rfl rfl _ _ r hcr))
theorem pay18_apply (g : FVec Ideal SG .f32) (a : FVec Ideal (⟨2, ![256, 1]⟩ : Shape) .f32) (cr : FVec Ideal (⟨2, ![256, 56]⟩ : Shape) .f32)
    (r : Fin 256) (z : Fin 1) (s : EReal) (ha : a (ix2 r z) = s) (hcr : ∀ l : Fin 56, cr (ix2 r l) = gN g r 7 (8 + l.val)) :
    k0_pay18 (F := Ideal) g a cr (ix2 r z) = s + rs (gN g r) 7 + rs (gN g r) 8 + rs (gN g r) 9 + rs (gN g r) 10 := by
  refine (accStep 53 _ _ _ _ _ _ r z).trans (congrArg₂ (· + ·) ?_ (sum_row 10 11 53 rfl rfl _ _ r (pay17_apply g r)))
  refine (accStep 54 _ _ _ _ _ _ r z).trans (congrArg₂ (· + ·) ?_ (sum_row 9 10 54 rfl rfl _ _ r (pay16_apply g r)))
  refine (accStep 55 _ _ _ _ _ _ r z).trans (congrArg₂ (· + ·) ?_ (sum_row 8 9 55 rfl rfl _ _ r (pay15_apply g r)))
  exact (accStep 56 _ _ _ _ _ _ r z).trans (congrArg₂ (· + ·) ha (sum_row 7 8 56 rfl rfl _ _ r hcr))
theorem pay19_apply (g : FVec Ideal SG .f32) (a : FVec Ideal (⟨2, ![256, 1]⟩ : Shape) .f32) (cr : FVec Ideal (⟨2, ![256, 56]⟩ : Shape) .f32)
    (r : Fin 256) (z : Fin 1) (s : EReal) (ha : a (ix2 r z) = s) (hcr : ∀ l : Fin 56, cr (ix2 r l) = gN g r 7 (8 + l.val)) :
    k0_pay19 (F := Ideal) g a cr (ix2 r z) = s + rs2 (gN g r) 7 + rs2 (gN g r) 8 + rs2 (gN g r) 9 + rs2 (gN g r) 10 := by
  refine (accStepSq 53 _ _ _ _ _ _ r z).trans (congrArg₂ (· + ·) ?_ (sum_row_sq 10 11 53 rfl rfl _ _ r (pay17_apply g r)))
  refine (accStepSq 54 _ _ _ _ _ _ r z).trans (congrArg₂ (· + ·) ?_ (sum_row_sq 9 10 54 rfl rfl _ _ r (pay16_apply g r)))
  refine (accStepSq 55 _ _ _ _ _ _ r z).trans (congrArg₂ (· + ·) ?_ (sum_row_sq 8 9 55 rfl rfl _ _ r (pay15_apply g r)))
  exact (accStepSq 56 _ _ _ _ _ _ r z).trans (congrArg₂ (· + ·) ha (sum_row_sq 7 8 56 rfl rfl _ _ r hcr))
theorem pay24_apply (g : FVec Ideal SG .f32) (a : FVec Ideal (⟨2, ![256, 1]⟩ : Shape) .f32) (cr : FVec Ideal (⟨2, ![256, 52]⟩ : Shape) .f32)
    (r : Fin 256) (z : Fin 1) (s : EReal) (ha : a (ix2 r z) = s) (hcr : ∀ l : Fin 52, cr (ix2 r l) = gN g r 11 (12 + l.val)) :
    k0_pay24 (F := Ideal) g a cr (ix2 r z) = s + rs (gN g r) 11 + rs (gN g r) 12 + rs (gN g r) 13 + rs (gN g r) 14 := by
  refine (accStep 49 _ _ _ _ _ _ r z).trans (congrArg₂ (· + ·) ?_ (sum_row 14 15 49 rfl rfl _ _ r (pay23_apply g r)))
  refine (accStep 50 _ _ _ _ _ _ r z).trans (congrArg₂ (· + ·) ?_ (sum_row 13 14 50 rfl rfl _ _ r (pay22_apply g r)))
  refine (accStep 51 _ _ _ _ _ _ r z).trans (congrArg₂ (· + ·) ?_ (sum_row 12 13 51 rfl rfl _ _ r (pay21_apply g r)))
  exact (accStep 52 _ _ _ _ _ _ r z).trans (congrArg₂ (· + ·) ha (sum_row 11 12 52 rfl rfl _ _ r hcr))
theorem pay25_apply (g : FVec Ideal SG .f32) (a : FVec Ideal (⟨2, ![256, 1]⟩ : Shape) .f32) (cr : FVec Ideal (⟨2, ![256, 52]⟩ : Shape) .f32)
    (r : Fin 256) (z : Fin 1) (s : EReal) (ha : a (ix2 r z) = s) (hcr : ∀ l : Fin 52, cr (ix2 r l) = gN g r 11 (12 + l.val)) :
    k0_pay25 (F := Ideal) g a cr (ix2 r z) = s + rs2 (gN g r) 11 + rs2 (gN g r) 12 + rs2 (gN g r) 13 + rs2 (gN g r) 14 := by
  refine (accStepSq 49 _ _ _ _ _ _ r z).trans (congrArg₂ (· + ·) ?_ (sum_row_sq 14 15 49 rfl rfl _ _ r (pay23_apply g r)))
  refine (accStepSq 50 _ _ _ _ _ _ r z).trans (congrArg₂ (· + ·) ?_ (sum_row_sq 13 14 50 rfl rfl _ _ r (pay22_apply g r)))
  refine (accStepSq 51 _ _ _ _ _ _ r z).trans (congrArg₂ (· + ·) ?_ (sum_row_sq 12 13 51 rfl rfl _ _ r (pay21_apply g r)))
  exact (accStepSq 52 _ _ _ _ _ _ r z).trans (congrArg₂ (· + ·) ha (sum_row_sq 11 12 52 rfl rfl _ _ r hcr))
theorem pay30_apply (g : FVec Ideal SG .f32) (a : FVec Ideal (⟨2, ![256, 1]⟩ : Shape) .f32) (cr : FVec Ideal (⟨2, ![256, 48]⟩ : Shape) .f32)
    (r : Fin 256) (z : Fin 1) (s : EReal) (ha : a (ix2 r z) = s) (hcr : ∀ l : Fin 48, cr (ix2 r l) = gN g r 15 (16 + l.val)) :
    k0_pay30 (F := Ideal) g a cr (ix2 r z) = s + rs (gN g r) 15 + rs (gN g r) 16 + rs (gN g r) 17 + rs (gN g r) 18 := by
  refine (accStep 45 _ _ _ _ _ _ r z).trans (congrArg₂ (· + ·) ?_ (sum_row 18 19 45 rfl rfl _ _ r (pay29_apply g r)))
  refine (accStep 46 _ _ _ _ _ _ r z).trans (congrArg₂ (· + ·) ?_ (sum_row 17 18 46 rfl rfl _ _ r (pay28_apply g r)))
  refine (accStep 47 _ _ _ _ _ _ r z).trans (congrArg₂ (· + ·) ?_ (sum_row 16 17 47 rfl rfl _ _ r (pay27_apply g r)))
  exact (accStep 48 _ _ _ _ _ _ r z).trans (congrArg₂ (· + ·) ha (sum_row 15 16 48 rfl rfl _ _ r hcr))
theorem pay31_apply (g : FVec Ideal SG .f32) (a : FVec Ideal (⟨2, ![256, 1]⟩ : Shape) .f32) (cr : FVec Ideal (⟨2, ![256, 48]⟩ : Shape) .f32)
    (r : Fin 256) (z : Fin 1) (s : EReal) (ha : a (ix2 r z) = s) (hcr : ∀ l : Fin 48, cr (ix2 r l) = gN g r 15 (16 + l.val)) :
    k0_pay31 (F := Ideal) g a cr (ix2 r z) = s + rs2 (gN g r) 15 + rs2 (gN g r) 16 + rs2 (gN g r) 17 + rs2 (gN g r) 18 := by
  refine (accStepSq 45 _ _ _ _ _ _ r z).trans (congrArg₂ (· + ·) ?_ (sum_row_sq 18 19 45 rfl rfl _ _ r (pay29_apply g r)))
  refine (accStepSq 46 _ _ _ _ _ _ r z).trans (congrArg₂ (· + ·) ?_ (sum_row_sq 17 18 46 rfl rfl _ _ r (pay28_apply g r)))
  refine (accStepSq 47 _ _ _ _ _ _ r z).trans (congrArg₂ (· + ·) ?_ (sum_row_sq 16 17 47 rfl rfl _ _ r (pay27_apply g r)))
  exact (accStepSq 48 _ _ _ _ _ _ r z).trans (congrArg₂ (· + ·) ha (sum_row_sq 15 16 48 rfl rfl _ _ r hcr))
theorem pay36_apply (g : FVec Ideal SG .f32) (a : FVec Ideal (⟨2, ![256, 1]⟩ : Shape) .f32) (cr : FVec Ideal (⟨2, ![256, 44]⟩ : Shape) .f32)
    (r : Fin 256) (z : Fin 1) (s : EReal) (ha : a (ix2 r z) = s) (hcr : ∀ l : Fin 44, cr (ix2 r l) = gN g r 19 (20 + l.val)) :
    k0_pay36 (F := Ideal) g a cr (ix2 r z) = s + rs (gN g r) 19 + rs (gN g r) 20 + rs (gN g r) 21 + rs (gN g r) 22 := by
  refine (accStep 41 _ _ _ _ _ _ r z).trans (congrArg₂ (· + ·) ?_ (sum_row 22 23 41 rfl rfl _ _ r (pay35_apply g r)))
  refine (accStep 42 _ _ _ _ _ _ r z).trans (congrArg₂ (· + ·) ?_ (sum_row 21 22 42 rfl rfl _ _ r (pay34_apply g r)))
  refine (accStep 43 _ _ _ _ _ _ r z).trans (congrArg₂ (· + ·) ?_ (sum_row 20 21 43 rfl rfl _ _ r (pay33_apply g r)))
  exact (accStep 44 _ _ _ _ _ _ r z).trans (congrArg₂ (· + ·) ha (sum_row 19 20 44 rfl rfl _ _ r hcr))
theorem pay37_apply (g : FVec Ideal SG .f32) (a : FVec Ideal (⟨2, ![256, 1]⟩ : Shape) .f32) (cr : FVec Ideal (⟨2, ![256, 44]⟩ : Shape) .f32)
    (r : Fin 256) (z : Fin 1) (s : EReal) (ha : a (ix2 r z) = s) (hcr : ∀ l : Fin 44, cr (ix2 r l) = gN g r 19 (20 + l.val)) :
    k0_pay37 (F := Ideal) g a cr (ix2 r z) = s + rs2 (gN g r) 19 + rs2 (gN g r) 20 + rs2 (gN g r) 21 + rs2 (gN g r) 22 := by
  refine (accStepSq 41 _ _ _ _ _ _ r z).trans (congrArg₂ (· + ·) ?_ (sum_row_sq 22 23 41 rfl rfl _ _ r (pay35_apply g r)))
  refine (accStepSq 42 _ _ _ _ _ _ r z).trans (congrArg₂ (· + ·) ?_ (sum_row_sq 21 22 42 rfl rfl _ _ r (pay34_apply g r)))
  refine (accStepSq 43 _ _ _ _ _ _ r z).trans (congrArg₂ (· + ·) ?_ (sum_row_sq 20 21 43 rfl rfl _ _ r (pay33_apply g r)))
  exact (accStepSq 44 _ _ _ _ _ _ r z).trans (congrArg₂ (· + ·) ha (sum_row_sq 19 20 44 rfl rfl _ _ r hcr))
theorem pay42_apply (g : FVec Ideal SG .f32) (a : FVec Ideal (⟨2, ![256, 1]⟩ : Shape) .f32) (cr : FVec Ideal (⟨2, ![256, 40]⟩ : Shape) .f32)
    (r : Fin 256) (z : Fin 1) (s : EReal) (ha : a (ix2 r z) = s) (hcr : ∀ l : Fin 40, cr (ix2 r l) = gN g r 23 (24 + l.val)) :
    k0_pay42 (F := Ideal) g a cr (ix2 r z) = s + rs (gN g r) 23 + rs (gN g r) 24 + rs (gN g r) 25 + rs (gN g r) 26 := by
  refine (accStep 37 _ _ _ _ _ _ r z).trans (congrArg₂ (· + ·) ?_ (sum_row 26 27 37 rfl rfl _ _ r (pay41_apply g r)))
  refine (accStep 38 _ _ _ _ _ _ r z).trans (congrArg₂ (· + ·) ?_ (sum_row 25 26 38 rfl rfl _ _ r (pay40_apply g r)))
  refine (accStep 39 _ _ _ _ _ _ r z).trans (congrArg₂ (· + ·) ?_ (sum_row 24 25 39 rfl rfl _ _ r (pay39_apply g r)))
  exact (accStep 40 _ _ _ _ _ _ r z).trans (congrArg₂ (· + ·) ha (sum_row 23 24 40 rfl rfl _ _ r hcr))
theorem pay43_apply (g : FVec Ideal SG .f32) (a : FVec Ideal (⟨2, ![256, 1]⟩ : Shape) .f32) (cr : FVec Ideal (⟨2, ![256, 40]⟩ : Shape) .f32)
    (r : Fin 256) (z : Fin 1) (s : EReal) (ha : a (ix2 r z) = s) (hcr : ∀ l : Fin 40, cr (ix2 r l) = gN g r 23 (24 + l.val)) :
    k0_pay43 (F := Ideal) g a cr (ix2 r z) = s + rs2 (gN g r) 23 + rs2 (gN g r) 24 + rs2 (gN g r) 25 + rs2 (gN g r) 26 := by
  refine (accStepSq 37 _ _ _ _ _ _ r z).trans (congrArg₂ (· + ·) ?_ (sum_row_sq 26 27 37 rfl rfl _ _ r (pay41_apply g r)))
  refine (accStepSq 38 _ _ _ _ _ _ r z).trans (congrArg₂ (· + ·) ?_ (sum_row_sq 25 26 38 rfl rfl _ _ r (pay40_apply g r)))
  refine (accStepSq 39 _ _ _ _ _ _ r z).trans (congrArg₂ (· + ·) ?_ (sum_row_sq 24 25 39 rfl rfl _ _ r (pay39_apply g r)))
  exact (accStepSq 40 _ _ _ _ _ _ r z).trans (congrArg₂ (· + ·) ha (sum_row_sq 23 24 40 rfl rfl _ _ r hcr))
theorem pay48_apply (g : FVec Ideal SG .f32) (a : FVec Ideal (⟨2, ![256, 1]⟩ : Shape) .f32) (cr : FVec Ideal (⟨2, ![256, 36]⟩ : Shape) .f32)
    (r : Fin 256) (z : Fin 1) (s : EReal) (ha : a (ix2 r z) = s) (hcr : ∀ l : Fin 36, cr (ix2 r l) = gN g r 27 (28 + l.val)) :
    k0_pay48 (F := Ideal) g a cr (ix2 r z) = s + rs (gN g r) 27 + rs (gN g r) 28 + rs (gN g r) 29 + rs (gN g r) 30 := by
  refine (accStep 33 _ _ _ _ _ _ r z).trans (congrArg₂ (· + ·) ?_ (sum_row 30 31 33 rfl rfl _ _ r (pay47_apply g r)))
  refine (accStep 34 _ _ _ _ _ _ r z).trans (congrArg₂ (· + ·) ?_ (sum_row 29 30 34 rfl rfl _ _ r (pay46_apply g r)))
  refine (accStep 35 _ _ _ _ _ _ r z).trans (congrArg₂ (· + ·) ?_ (sum_row 28 29 35 rfl rfl _ _ r (pay45_apply g r)))
  exact (accStep 36 _ _ _ _ _ _ r z).trans (congrArg₂ (· + ·) ha (sum_row 27 28 36 rfl rfl _ _ r hcr))
theorem pay49_apply (g : FVec Ideal SG .f32) (a : FVec Ideal (⟨2, ![256, 1]⟩ : Shape) .f32) (cr : FVec Ideal (⟨2, ![256, 36]⟩ : Shape) .f32)
    (r : Fin 256) (z : Fin 1) (s : EReal) (ha : a (ix2 r z) = s) (hcr : ∀ l : Fin 36, cr (ix2 r l) = gN g r 27 (28 + l.val)) :
    k0_pay49 (F := Ideal) g a cr (ix2 r z) = s + rs2 (gN g r) 27 + rs2 (gN g r) 28 + rs2 (gN g r) 29 + rs2 (gN g r) 30 := by
  refine (accStepSq 33 _ _ _ _ _ _ r z).trans (congrArg₂ (· + ·) ?_ (sum_row_sq 30 31 33 rfl rfl _ _ r (pay47_apply g r)))
  refine (accStepSq 34 _ _ _ _ _ _ r z).trans (congrArg₂ (· + ·) ?_ (sum_row_sq 29 30 34 rfl rfl _ _ r (pay46_apply g r)))
  refine (accStepSq 35 _ _ _ _ _ _ r z).trans (congrArg₂ (· + ·) ?_ (sum_row_sq 28 29 35 rfl rfl _ _ r (pay45_apply g r)))
  exact (accStepSq 36 _ _ _ _ _ _ r z).trans (congrArg₂ (· + ·) ha (sum_row_sq 27 28 36 rfl rfl _ _ r hcr))
theorem pay54_apply (g : FVec Ideal SG .f32) (a : FVec Ideal (⟨2, ![256, 1]⟩ : Shape) .f32) (cr : FVec Ideal (⟨2, ![256, 32]⟩ : Shape) .f32)
    (r : Fin 256) (z : Fin 1) (s : EReal) (ha : a (ix2 r z) = s) (hcr : ∀ l : Fin 32, cr (ix2 r l) = gN g r 31 (32 + l.val)) :
    k0_pay54 (F := Ideal) g a cr (ix2 r z) = s + rs (gN g r) 31 + rs (gN g r) 32 + rs (gN g r) 33 + rs (gN g r) 34 := by
  refine (accStep 29 _ _ _ _ _ _ r z).trans (congrArg₂ (· + ·) ?_ (sum_row 34 35 29 rfl rfl _ _ r (pay53_apply g r)))
  refine (accStep 30 _ _ _ _ _ _ r z).trans (congrArg₂ (· + ·) ?_ (sum_row 33 34 30 rfl rfl _ _ r (pay52_apply g r)))
  refine (accStep 31 _ _ _ _ _ _ r z).trans (congrArg₂ (· + ·) ?_ (sum_row 32 33 31 rfl rfl _ _ r (pay51_apply g r)))
  exact (accStep 32 _ _ _ _ _ _ r z).trans (congrArg₂ (· + ·) ha (sum_row 31 32 32 rfl rfl _ _ r hcr))
theorem pay55_apply (g : FVec Ideal SG .f32) (a : FVec Ideal (⟨2, ![256, 1]⟩ : Shape) .f32) (cr : FVec Ideal (⟨2, ![256, 32]⟩ : Shape) .f32)
    (r : Fin 256) (z : Fin 1) (s : EReal) (ha : a (ix2 r z) = s) (hcr : ∀ l : Fin 32, cr (ix2 r l) = gN g r 31 (32 + l.val)) :
    k0_pay55 (F := Ideal) g a cr (ix2 r z) = s + rs2 (gN g r) 31 + rs2 (gN g r) 32 + rs2 (gN g r) 33 + rs2 (gN g r) 34 := by
  refine (accStepSq 29 _ _ _ _ _ _ r z).trans (congrArg₂ (· + ·) ?_ (sum_row_sq 34 35 29 rfl rfl _ _ r (pay53_apply g r)))
  refine (accStepSq 30 _ _ _ _ _ _ r z).trans (congrArg₂ (· + ·) ?_ (sum_row_sq 33 34 30 rfl rfl _ _ r (pay52_apply g r)))
  refine (accStepSq 31 _ _ _ _ _ _ r z).trans (congrArg₂ (· + ·) ?_ (sum_row_sq 32 33 31 rfl rfl _ _ r (pay51_apply g r)))
  exact (accStepSq 32 _ _ _ _ _ _ r z).trans (congrArg₂ (· + ·) ha (sum_row_sq 31 32 32 rfl rfl _ _ r hcr))
theorem pay60_apply (g : FVec Ideal SG .f32) (a : FVec Ideal (⟨2, ![256, 1]⟩ : Shape) .f32) (cr : FVec Ideal (⟨2, ![256, 28]⟩ : Shape) .f32)
    (r : Fin 256) (z : Fin 1) (s : EReal) (ha : a (ix2 r z) = s) (hcr : ∀ l : Fin 28, cr (ix2 r l) = gN g r 35 (36 + l.val)) :
    k0_pay60 (F := Ideal) g a cr (ix2 r z) = s + rs (gN g r) 35 + rs (gN g r) 36 + rs (gN g r) 37 + rs (gN g r) 38 := by
  refine (accStep 25 _ _ _ _ _ _ r z).trans (congrArg₂ (· + ·) ?_ (sum_row 38 39 25 rfl rfl _ _ r (pay59_apply g r)))
  refine (accStep 26 _ _ _ _ _ _ r z).trans (congrArg₂ (· + ·) ?_ (sum_row 37 38 26 rfl rfl _ _ r (pay58_apply g r)))
  refine (accStep 27 _ _ _ _ _ _ r z).trans (congrArg₂ (· + ·) ?_ (sum_row 36 37 27 rfl rfl _ _ r (pay57_apply g r)))
  exact (accStep 28 _ _ _ _ _ _ r z).trans (congrArg₂ (· + ·) ha (sum_row 35 36 28 rfl rfl _ _ r hcr))
theorem pay61_apply (g : FVec Ideal SG .f32) (a : FVec Ideal (⟨2, ![256, 1]⟩ : Shape) .f32) (cr : FVec Ideal (⟨2, ![256, 28]⟩ : Shape) .f32)
    (r : Fin 256) (z : Fin 1) (s : EReal) (ha : a (ix2 r z) = s) (hcr : ∀ l : Fin 28, cr (ix2 r l) = gN g r 35 (36 + l.val)) :
    k0_pay61 (F := Ideal) g a cr (ix2 r z) = s + rs2 (gN g r) 35 + rs2 (gN g r) 36 + rs2 (gN g r) 37 + rs2 (gN g r) 38 := by
  refine (accStepSq 25 _ _ _ _ _ _ r z).trans (congrArg₂ (· + ·) ?_ (sum_row_sq 38 39 25 rfl rfl _ _ r (pay59_apply g r)))
  refine (accStepSq 26 _ _ _ _ _ _ r z).trans (congrArg₂ (· + ·) ?_ (sum_row_sq 37 38 26 rfl rfl _ _ r (pay58_apply g r)))
  refine (accStepSq 27 _ _ _ _ _ _ r z).trans (congrArg₂ (· + ·) ?_ (sum_row_sq 36 37 27 rfl rfl _ _ r (pay57_apply g r)))
  exact (accStepSq 28 _ _ _ _ _ _ r z).trans (congrArg₂ (· + ·) ha (sum_row_sq 35 36 28 rfl rfl _ _ r hcr))
theorem pay66_apply (g : FVec Ideal SG .f32) (a : FVec Ideal (⟨2, ![256, 1]⟩ : Shape) .f32) (cr : FVec Ideal (⟨2, ![256, 24]⟩ : Shape) .f32)
    (r : Fin 256) (z : Fin 1) (s : EReal) (ha : a (ix2 r z) = s) (hcr : ∀ l : Fin 24, cr (ix2 r l) = gN g r 39 (40 + l.val)) :
    k0_pay66 (F := Ideal) g a cr (ix2 r z) = s + rs (gN g r) 39 + rs (gN g r) 40 + rs (gN g r) 41 + rs (gN g r) 42 := by
  refine (accStep 21 _ _ _ _ _ _ r z).trans (congrArg₂ (· + ·) ?_ (sum_row 42 43 21 rfl rfl _ _ r (pay65_apply g r)))
  refine (accStep 22 _ _ _ _ _ _ r z).trans (congrArg₂ (· + ·) ?_ (sum_row 41 42 22 rfl rfl _ _ r (pay64_apply g r)))
  refine (accStep 23 _ _ _ _ _ _ r z).trans (congrArg₂ (· + ·) ?_ (sum_row 40 41 23 rfl rfl _ _ r (pay63_apply g r)))
  exact (accStep 24 _ _ _ _ _ _ r z).trans (congrArg₂ (· + ·) ha (sum_row 39 40 24 rfl rfl _ _ r hcr))
theorem pay67_apply (g : FVec Ideal SG .f32) (a : FVec Ideal (⟨2, ![256, 1]⟩ : Shape) .f32) (cr : FVec Ideal (⟨2, ![256, 24]⟩ : Shape) .f32)
    (r : Fin 256) (z : Fin 1) (s : EReal) (ha : a (ix2 r z) = s) (hcr : ∀ l : Fin 24, cr (ix2 r l) = gN g r 39 (40 + l.val)) :
    k0_pay67 (F := Ideal) g a cr (ix2 r z) = s + rs2 (gN g r) 39 + rs2 (gN g r) 40 + rs2 (gN g r) 41 + rs2 (gN g r) 42 := by
  refine (accStepSq 21 _ _ _ _ _ _ r z).trans (congrArg₂ (· + ·) ?_ (sum_row_sq 42 43 21 rfl rfl _ _ r (pay65_apply g r)))
  refine (accStepSq 22 _ _ _ _ _ _ r z).trans (congrArg₂ (· + ·) ?_ (sum_row_sq 41 42 22 rfl rfl _ _ r (pay64_apply g r)))
  refine (accStepSq 23 _ _ _ _ _ _ r z).trans (congrArg₂ (· + ·) ?_ (sum_row_sq 40 41 23 rfl rfl _ _ r (pay63_apply g r)))
  exact (accStepSq 24 _ _ _ _ _ _ r z).trans (congrArg₂ (· + ·) ha (sum_row_sq 39 40 24 rfl rfl _ _ r hcr))
theorem pay72_apply (g : FVec Ideal SG .f32) (a : FVec Ideal (⟨2, ![256, 1]⟩ : Shape) .f32) (cr : FVec Ideal (⟨2, ![256, 20]⟩ : Shape) .f32)
    (r : Fin 256) (z : Fin 1) (s : EReal) (ha : a (ix2 r z) = s) (hcr : ∀ l : Fin 20, cr (ix2 r l) = gN g r 43 (44 + l.val)) :
    k0_pay72 (F := Ideal) g a cr (ix2 r z) = s + rs (gN g r) 43 + rs (gN g r) 44 + rs (gN g r) 45 + rs (gN g r) 46 := by
  refine (accStep 17 _ _ _ _ _ _ r z).trans (congrArg₂ (· + ·) ?_ (sum_row 46 47 17 rfl rfl _ _ r (pay71_apply g r)))
  refine (accStep 18 _ _ _ _ _ _ r z).trans (congrArg₂ (· + ·) ?_ (sum_row 45 46 18 rfl rfl _ _ r (pay70_apply g r)))
  refine (accStep 19 _ _ _ _ _ _ r z).trans (congrArg₂ (· + ·) ?_ (sum_row 44 45 19 rfl rfl _ _ r (pay69_apply g r)))
  exact (accStep 20 _ _ _ _ _ _ r z).trans (congrArg₂ (· + ·) ha (sum_row 43 44 20 rfl rfl _ _ r hcr))
theorem pay73_apply (g : FVec Ideal SG .f32) (a : FVec Ideal (⟨2, ![256, 1]⟩ : Shape) .f32) (cr : FVec Ideal (⟨2, ![256, 20]⟩ : Shape) .f32)
    (r : Fin 256) (z : Fin 1) (s : EReal) (ha : a (ix2 r z) = s) (hcr : ∀ l : Fin 20, cr (ix2 r l) = gN g r 43 (44 + l.val)) :
    k0_pay73 (F := Ideal) g a cr (ix2 r z) = s + rs2 (gN g r) 43 + rs2 (gN g r) 44 + rs2 (gN g r) 45 + rs2 (gN g r) 46 := by
  refine (accStepSq 17 _ _ _ _ _ _ r z).trans (congrArg₂ (· + ·) ?_ (sum_row_sq 46 47 17 rfl rfl _ _ r (pay71_apply g r)))
  refine (accStepSq 18 _ _ _ _ _ _ r z).trans (congrArg₂ (· + ·) ?_ (sum_row_sq 45 46 18 rfl rfl _ _ r (pay70_apply g r)))
  refine (accStepSq 19 _ _ _ _ _ _ r z).trans (congrArg₂ (· + ·) ?_ (sum_row_sq 44 45 19 rfl rfl _ _ r (pay69_apply g r)))
  exact (accStepSq 20 _ _ _ _ _ _ r z).trans (congrArg₂ (· + ·) ha (sum_row_sq 43 44 20 rfl rfl _ _ r hcr))
theorem pay78_apply (g : FVec Ideal SG .f32) (a : FVec Ideal (⟨2, ![256, 1]⟩ : Shape) .f32) (cr : FVec Ideal (⟨2, ![256, 16]⟩ : Shape) .f32)
    (r : Fin 256) (z : Fin 1) (s : EReal) (ha : a (ix2 r z) = s) (hcr : ∀ l : Fin 16, cr (ix2 r l) = gN g r 47 (48 + l.val)) :
    k0_pay78 (F := Ideal) g a cr (ix2 r z) = s + rs (gN g r) 47 + rs (gN g r) 48 + rs (gN g r) 49 + rs (gN g r) 50 := by
  refine (accStep 13 _ _ _ _ _ _ r z).trans (congrArg₂ (· + ·) ?_ (sum_row 50 51 13 rfl rfl _ _ r (pay77_apply g r)))
  refine (accStep 14 _ _ _ _ _ _ r z).trans (congrArg₂ (· + ·) ?_ (sum_row 49 50 14 rfl rfl _ _ r (pay76_apply g r)))
  refine (accStep 15 _ _ _ _ _ _ r z).trans (congrArg₂ (· + ·) ?_ (sum_row 48 49 15 rfl rfl _ _ r (pay75_apply g r)))
  exact (accStep 16 _ _ _ _ _ _ r z).trans (congrArg₂ (· + ·) ha (sum_row 47 48 16 rfl rfl _ _ r hcr))
theorem pay79_apply (g : FVec Ideal SG .f32) (a : FVec Ideal (⟨2, ![256, 1]⟩ : Shape) .f32) (cr : FVec Ideal (⟨2, ![256, 16]⟩ : Shape) .f32)
    (r : Fin 256) (z : Fin 1) (s : EReal) (ha : a (ix2 r z) = s) (hcr : ∀ l : Fin 16, cr (ix2 r l) = gN g r 47 (48 + l.val)) :
    k0_pay79 (F := Ideal) g a cr (ix2 r z) = s + rs2 (gN g r) 47 + rs2 (gN g r) 48 + rs2 (gN g r) 49 + rs2 (gN g r) 50 := by
  refine (accStepSq 13 _ _ _ _ _ _ r z).trans (congrArg₂ (· + ·) ?_ (sum_row_sq 50 51 13 rfl rfl _ _ r (pay77_apply g r)))
  refine (accStepSq 14 _ _ _ _ _ _ r z).trans (congrArg₂ (· + ·) ?_ (sum_row_sq 49 50 14 rfl rfl _ _ r (pay76_apply g r)))
  refine (accStepSq 15 _ _ _ _ _ _ r z).trans (congrArg₂ (· + ·) ?_ (sum_row_sq 48 49 15 rfl rfl _ _ r (pay75_apply g r)))
  exact (accStepSq 16 _ _ _ _ _ _ r z).trans (congrArg₂ (· + ·) ha (sum_row_sq 47 48 16 rfl rfl _ _ r hcr))
theorem pay84_apply (g : FVec Ideal SG .f32) (a : FVec Ideal (⟨2, ![256, 1]⟩ : Shape) .f32) (cr : FVec Ideal (⟨2, ![256, 12]⟩ : Shape) .f32)
    (r : Fin 256) (z : Fin 1) (s : EReal) (ha : a (ix2 r z) = s) (hcr : ∀ l : Fin 12, cr (ix2 r l) = gN g r 51 (52 + l.val)) :
    k0_pay84 (F := Ideal) g a cr (ix2 r z) = s + rs (gN g r) 51 + rs (gN g r) 52 + rs (gN g r) 53 + rs (gN g r) 54 := by
  refine (accStep 9 _ _ _ _ _ _ r z).trans (congrArg₂ (· + ·) ?_ (sum_row 54 55 9 rfl rfl _ _ r (pay83_apply g r)))
  refine (accStep 10 _ _ _ _ _ _ r z).trans (congrArg₂ (· + ·) ?_ (sum_row 53 54 10 rfl rfl _ _ r (pay82_apply g r)))
  refine (accStep 11 _ _ _ _ _ _ r z).trans (congrArg₂ (· + ·) ?_ (sum_row 52 53 11 rfl rfl _ _ r (pay81_apply g r)))
  exact (accStep 12 _ _ _ _ _ _ r z).trans (congrArg₂ (· + ·) ha (sum_row 51 52 12 rfl rfl _ _ r hcr))
theorem pay85_apply (g : FVec Ideal SG .f32) (a : FVec Ideal (⟨2, ![256, 1]⟩ : Shape) .f32) (cr : FVec Ideal (⟨2, ![256, 12]⟩ : Shape) .f32)
    (r : Fin 256) (z : Fin 1) (s : EReal) (ha : a (ix2 r z) = s) (hcr : ∀ l : Fin 12, cr (ix2 r l) = gN g r 51 (52 + l.val)) :
    k0_pay85 (F := Ideal) g a cr (ix2 r z) = s + rs2 (gN g r) 51 + rs2 (gN g r) 52 + rs2 (gN g r) 53 + rs2 (gN g r) 54 := by
  refine (accStepSq 9 _ _ _ _ _ _ r z).trans (congrArg₂ (· + ·) ?_ (sum_row_sq 54 55 9 rfl rfl _ _ r (pay83_apply g r)))
  refine (accStepSq 10 _ _ _ _ _ _ r z).trans (congrArg₂ (· + ·) ?_ (sum_row_sq 53 54 10 rfl rfl _ _ r (pay82_apply g r)))
  refine (accStepSq 11 _ _ _ _ _ _ r z).trans (congrArg₂ (· + ·) ?_ (sum_row_sq 52 53 11 rfl rfl _ _ r (pay81_apply g r)))
  exact (accStepSq 12 _ _ _ _ _ _ r z).trans (congrArg₂ (· + ·) ha (sum_row_sq 51 52 12 rfl rfl _ _ r hcr))
theorem pay90_apply (g : FVec Ideal SG .f32) (a : FVec Ideal (⟨2, ![256, 1]⟩ : Shape) .f32) (cr : FVec Ideal (⟨2, ![256, 8]⟩ : Shape) .f32)
    (r : Fin 256) (z : Fin 1) (s : EReal) (ha : a (ix2 r z) = s) (hcr : ∀ l : Fin 8, cr (ix2 r l) = gN g r 55 (56 + l.val)) :
    k0_pay90 (F := Ideal) g a cr (ix2 r z) = s + rs (gN g r) 55 + rs (gN g r) 56 + rs (gN g r) 57 + rs (gN g r) 58 := by
  refine (accStep 5 _ _ _ _ _ _ r z).trans (congrArg₂ (· + ·) ?_ (sum_row 58 59 5 rfl rfl _ _ r (pay89_apply g r)))
  refine (accStep 6 _ _ _ _ _ _ r z).trans (congrArg₂ (· + ·) ?_ (sum_row 57 58 6 rfl rfl _ _ r (pay88_apply g r)))
  refine (accStep 7 _ _ _ _ _ _ r z).trans (congrArg₂ (· + ·) ?_ (sum_row 56 57 7 rfl rfl _ _ r (pay87_apply g r)))
  exact (accStep 8 _ _ _ _ _ _ r z).trans (congrArg₂ (· + ·) ha (sum_row 55 56 8 rfl rfl _ _ r hcr))
theorem pay91_apply (g : FVec Ideal SG .f32) (a : FVec Ideal (⟨2, ![256, 1]⟩ : Shape) .f32) (cr : FVec Ideal (⟨2, ![256, 8]⟩ : Shape) .f32)
    (r : Fin 256) (z : Fin 1) (s : EReal) (ha : a (ix2 r z) = s) (hcr : ∀ l : Fin 8, cr (ix2 r l) = gN g r 55 (56 + l.val)) :
    k0_pay91 (F := Ideal) g a cr (ix2 r z) = s + rs2 (gN g r) 55 + rs2 (gN g r) 56 + rs2 (gN g r) 57 + rs2 (gN g r) 58 := by
  refine (accStepSq 5 _ _ _ _ _ _ r z).trans (congrArg₂ (· + ·) ?_ (sum_row_sq 58 59 5 rfl rfl _ _ r (pay89_apply g r)))
  refine (accStepSq 6 _ _ _ _ _ _ r z).trans (congrArg₂ (· + ·) ?_ (sum_row_sq 57 58 6 rfl rfl _ _ r (pay88_apply g r)))
  refine (accStepSq 7 _ _ _ _ _ _ r z).trans (congrArg₂ (· + ·) ?_ (sum_row_sq 56 57 7 rfl rfl _ _ r (pay87_apply g r)))
  exact (accStepSq 8 _ _ _ _ _ _ r z).trans (congrArg₂ (· + ·) ha (sum_row_sq 55 56 8 rfl rfl _ _ r hcr))
theorem pay97_apply (g : FVec Ideal SG .f32) (a : FVec Ideal (⟨2, ![256, 1]⟩ : Shape) .f32) (cr : FVec Ideal (⟨2, ![256, 4]⟩ : Shape) .f32)
    (r : Fin 256) (z : Fin 1) (s : EReal) (ha : a (ix2 r z) = s) (hcr : ∀ l : Fin 4, cr (ix2 r l) = gN g r 59 (60 + l.val)) :
    k0_pay97 (F := Ideal) g a cr (ix2 r z) = Ideal.div (s + rs (gN g r) 59 + rs (gN g r) 60 + rs (gN g r) 61 + rs (gN g r) 62) c2016 := by
  refine congrArg (Ideal.div · c2016) ?_
  refine (accStep 1 _ _ _ _ _ _ r z).trans (congrArg₂ (· + ·) ?_ (sum_row 62 63 1 rfl rfl _ _ r (pay95_apply g r)))
  refine (accStep 2 _ _ _ _ _ _ r z).trans (congrArg₂ (· + ·) ?_ (sum_row 61 62 2 rfl rfl _ _ r (pay94_apply g r)))
  refine (accStep 3 _ _ _ _ _ _ r z).trans (congrArg₂ (· + ·) ?_ (sum_row 60 61 3 rfl rfl _ _ r (pay93_apply g r)))
  exact (accStep 4 _ _ _ _ _ _ r z).trans (congrArg₂ (· + ·) ha (sum_row 59 60 4 rfl rfl _ _ r hcr))
theorem pay96_apply (g : FVec Ideal SG .f32) (a : FVec Ideal (⟨2, ![256, 1]⟩ : Shape) .f32) (cr : FVec Ideal (⟨2, ![256, 4]⟩ : Shape) .f32)
    (r : Fin 256) (z : Fin 1) (s : EReal) (ha : a (ix2 r z) = s) (hcr : ∀ l : Fin 4, cr (ix2 r l) = gN g r 59 (60 + l.val)) :
    k0_pay96 (F := Ideal) g a cr (ix2 r z) = s + rs2 (gN g r) 59 + rs2 (gN g r) 60 + rs2 (gN g r) 61 + rs2 (gN g r) 62 := by
  refine (accStepSq 1 _ _ _ _ _ _ r z).trans (congrArg₂ (· + ·) ?_ (sum_row_sq 62 63 1 rfl rfl _ _ r (pay95_apply g r)))
  refine (accStepSq 2 _ _ _ _ _ _ r z).trans (congrArg₂ (· + ·) ?_ (sum_row_sq 61 62 2 rfl rfl _ _ r (pay94_apply g r)))
  refine (accStepSq 3 _ _ _ _ _ _ r z).trans (congrArg₂ (· + ·) ?_ (sum_row_sq 60 61 3 rfl rfl _ _ r (pay93_apply g r)))
  exact (accStepSq 4 _ _ _ _ _ _ r z).trans (congrArg₂ (· + ·) ha (sum_row_sq 59 60 4 rfl rfl _ _ r hcr))

end Cert.Tri

end
-- ==== Proof.KPieces.lean ====
/- What the body's run leaves in the output block, store by store. The run carries, from one window of four rows to
   the next, the Gram block, the two running sums and the next row's slice; this module reads each carried value
   (the running sum after rows 0 … n-1 is `A1 γ n`, of squares `A2 γ n`) and then each of the 65 stores: row `i`'s
   store covers the columns `off i … off i + 62 - i`, the mean column 2016, the deviation column 2017. -/
import proofs.«151155_j42056319762555_1_alg».proof.Proof.KRows
import proofs.«151155_j42056319762555_1_alg».proof.Proof.Gen.KernelIdeal.Frame.RunA

set_option maxRecDepth 16384

noncomputable section

namespace Cert.Tri

open Idealize.ShloMosaic Idealize.ShloMosaic.ValueIdx Cert.KernelIdeal Cert.KernelIdeal.Gen

variable (c : Dev nD) (i : grid0.Coords) (arg1 : Memref sig .tc .vmem S256x64x128 .f32) (harg1 : arg1.IsWhole)
  (arg2 : Memref sig .tc .vmem S256x2018 .f32) (harg2 : arg2.IsWhole) (x0 : Vec Ideal S256x64x128 .f32)

/-- The Gram block the run computes once and every later step reads. -/
abbrev gRun : FVec Ideal SG .f32 := kernelRun0_A.sl.r (F := Ideal) c arg1 harg1 x0

/-! ## The carried values -/
theorem r1_apply (r : Fin 256) (z : Fin 1) : kernelRun0_A.sl.r_1 (F := Ideal) c arg1 harg1 x0 (ix2 r z) = A1 (gN (gRun c arg1 harg1 x0) r) 3 :=
  (pay6_apply _ r z).trans (A1_three _).symm
theorem r2_apply (r : Fin 256) (z : Fin 1) : kernelRun0_A.sl.r_2 (F := Ideal) c arg1 harg1 x0 (ix2 r z) = A2 (gN (gRun c arg1 harg1 x0) r) 3 :=
  (pay7_apply _ r z).trans (A2_three _).symm
theorem r3_apply (r : Fin 256) (l : Fin 60) : kernelRun0_A.sl.r_3 (F := Ideal) c arg1 harg1 x0 (ix2 r l) = gN (gRun c arg1 harg1 x0) r 3 (4 + l.val) :=
  pay8_apply _ r l
theorem r4_apply (r : Fin 256) (z : Fin 1) : kernelRun0_A.sl.r_4 (F := Ideal) c arg1 harg1 x0 (ix2 r z) = A1 (gN (gRun c arg1 harg1 x0) r) 7 :=
  (pay12_apply (gRun c arg1 harg1 x0) _ _ r z _ (r1_apply c arg1 harg1 x0 r z) (r3_apply c arg1 harg1 x0 r)).trans (A1_add4 _ 3).symm
theorem r5_apply (r : Fin 256) (z : Fin 1) : kernelRun0_A.sl.r_5 (F := Ideal) c arg1 harg1 x0 (ix2 r z) = A2 (gN (gRun c arg1 harg1 x0) r) 7 :=
  (pay13_apply (gRun c arg1 harg1 x0) _ _ r z _ (r2_apply c arg1 harg1 x0 r z) (r3_apply c arg1 harg1 x0 r)).trans (A2_add4 _ 3).symm
theorem r6_apply (r : Fin 256) (l : Fin 56) : kernelRun0_A.sl.r_6 (F := Ideal) c arg1 harg1 x0 (ix2 r l) = gN (gRun c arg1 harg1 x0) r 7 (8 + l.val) :=
  pay14_apply (gRun c arg1 harg1 x0) r l
theorem r7_apply (r : Fin 256) (z : Fin 1) : kernelRun0_A.sl.r_7 (F := Ideal) c arg1 harg1 x0 (ix2 r z) = A1 (gN (gRun c arg1 harg1 x0) r) 11 :=
  (pay18_apply (gRun c arg1 harg1 x0) _ _ r z _ (r4_apply c arg1 harg1 x0 r z) (r6_apply c arg1 harg1 x0 r)).trans (A1_add4 _ 7).symm
theorem r8_apply (r : Fin 256) (z : Fin 1) : kernelRun0_A.sl.r_8 (F := Ideal) c arg1 harg1 x0 (ix2 r z) = A2 (gN (gRun c arg1 harg1 x0) r) 11 :=
  (pay19_apply (gRun c arg1 harg1 x0) _ _ r z _ (r5_apply c arg1 harg1 x0 r z) (r6_apply c arg1 harg1 x0 r)).trans (A2_add4 _ 7).symm
theorem r9_apply (r : Fin 256) (l : Fin 52) : kernelRun0_A.sl.r_9 (F := Ideal) c arg1 harg1 x0 (ix2 r l) = gN (gRun c arg1 harg1 x0) r 11 (12 + l.val) :=
  pay20_apply (gRun c arg1 harg1 x0) r l
theorem r10_apply (r : Fin 256) (z : Fin 1) : kernelRun0_A.sl.r_10 (F := Ideal) c arg1 harg1 x0 (ix2 r z) = A1 (gN (gRun c arg1 harg1 x0) r) 15 :=
  (pay24_apply (gRun c arg1 harg1 x0) _ _ r z _ (r7_apply c arg1 harg1 x0 r z) (r9_apply c arg1 harg1 x0 r)).trans (A1_add4 _ 11).symm
theorem r11_apply (r : Fin 256) (z : Fin 1) : kernelRun0_A.sl.r_11 (F := Ideal) c arg1 harg1 x0 (ix2 r z) = A2 (gN (gRun c arg1 harg1 x0) r) 15 :=
  (pay25_apply (gRun c arg1 harg1 x0) _ _ r z _ (r8_apply c arg1 harg1 x0 r z) (r9_apply c arg1 harg1 x0 r)).trans (A2_add4 _ 11).symm
theorem r12_apply (r : Fin 256) (l : Fin 48) : kernelRun0_A.sl.r_12 (F := Ideal) c arg1 harg1 x0 (ix2 r l) = gN (gRun c arg1 harg1 x0) r 15 (16 + l.val) :=
  pay26_apply (gRun c arg1 harg1 x0) r l
theorem r13_apply (r : Fin 256) (z : Fin 1) : kernelRun0_A.sl.r_13 (F := Ideal) c arg1 harg1 x0 (ix2 r z) = A1 (gN (gRun c arg1 harg1 x0) r) 19 :=
  (pay30_apply (gRun c arg1 harg1 x0) _ _ r z _ (r10_apply c arg1 harg1 x0 r z) (r12_apply c arg1 harg1 x0 r)).trans (A1_add4 _ 15).symm
theorem r14_apply (r : Fin 256) (z : Fin 1) : kernelRun0_A.sl.r_14 (F := Ideal) c arg1 harg1 x0 (ix2 r z) = A2 (gN (gRun c arg1 harg1 x0) r) 19 :=
  (pay31_apply (gRun c arg1 harg1 x0) _ _ r z _ (r11_apply c arg1 harg1 x0 r z) (r12_apply c arg1 harg1 x0 r)).trans (A2_add4 _ 15).symm
theorem r15_apply (r : Fin 256) (l : Fin 44) : kernelRun0_A.sl.r_15 (F := Ideal) c arg1 harg1 x0 (ix2 r l) = gN (gRun c arg1 harg1 x0) r 19 (20 + l.val) :=
  pay32_apply (gRun c arg1 harg1 x0) r l
theorem r16_apply (r : Fin 256) (z : Fin 1) : kernelRun0_A.sl.r_16 (F := Ideal) c arg1 harg1 x0 (ix2 r z) = A1 (gN (gRun c arg1 harg1 x0) r) 23 :=
  (pay36_apply (gRun c arg1 harg1 x0) _ _ r z _ (r13_apply c arg1 harg1 x0 r z) (r15_apply c arg1 harg1 x0 r)).trans (A1_add4 _ 19).symm
theorem r17_apply (r : Fin 256) (z : Fin 1) : kernelRun0_A.sl.r_17 (F := Ideal) c arg1 harg1 x0 (ix2 r z) = A2 (gN (gRun c arg1 harg1 x0) r) 23 :=
  (pay37_apply (gRun c arg1 harg1 x0) _ _ r z _ (r14_apply c arg1 harg1 x0 r z) (r15_apply c arg1 harg1 x0 r)).trans (A2_add4 _ 19).symm
theorem r18_apply (r : Fin 256) (l : Fin 40) : kernelRun0_A.sl.r_18 (F := Ideal) c arg1 harg1 x0 (ix2 r l) = gN (gRun c arg1 harg1 x0) r 23 (24 + l.val) :=
  pay38_apply (gRun c arg1 harg1 x0) r l
theorem r19_apply (r : Fin 256) (z : Fin 1) : kernelRun0_A.sl.r_19 (F := Ideal) c arg1 harg1 x0 (ix2 r z) = A1 (gN (gRun c arg1 harg1 x0) r) 27 :=
  (pay42_apply (gRun c arg1 harg1 x0) _ _ r z _ (r16_apply c arg1 harg1 x0 r z) (r18_apply c arg1 harg1 x0 r)).trans (A1_add4 _ 23).symm
theorem r20_apply (r : Fin 256) (z : Fin 1) : kernelRun0_A.sl.r_20 (F := Ideal) c arg1 harg1 x0 (ix2 r z) = A2 (gN (gRun c arg1 harg1 x0) r) 27 :=
  (pay43_apply (gRun c arg1 harg1 x0) _ _ r z _ (r17_apply c arg1 harg1 x0 r z) (r18_apply c arg1 harg1 x0 r)).trans (A2_add4 _ 23).symm
theorem r21_apply (r : Fin 256) (l : Fin 36) : kernelRun0_A.sl.r_21 (F := Ideal) c arg1 harg1 x0 (ix2 r l) = gN (gRun c arg1 harg1 x0) r 27 (28 + l.val) :=
  pay44_apply (gRun c arg1 harg1 x0) r l
theorem r22_apply (r : Fin 256) (z : Fin 1) : kernelRun0_A.sl.r_22 (F := Ideal) c arg1 harg1 x0 (ix2 r z) = A1 (gN (gRun c arg1 harg1 x0) r) 31 :=
  (pay48_apply (gRun c arg1 harg1 x0) _ _ r z _ (r19_apply c arg1 harg1 x0 r z) (r21_apply c arg1 harg1 x0 r)).trans (A1_add4 _ 27).symm
theorem r23_apply (r : Fin 256) (z : Fin 1) : kernelRun0_A.sl.r_23 (F := Ideal) c arg1 harg1 x0 (ix2 r z) = A2 (gN (gRun c arg1 harg1 x0) r) 31 :=
  (pay49_apply (gRun c arg1 harg1 x0) _ _ r z _ (r20_apply c arg1 harg1 x0 r z) (r21_apply c arg1 harg1 x0 r)).trans (A2_add4 _ 27).symm
theorem r24_apply (r : Fin 256) (l : Fin 32) : kernelRun0_A.sl.r_24 (F := Ideal) c arg1 harg1 x0 (ix2 r l) = gN (gRun c arg1 harg1 x0) r 31 (32 + l.val) :=
  pay50_apply (gRun c arg1 harg1 x0) r l
theorem r25_apply (r : Fin 256) (z : Fin 1) : kernelRun0_A.sl.r_25 (F := Ideal) c arg1 harg1 x0 (ix2 r z) = A1 (gN (gRun c arg1 harg1 x0) r) 35 :=
  (pay54_apply (gRun c arg1 harg1 x0) _ _ r z _ (r22_apply c arg1 harg1 x0 r z) (r24_apply c arg1 harg1 x0 r)).trans (A1_add4 _ 31).symm
theorem r26_apply (r : Fin 256) (z : Fin 1) : kernelRun0_A.sl.r_26 (F := Ideal) c arg1 harg1 x0 (ix2 r z) = A2 (gN (gRun c arg1 harg1 x0) r) 35 :=
  (pay55_apply (gRun c arg1 harg1 x0) _ _ r z _ (r23_apply c arg1 harg1 x0 r z) (r24_apply c arg1 harg1 x0 r)).trans (A2_add4 _ 31).symm
theorem r27_apply (r : Fin 256) (l : Fin 28) : kernelRun0_A.sl.r_27 (F := Ideal) c arg1 harg1 x0 (ix2 r l) = gN (gRun c arg1 harg1 x0) r 35 (36 + l.val) :=
  pay56_apply (gRun c arg1 harg1 x0) r l
theorem r28_apply (r : Fin 256) (z : Fin 1) : kernelRun0_A.sl.r_28 (F := Ideal) c arg1 harg1 x0 (ix2 r z) = A1 (gN (gRun c arg1 harg1 x0) r) 39 :=
  (pay60_apply (gRun c arg1 harg1 x0) _ _ r z _ (r25_apply c arg1 harg1 x0 r z) (r27_apply c arg1 harg1 x0 r)).trans (A1_add4 _ 35).symm
theorem r29_apply (r : Fin 256) (z : Fin 1) : kernelRun0_A.sl.r_29 (F := Ideal) c arg1 harg1 x0 (ix2 r z) = A2 (gN (gRun c arg1 harg1 x0) r) 39 :=
  (pay61_apply (gRun c arg1 harg1 x0) _ _ r z _ (r26_apply c arg1 harg1 x0 r z) (r27_apply c arg1 harg1 x0 r)).trans (A2_add4 _ 35).symm
theorem r30_apply (r : Fin 256) (l : Fin 24) : kernelRun0_A.sl.r_30 (F := Ideal) c arg1 harg1 x0 (ix2 r l) = gN (gRun c arg1 harg1 x0) r 39 (40 + l.val) :=
  pay62_apply (gRun c arg1 harg1 x0) r l
theorem r31_apply (r : Fin 256) (z : Fin 1) : kernelRun0_A.sl.r_31 (F := Ideal) c arg1 harg1 x0 (ix2 r z) = A1 (gN (gRun c arg1 harg1 x0) r) 43 :=
  (pay66_apply (gRun c arg1 harg1 x0) _ _ r z _ (r28_apply c arg1 harg1 x0 r z) (r30_apply c arg1 harg1 x0 r)).trans (A1_add4 _ 39).symm
theorem r32_apply (r : Fin 256) (z : Fin 1) : kernelRun0_A.sl.r_32 (F := Ideal) c arg1 harg1 x0 (ix2 r z) = A2 (gN (gRun c arg1 harg1 x0) r) 43 :=
  (pay67_apply (gRun c arg1 harg1 x0) _ _ r z _ (r29_apply c arg1 harg1 x0 r z) (r30_apply c arg1 harg1 x0 r)).trans (A2_add4 _ 39).symm
theorem r33_apply (r : Fin 256) (l : Fin 20) : kernelRun0_A.sl.r_33 (F := Ideal) c arg1 harg1 x0 (ix2 r l) = gN (gRun c arg1 harg1 x0) r 43 (44 + l.val) :=
  pay68_apply (gRun c arg1 harg1 x0) r l
theorem r34_apply (r : Fin 256) (z : Fin 1) : kernelRun0_A.sl.r_34 (F := Ideal) c arg1 harg1 x0 (ix2 r z) = A1 (gN (gRun c arg1 harg1 x0) r) 47 :=
  (pay72_apply (gRun c arg1 harg1 x0) _ _ r z _ (r31_apply c arg1 harg1 x0 r z) (r33_apply c arg1 harg1 x0 r)).trans (A1_add4 _ 43).symm
theorem r35_apply (r : Fin 256) (z : Fin 1) : kernelRun0_A.sl.r_35 (F := Ideal) c arg1 harg1 x0 (ix2 r z) = A2 (gN (gRun c arg1 harg1 x0) r) 47 :=
  (pay73_apply (gRun c arg1 harg1 x0) _ _ r z _ (r32_apply c arg1 harg1 x0 r z) (r33_apply c arg1 harg1 x0 r)).trans (A2_add4 _ 43).symm
theorem r36_apply (r : Fin 256) (l : Fin 16) : kernelRun0_A.sl.r_36 (F := Ideal) c arg1 harg1 x0 (ix2 r l) = gN (gRun c arg1 harg1 x0) r 47 (48 + l.val) :=
  pay74_apply (gRun c arg1 harg1 x0) r l
theorem r37_apply (r : Fin 256) (z : Fin 1) : kernelRun0_A.sl.r_37 (F := Ideal) c arg1 harg1 x0 (ix2 r z) = A1 (gN (gRun c arg1 harg1 x0) r) 51 :=
  (pay78_apply (gRun c arg1 harg1 x0) _ _ r z _ (r34_apply c arg1 harg1 x0 r z) (r36_apply c arg1 harg1 x0 r)).trans (A1_add4 _ 47).symm
theorem r38_apply (r : Fin 256) (z : Fin 1) : kernelRun0_A.sl.r_38 (F := Ideal) c arg1 harg1 x0 (ix2 r z) = A2 (gN (gRun c arg1 harg1 x0) r) 51 :=
  (pay79_apply (gRun c arg1 harg1 x0) _ _ r z _ (r35_apply c arg1 harg1 x0 r z) (r36_apply c arg1 harg1 x0 r)).trans (A2_add4 _ 47).symm
theorem r39_apply (r : Fin 256) (l : Fin 12) : kernelRun0_A.sl.r_39 (F := Ideal) c arg1 harg1 x0 (ix2 r l) = gN (gRun c arg1 harg1 x0) r 51 (52 + l.val) :=
  pay80_apply (gRun c arg1 harg1 x0) r l
theorem r40_apply (r : Fin 256) (z : Fin 1) : kernelRun0_A.sl.r_40 (F := Ideal) c arg1 harg1 x0 (ix2 r z) = A1 (gN (gRun c arg1 harg1 x0) r) 55 :=
  (pay84_apply (gRun c arg1 harg1 x0) _ _ r z _ (r37_apply c arg1 harg1 x0 r z) (r39_apply c arg1 harg1 x0 r)).trans (A1_add4 _ 51).symm
theorem r41_apply (r : Fin 256) (z : Fin 1) : kernelRun0_A.sl.r_41 (F := Ideal) c arg1 harg1 x0 (ix2 r z) = A2 (gN (gRun c arg1 harg1 x0) r) 55 :=
  (pay85_apply (gRun c arg1 harg1 x0) _ _ r z _ (r38_apply c arg1 harg1 x0 r z) (r39_apply c arg1 harg1 x0 r)).trans (A2_add4 _ 51).symm
theorem r42_apply (r : Fin 256) (l : Fin 8) : kernelRun0_A.sl.r_42 (F := Ideal) c arg1 harg1 x0 (ix2 r l) = gN (gRun c arg1 harg1 x0) r 55 (56 + l.val) :=
  pay86_apply (gRun c arg1 harg1 x0) r l
theorem r43_apply (r : Fin 256) (z : Fin 1) : kernelRun0_A.sl.r_43 (F := Ideal) c arg1 harg1 x0 (ix2 r z) = A1 (gN (gRun c arg1 harg1 x0) r) 59 :=
  (pay90_apply (gRun c arg1 harg1 x0) _ _ r z _ (r40_apply c arg1 harg1 x0 r z) (r42_apply c arg1 harg1 x0 r)).trans (A1_add4 _ 55).symm
theorem r44_apply (r : Fin 256) (z : Fin 1) : kernelRun0_A.sl.r_44 (F := Ideal) c arg1 harg1 x0 (ix2 r z) = A2 (gN (gRun c arg1 harg1 x0) r) 59 :=
  (pay91_apply (gRun c arg1 harg1 x0) _ _ r z _ (r41_apply c arg1 harg1 x0 r z) (r42_apply c arg1 harg1 x0 r)).trans (A2_add4 _ 55).symm
theorem r45_apply (r : Fin 256) (l : Fin 4) : kernelRun0_A.sl.r_45 (F := Ideal) c arg1 harg1 x0 (ix2 r l) = gN (gRun c arg1 harg1 x0) r 59 (60 + l.val) :=
  pay92_apply (gRun c arg1 harg1 x0) r l
/-- The total of the squares. -/
theorem r46_apply (r : Fin 256) (z : Fin 1) : kernelRun0_A.sl.r_46 (F := Ideal) c arg1 harg1 x0 (ix2 r z) = S2 (gN (gRun c arg1 harg1 x0) r) :=
  (pay96_apply (gRun c arg1 harg1 x0) _ _ r z _ (r44_apply c arg1 harg1 x0 r z) (r45_apply c arg1 harg1 x0 r)).trans ((A2_add4 _ 59).symm.trans (S2_eq_A2 _).symm)
/-- The mean. -/
theorem r47_apply (r : Fin 256) (z : Fin 1) : kernelRun0_A.sl.r_47 (F := Ideal) c arg1 harg1 x0 (ix2 r z) = meanK (gN (gRun c arg1 harg1 x0) r) :=
  (pay97_apply (gRun c arg1 harg1 x0) _ _ r z _ (r43_apply c arg1 harg1 x0 r z) (r45_apply c arg1 harg1 x0 r)).trans
    (congrArg (Ideal.div · c2016) ((A1_add4 _ 59).symm.trans (S1_eq_A1 _).symm))
/-- The deviation, from the total of squares and the mean. -/
theorem std_apply (r : Fin 256) (z : Fin 1) : k0_pay1 (F := Ideal) (kernelRun0_A.sl.r_46 (F := Ideal) c arg1 harg1 x0) (kernelRun0_A.sl.r_47 (F := Ideal) c arg1 harg1 x0) (ix2 r z) = stdK (gN (gRun c arg1 harg1 x0) r) := by
  show Ideal.sqrt (max (Ideal.div ((kernelRun0_A.sl.r_46 (F := Ideal) c arg1 harg1 x0) (ix2 r z)) c2016 - (kernelRun0_A.sl.r_47 (F := Ideal) c arg1 harg1 x0) (ix2 r z) * (kernelRun0_A.sl.r_47 (F := Ideal) c arg1 harg1 x0) (ix2 r z)) (Ideal.ofBits .f32 0x00000000#32)) = _
  rw [r46_apply, r47_apply]; rfl

/-! ## The stores -/
/-- Every store of the run holds the block function of the Gram block at the entries it covers. -/
theorem pieces_eq : ∀ p ∈ (kernelRun0_A (F := Ideal) c i arg1 harg1 arg2 harg2 x0).1, ∀ x : p.1.shape.Idx,
    p.2 x = Blk (gRun c arg1 harg1 x0) (p.1.emb x) := by
  unfold kernelRun0_A
  dsimp only
  refine List.forall_mem_cons.2 ⟨fun x => colPiece 2017 (gRun c arg1 harg1 x0) (by decide) _ (fun r z => (std_apply c arg1 harg1 x0 r z).trans (rowVal_2017 _).symm) x, ?_⟩
  refine List.forall_mem_cons.2 ⟨fun x => colPiece 2016 (gRun c arg1 harg1 x0) (by decide) _ (fun r z => (r47_apply c arg1 harg1 x0 r z).trans (rowVal_2016 _).symm) x, ?_⟩
  refine List.forall_mem_cons.2 ⟨fun x => rowPiece 62 63 1 2015 rfl rfl (by decide) (gRun c arg1 harg1 x0) (by decide) _ (fun r l => pay95_apply (gRun c arg1 harg1 x0) r l) x, ?_⟩
  refine List.forall_mem_cons.2 ⟨fun x => rowPiece 61 62 2 2013 rfl rfl (by decide) (gRun c arg1 harg1 x0) (by decide) _ (fun r l => pay94_apply (gRun c arg1 harg1 x0) r l) x, ?_⟩
  refine List.forall_mem_cons.2 ⟨fun x => rowPiece 60 61 3 2010 rfl rfl (by decide) (gRun c arg1 harg1 x0) (by decide) _ (fun r l => pay93_apply (gRun c arg1 harg1 x0) r l) x, ?_⟩
  refine List.forall_mem_cons.2 ⟨fun x => rowPiece 59 60 4 2006 rfl rfl (by decide) (gRun c arg1 harg1 x0) (by decide) _ (fun r l => r45_apply c arg1 harg1 x0 r l) x, ?_⟩
  refine List.forall_mem_cons.2 ⟨fun x => rowPiece 58 59 5 2001 rfl rfl (by decide) (gRun c arg1 harg1 x0) (by decide) _ (fun r l => pay89_apply (gRun c arg1 harg1 x0) r l) x, ?_⟩
  refine List.forall_mem_cons.2 ⟨fun x => rowPiece 57 58 6 1995 rfl rfl (by decide) (gRun c arg1 harg1 x0) (by decide) _ (fun r l => pay88_apply (gRun c arg1 harg1 x0) r l) x, ?_⟩
  refine List.forall_mem_cons.2 ⟨fun x => rowPiece 56 57 7 1988 rfl rfl (by decide) (gRun c arg1 harg1 x0) (by decide) _ (fun r l => pay87_apply (gRun c arg1 harg1 x0) r l) x, ?_⟩
  refine List.forall_mem_cons.2 ⟨fun x => rowPiece 55 56 8 1980 rfl rfl (by decide) (gRun c arg1 harg1 x0) (by decide) _ (fun r l => r42_apply c arg1 harg1 x0 r l) x, ?_⟩
  refine List.forall_mem_cons.2 ⟨fun x => rowPiece 54 55 9 1971 rfl rfl (by decide) (gRun c arg1 harg1 x0) (by decide) _ (fun r l => pay83_apply (gRun c arg1 harg1 x0) r l) x, ?_⟩
  refine List.forall_mem_cons.2 ⟨fun x => rowPiece 53 54 10 1961 rfl rfl (by decide) (gRun c arg1 harg1 x0) (by decide) _ (fun r l => pay82_apply (gRun c arg1 harg1 x0) r l) x, ?_⟩
  refine List.forall_mem_cons.2 ⟨fun x => rowPiece 52 53 11 1950 rfl rfl (by decide) (gRun c arg1 harg1 x0) (by decide) _ (fun r l => pay81_apply (gRun c arg1 harg1 x0) r l) x, ?_⟩
  refine List.forall_mem_cons.2 ⟨fun x => rowPiece 51 52 12 1938 rfl rfl (by decide) (gRun c arg1 harg1 x0) (by decide) _ (fun r l => r39_apply c arg1 harg1 x0 r l) x, ?_⟩
  refine List.forall_mem_cons.2 ⟨fun x => rowPiece 50 51 13 1925 rfl rfl (by decide) (gRun c arg1 harg1 x0) (by decide) _ (fun r l => pay77_apply (gRun c arg1 harg1 x0) r l) x, ?_⟩
  refine List.forall_mem_cons.2 ⟨fun x => rowPiece 49 50 14 1911 rfl rfl (by decide) (gRun c arg1 harg1 x0) (by decide) _ (fun r l => pay76_apply (gRun c arg1 harg1 x0) r l) x, ?_⟩
  refine List.forall_mem_cons.2 ⟨fun x => rowPiece 48 49 15 1896 rfl rfl (by decide) (gRun c arg1 harg1 x0) (by decide) _ (fun r l => pay75_apply (gRun c arg1 harg1 x0) r l) x, ?_⟩
  refine List.forall_mem_cons.2 ⟨fun x => rowPiece 47 48 16 1880 rfl rfl (by decide) (gRun c arg1 harg1 x0) (by decide) _ (fun r l => r36_apply c arg1 harg1 x0 r l) x, ?_⟩
  refine List.forall_mem_cons.2 ⟨fun x => rowPiece 46 47 17 1863 rfl rfl (by decide) (gRun c arg1 harg1 x0) (by decide) _ (fun r l => pay71_apply (gRun c arg1 harg1 x0) r l) x, ?_⟩
  refine List.forall_mem_cons.2 ⟨fun x => rowPiece 45 46 18 1845 rfl rfl (by decide) (gRun c arg1 harg1 x0) (by decide) _ (fun r l => pay70_apply (gRun c arg1 harg1 x0) r l) x, ?_⟩
  refine List.forall_mem_cons.2 ⟨fun x => rowPiece 44 45 19 1826 rfl rfl (by decide) (gRun c arg1 harg1 x0) (by decide) _ (fun r l => pay69_apply (gRun c arg1 harg1 x0) r l) x, ?_⟩
  refine List.forall_mem_cons.2 ⟨fun x => rowPiece 43 44 20 1806 rfl rfl (by decide) (gRun c arg1 harg1 x0) (by decide) _ (fun r l => r33_apply c arg1 harg1 x0 r l) x, ?_⟩
  refine List.forall_mem_cons.2 ⟨fun x => rowPiece 42 43 21 1785 rfl rfl (by decide) (gRun c arg1 harg1 x0) (by decide) _ (fun r l => pay65_apply (gRun c arg1 harg1 x0) r l) x, ?_⟩
  refine List.forall_mem_cons.2 ⟨fun x => rowPiece 41 42 22 1763 rfl rfl (by decide) (gRun c arg1 harg1 x0) (by decide) _ (fun r l => pay64_apply (gRun c arg1 harg1 x0) r l) x, ?_⟩
  refine List.forall_mem_cons.2 ⟨fun x => rowPiece 40 41 23 1740 rfl rfl (by decide) (gRun c arg1 harg1 x0) (by decide) _ (fun r l => pay63_apply (gRun c arg1 harg1 x0) r l) x, ?_⟩
  refine List.forall_mem_cons.2 ⟨fun x => rowPiece 39 40 24 1716 rfl rfl (by decide) (gRun c arg1 harg1 x0) (by decide) _ (fun r l => r30_apply c arg1 harg1 x0 r l) x, ?_⟩
  refine List.forall_mem_cons.2 ⟨fun x => rowPiece 38 39 25 1691 rfl rfl (by decide) (gRun c arg1 harg1 x0) (by decide) _ (fun r l => pay59_apply (gRun c arg1 harg1 x0) r l) x, ?_⟩
  refine List.forall_mem_cons.2 ⟨fun x => rowPiece 37 38 26 1665 rfl rfl (by decide) (gRun c arg1 harg1 x0) (by decide) _ (fun r l => pay58_apply (gRun c arg1 harg1 x0) r l) x, ?_⟩
  refine List.forall_mem_cons.2 ⟨fun x => rowPiece 36 37 27 1638 rfl rfl (by decide) (gRun c arg1 harg1 x0) (by decide) _ (fun r l => pay57_apply (gRun c arg1 harg1 x0) r l) x, ?_⟩
  refine List.forall_mem_cons.2 ⟨fun x => rowPiece 35 36 28 1610 rfl rfl (by decide) (gRun c arg1 harg1 x0) (by decide) _ (fun r l => r27_apply c arg1 harg1 x0 r l) x, ?_⟩
  refine List.forall_mem_cons.2 ⟨fun x => rowPiece 34 35 29 1581 rfl rfl (by decide) (gRun c arg1 harg1 x0) (by decide) _ (fun r l => pay53_apply (gRun c arg1 harg1 x0) r l) x, ?_⟩
  refine List.forall_mem_cons.2 ⟨fun x => rowPiece 33 34 30 1551 rfl rfl (by decide) (gRun c arg1 harg1 x0) (by decide) _ (fun r l => pay52_apply (gRun c arg1 harg1 x0) r l) x, ?_⟩
  refine List.forall_mem_cons.2 ⟨fun x => rowPiece 32 33 31 1520 rfl rfl (by decide) (gRun c arg1 harg1 x0) (by decide) _ (fun r l => pay51_apply (gRun c arg1 harg1 x0) r l) x, ?_⟩
  refine List.forall_mem_cons.2 ⟨fun x => rowPiece 31 32 32 1488 rfl rfl (by decide) (gRun c arg1 harg1 x0) (by decide) _ (fun r l => r24_apply c arg1 harg1 x0 r l) x, ?_⟩
  refine List.forall_mem_cons.2 ⟨fun x => rowPiece 30 31 33 1455 rfl rfl (by decide) (gRun c arg1 harg1 x0) (by decide) _ (fun r l => pay47_apply (gRun c arg1 harg1 x0) r l) x, ?_⟩
  refine List.forall_mem_cons.2 ⟨fun x => rowPiece 29 30 34 1421 rfl rfl (by decide) (gRun c arg1 harg1 x0) (by decide) _ (fun r l => pay46_apply (gRun c arg1 harg1 x0) r l) x, ?_⟩
  refine List.forall_mem_cons.2 ⟨fun x => rowPiece 28 29 35 1386 rfl rfl (by decide) (gRun c arg1 harg1 x0) (by decide) _ (fun r l => pay45_apply (gRun c arg1 harg1 x0) r l) x, ?_⟩
  refine List.forall_mem_cons.2 ⟨fun x => rowPiece 27 28 36 1350 rfl rfl (by decide) (gRun c arg1 harg1 x0) (by decide) _ (fun r l => r21_apply c arg1 harg1 x0 r l) x, ?_⟩
  refine List.forall_mem_cons.2 ⟨fun x => rowPiece 26 27 37 1313 rfl rfl (by decide) (gRun c arg1 harg1 x0) (by decide) _ (fun r l => pay41_apply (gRun c arg1 harg1 x0) r l) x, ?_⟩
  refine List.forall_mem_cons.2 ⟨fun x => rowPiece 25 26 38 1275 rfl rfl (by decide) (gRun c arg1 harg1 x0) (by decide) _ (fun r l => pay40_apply (gRun c arg1 harg1 x0) r l) x, ?_⟩
  refine List.forall_mem_cons.2 ⟨fun x => rowPiece 24 25 39 1236 rfl rfl (by decide) (gRun c arg1 harg1 x0) (by decide) _ (fun r l => pay39_apply (gRun c arg1 harg1 x0) r l) x, ?_⟩
  refine List.forall_mem_cons.2 ⟨fun x => rowPiece 23 24 40 1196 rfl rfl (by decide) (gRun c arg1 harg1 x0) (by decide) _ (fun r l => r18_apply c arg1 harg1 x0 r l) x, ?_⟩
  refine List.forall_mem_cons.2 ⟨fun x => rowPiece 22 23 41 1155 rfl rfl (by decide) (gRun c arg1 harg1 x0) (by decide) _ (fun r l => pay35_apply (gRun c arg1 harg1 x0) r l) x, ?_⟩
  refine List.forall_mem_cons.2 ⟨fun x => rowPiece 21 22 42 1113 rfl rfl (by decide) (gRun c arg1 harg1 x0) (by decide) _ (fun r l => pay34_apply (gRun c arg1 harg1 x0) r l) x, ?_⟩
  refine List.forall_mem_cons.2 ⟨fun x => rowPiece 20 21 43 1070 rfl rfl (by decide) (gRun c arg1 harg1 x0) (by decide) _ (fun r l => pay33_apply (gRun c arg1 harg1 x0) r l) x, ?_⟩
  refine List.forall_mem_cons.2 ⟨fun x => rowPiece 19 20 44 1026 rfl rfl (by decide) (gRun c arg1 harg1 x0) (by decide) _ (fun r l => r15_apply c arg1 harg1 x0 r l) x, ?_⟩
  refine List.forall_mem_cons.2 ⟨fun x => rowPiece 18 19 45 981 rfl rfl (by decide) (gRun c arg1 harg1 x0) (by decide) _ (fun r l => pay29_apply (gRun c arg1 harg1 x0) r l) x, ?_⟩
  refine List.forall_mem_cons.2 ⟨fun x => rowPiece 17 18 46 935 rfl rfl (by decide) (gRun c arg1 harg1 x0) (by decide) _ (fun r l => pay28_apply (gRun c arg1 harg1 x0) r l) x, ?_⟩
  refine List.forall_mem_cons.2 ⟨fun x => rowPiece 16 17 47 888 rfl rfl (by decide) (gRun c arg1 harg1 x0) (by decide) _ (fun r l => pay27_apply (gRun c arg1 harg1 x0) r l) x, ?_⟩
  refine List.forall_mem_cons.2 ⟨fun x => rowPiece 15 16 48 840 rfl rfl (by decide) (gRun c arg1 harg1 x0) (by decide) _ (fun r l => r12_apply c arg1 harg1 x0 r l) x, ?_⟩
  refine List.forall_mem_cons.2 ⟨fun x => rowPiece 14 15 49 791 rfl rfl (by decide) (gRun c arg1 harg1 x0) (by decide) _ (fun r l => pay23_apply (gRun c arg1 harg1 x0) r l) x, ?_⟩
  refine List.forall_mem_cons.2 ⟨fun x => rowPiece 13 14 50 741 rfl rfl (by decide) (gRun c arg1 harg1 x0) (by decide) _ (fun r l => pay22_apply (gRun c arg1 harg1 x0) r l) x, ?_⟩
  refine List.forall_mem_cons.2 ⟨fun x => rowPiece 12 13 51 690 rfl rfl (by decide) (gRun c arg1 harg1 x0) (by decide) _ (fun r l => pay21_apply (gRun c arg1 harg1 x0) r l) x, ?_⟩
  refine List.forall_mem_cons.2 ⟨fun x => rowPiece 11 12 52 638 rfl rfl (by decide) (gRun c arg1 harg1 x0) (by decide) _ (fun r l => r9_apply c arg1 harg1 x0 r l) x, ?_⟩
  refine List.forall_mem_cons.2 ⟨fun x => rowPiece 10 11 53 585 rfl rfl (by decide) (gRun c arg1 harg1 x0) (by decide) _ (fun r l => pay17_apply (gRun c arg1 harg1 x0) r l) x, ?_⟩
  refine List.forall_mem_cons.2 ⟨fun x => rowPiece 9 10 54 531 rfl rfl (by decide) (gRun c arg1 harg1 x0) (by decide) _ (fun r l => pay16_apply (gRun c arg1 harg1 x0) r l) x, ?_⟩
  refine List.forall_mem_cons.2 ⟨fun x => rowPiece 8 9 55 476 rfl rfl (by decide) (gRun c arg1 harg1 x0) (by decide) _ (fun r l => pay15_apply (gRun c arg1 harg1 x0) r l) x, ?_⟩
  refine List.forall_mem_cons.2 ⟨fun x => rowPiece 7 8 56 420 rfl rfl (by decide) (gRun c arg1 harg1 x0) (by decide) _ (fun r l => r6_apply c arg1 harg1 x0 r l) x, ?_⟩
  refine List.forall_mem_cons.2 ⟨fun x => rowPiece 6 7 57 363 rfl rfl (by decide) (gRun c arg1 harg1 x0) (by decide) _ (fun r l => pay11_apply (gRun c arg1 harg1 x0) r l) x, ?_⟩
  refine List.forall_mem_cons.2 ⟨fun x => rowPiece 5 6 58 305 rfl rfl (by decide) (gRun c arg1 harg1 x0) (by decide) _ (fun r l => pay10_apply (gRun c arg1 harg1 x0) r l) x, ?_⟩
  refine List.forall_mem_cons.2 ⟨fun x => rowPiece 4 5 59 246 rfl rfl (by decide) (gRun c arg1 harg1 x0) (by decide) _ (fun r l => pay9_apply (gRun c arg1 harg1 x0) r l) x, ?_⟩
  refine List.forall_mem_cons.2 ⟨fun x => rowPiece 3 4 60 186 rfl rfl (by decide) (gRun c arg1 harg1 x0) (by decide) _ (fun r l => r3_apply c arg1 harg1 x0 r l) x, ?_⟩
  refine List.forall_mem_cons.2 ⟨fun x => rowPiece 2 3 61 125 rfl rfl (by decide) (gRun c arg1 harg1 x0) (by decide) _ (fun r l => pay5_apply _ r l) x, ?_⟩
  refine List.forall_mem_cons.2 ⟨fun x => rowPiece 1 2 62 63 rfl rfl (by decide) (gRun c arg1 harg1 x0) (by decide) _ (fun r l => pay4_apply _ r l) x, ?_⟩
  refine List.forall_mem_cons.2 ⟨fun x => rowPiece 0 1 63 0 rfl rfl (by decide) (gRun c arg1 harg1 x0) (by decide) _ (fun r l => pay3_apply _ r l) x, ?_⟩
  exact fun _ h => absurd h List.not_mem_nil

end Cert.Tri

end
-- ==== Proof.KGram.lean ====
/-
  The kernel's matrix product, read at an entry: with the rows rounded to bf16 (the identity on the extended reals)
  and a zero accumulator, the batched product of a [256, 64, 128] block with itself along the last axis is the Gram
  block, `g (r, i, j) = ∑_d x (r, i, d) · x (r, j, d)`.
-/
import proofs.«151155_j42056319762555_1_alg».proof.Proof.Gen.KernelIdeal.Skeleton
import Idealize.ShloMosaic.PureOps.Ideal.Laws
import Idealize.ShloMosaic.Lib.ValueIdx

noncomputable section

open scoped BigOperators

namespace Cert.Tri

open Idealize.ShloMosaic Idealize.ShloMosaic.ValueIdx Cert.KernelIdeal Cert.KernelIdeal.Gen

/-- The product's dimension numbers: batch axis 0, free axis 1 on both sides, contracted axis 2. -/
abbrev KD : DotDims S256x64x128 S256x64x128 S256x64x64 := dot_S256x64x128_S256x64x128_S256x64x64_2_2_1_1_0_0

theorem KD_lhs0 (j : S256x64x64.Idx) (q : KD.contr.Idx) : (KD.lhsIdx j q 0).val = (j 0).val := by
  unfold DotDims.lhsIdx
  rw [dif_pos (show (0 : Fin S256x64x128.rank) ∈ KD.lhsBatch by decide)]
  rfl
theorem KD_lhs1 (j : S256x64x64.Idx) (q : KD.contr.Idx) : (KD.lhsIdx j q 1).val = (j 1).val := by
  unfold DotDims.lhsIdx
  rw [dif_neg (show ¬(1 : Fin S256x64x128.rank) ∈ KD.lhsBatch by decide), dif_pos (show (1 : Fin S256x64x128.rank) ∈ KD.lhsNonContracting by decide)]
  rfl
theorem KD_lhs2 (j : S256x64x64.Idx) (q : KD.contr.Idx) : (KD.lhsIdx j q 2).val = (q ⟨0, by decide⟩).val :=
  KD.lhsIdx_val_of_single rfl j q
theorem KD_rhs0 (j : S256x64x64.Idx) (q : KD.contr.Idx) : (KD.rhsIdx j q 0).val = (j 0).val := by
  unfold DotDims.rhsIdx
  rw [dif_pos (show (0 : Fin S256x64x128.rank) ∈ KD.rhsBatch by decide)]
  rfl
theorem KD_rhs1 (j : S256x64x64.Idx) (q : KD.contr.Idx) : (KD.rhsIdx j q 1).val = (j 2).val := by
  unfold DotDims.rhsIdx
  rw [dif_neg (show ¬(1 : Fin S256x64x128.rank) ∈ KD.rhsBatch by decide), dif_pos (show (1 : Fin S256x64x128.rank) ∈ KD.rhsNonContracting by decide)]
  rfl
theorem KD_rhs2 (j : S256x64x64.Idx) (q : KD.contr.Idx) : (KD.rhsIdx j q 2).val = (q ⟨0, by decide⟩).val :=
  KD.rhsIdx_val_of_single rfl j q

/-- The Gram block at `(r, i, j)`. -/
theorem blkGram (x0 : Vec Ideal S256x64x128 .f32) (r : Fin 256) (i j : Fin 64) :
    k0_pay2 (F := Ideal) x0 (ix3 r i j) = ∑ d : Fin 128, x0 (ix3 r i d) * x0 (ix3 r j d) := by
  refine (Ideal.matmul_constant_zero_apply KD none _ _ (ix3 r i j)).trans ?_
  rw [← Equiv.sum_comp (contrEquiv1 KD 128 rfl rfl).symm]
  refine Finset.sum_congr rfl fun k _ => ?_
  have hk := contrEquiv1_symm_val KD 128 rfl rfl k
  have el : KD.lhsIdx (ix3 r i j) ((contrEquiv1 KD 128 rfl rfl).symm k) = ix3 r i k := funext fun a => Fin.ext (by
    match a with
    | ⟨0, _⟩ => exact KD_lhs0 _ _
    | ⟨1, _⟩ => exact KD_lhs1 _ _
    | ⟨2, _⟩ => exact (KD_lhs2 _ _).trans hk)
  have er : KD.rhsIdx (ix3 r i j) ((contrEquiv1 KD 128 rfl rfl).symm k) = ix3 r j k := funext fun a => Fin.ext (by
    match a with
    | ⟨0, _⟩ => exact KD_rhs0 _ _
    | ⟨1, _⟩ => exact KD_rhs1 _ _
    | ⟨2, _⟩ => exact (KD_rhs2 _ _).trans hk)
  rw [el, er]
  rfl

end Cert.Tri

end
-- ==== Proof.KWindows.lean ====
/-
  Where the kernel's blocks sit in its arrays.

  The grid has one axis of 16 points. At point `t` the input block is rows `256·t … 256·t + 255` of the
  `4096 × 64 × 128` input (all of the other two axes), and the output block is rows `256·t … 256·t + 255` of
  the `4096 × 2018` result (all columns). So entry `(r, i, d)` of input block `t` is entry `(256·t + r, i, d)`
  of the input, entry `(r, col)` of output block `t` is entry `(256·t + r, col)` of the result, and every
  entry of the result lies in the block of the point `row / 256`, which is written back.
-/
import proofs.«151155_j42056319762555_1_alg».proof.Proof.Gen.KernelIdeal.Points
import proofs.«151155_j42056319762555_1_alg».proof.Proof.Gen.KernelIdeal.Launch
import Idealize.ShloMosaic.Lib.Pipeline.Value
import Idealize.ShloMosaic.Lib.ValueIdx

noncomputable section

namespace Cert.Tri

open Idealize.ShloMosaic Idealize.ShloMosaic.ValueIdx Cert.KernelIdeal Cert.KernelIdeal.Gen

/-- The grid's points are `0 … 15`. -/
theorem point_lt (t : Fin cfg0.N) : t.val < 16 := lt_of_lt_of_eq t.isLt N_0

/-- The printed index maps, decided over the grid: at point `t` both windows are at block `t` on the first
axis and at block `0` on the others. -/
theorem idx_facts : ∀ t : Fin cfg0.N, win0_0.index t (0 : Fin 3) = t.val
    ∧ win0_0.index t (1 : Fin 3) = 0
    ∧ win0_0.index t (2 : Fin 3) = 0
    ∧ win0_1.index t (0 : Fin 2) = t.val
    ∧ win0_1.index t (1 : Fin 2) = 0 :=
  (by decide +kernel : ∀ t : Fin grid0.N, _)

/-- Every block row of the result is some point's. -/
theorem idx_onto : ∀ q : Fin 16, ∃ t : Fin cfg0.N, win0_1.index t = ![q.val, 0] :=
  (by decide +kernel : ∀ q : Fin 16, ∃ t : Fin grid0.N, win0_1.index t = ![q.val, 0])

/-- Entry `(r, i, d)` of the input block at point `t` is entry `(256·t + r, i, d)` of the input. -/
theorem in_blk_emb (t : Fin cfg0.N) (r : Fin 256) (i : Fin 64) (d : Fin 128) :
    (((cfg0.win 0).blk t).view.emb (ix3 r i d) : S4096x64x128.Idx)
      = ix3 (⟨t.val * 256 + r.val, by have := point_lt t; have := r.isLt; omega⟩ : Fin 4096) i d := by
  obtain ⟨e0, e1, e2, -, -⟩ := idx_facts t
  funext a; apply Fin.ext
  match a with
  | ⟨0, _⟩ => show win0_0.index t (0 : Fin 3) * 256 + 1 * r.val = t.val * 256 + r.val; omega
  | ⟨1, _⟩ => show win0_0.index t (1 : Fin 3) * 64 + 1 * i.val = i.val; omega
  | ⟨2, _⟩ => show win0_0.index t (2 : Fin 3) * 128 + 1 * d.val = d.val; omega

/-- Entry `(r, col)` of the output block at point `t` is entry `(256·t + r, col)` of the result. -/
theorem out_blk_emb (t : Fin cfg0.N) (r : Fin 256) (col : Fin 2018) :
    (((cfg0.win 1).blk t).view.emb (ix2 r col) : S4096x2018.Idx)
      = ix2 (⟨t.val * 256 + r.val, by have := point_lt t; have := r.isLt; omega⟩ : Fin 4096) col := by
  obtain ⟨-, -, -, e3, e4⟩ := idx_facts t
  funext a; apply Fin.ext
  match a with
  | ⟨0, _⟩ => show win0_1.index t (0 : Fin 2) * 256 + 1 * r.val = t.val * 256 + r.val; omega
  | ⟨1, _⟩ => show win0_1.index t (1 : Fin 2) * 2018 + 1 * col.val = col.val; omega

/-- An index of the result is in point `t`'s block iff each coordinate is in the block's range on its axis. -/
theorem mem_out_blk (t : Fin cfg0.N) (i : S4096x2018.Idx) :
    i ∈ ((cfg0.win 1).blk t).view.set ↔ ∀ a : Fin 2, win0_1.index t a * S256x2018.size a ≤ (i a).val
      ∧ (i a).val < win0_1.index t a * S256x2018.size a + S256x2018.size a := by
  show i ∈ ((View.whole main_v0).slice (win0_1.rect t)).set ↔ _
  rw [View.set_slice_whole, Rect.mem_set_unit]
  exact Iff.rfl

/-- The output's blocks cover its array: entry `(b, col)` lies in the block of the point `b / 256`, and
every point writes its block back. -/
theorem out_cover (i : S4096x2018.Idx) :
    ∃ t : Fin cfg0.N, (cfg0.win 1).flush t = true ∧ i ∈ ((cfg0.win 1).blk t).view.set := by
  have hi0 : (i 0).val < 4096 := (i 0).isLt
  have hi1 : (i 1).val < 2018 := (i 1).isLt
  obtain ⟨t, ht⟩ := idx_onto ⟨(i 0).val / 256, by omega⟩
  have q0 : win0_1.index t (0 : Fin 2) = (i 0).val / 256 := congrFun ht 0
  have q1 : win0_1.index t (1 : Fin 2) = 0 := congrFun ht 1
  refine ⟨t, flush0_1 t, ?_⟩
  rw [mem_out_blk]
  intro a
  match a with
  | ⟨0, _⟩ =>
    show win0_1.index t (0 : Fin 2) * 256 ≤ (i 0).val ∧ (i 0).val < win0_1.index t (0 : Fin 2) * 256 + 256
    omega
  | ⟨1, _⟩ =>
    show win0_1.index t (1 : Fin 2) * 2018 ≤ (i 1).val ∧ (i 1).val < win0_1.index t (1 : Fin 2) * 2018 + 2018
    omega

end Cert.Tri

end
-- ==== Proof.KArray.lean ====
/-
  From the blocks to the whole array.

  Grid point `t` handles the batch entries `256 t … 256 t + 255`: it is called with that block of the input, and what it
  leaves in its output block is, by the stores read in KPieces.lean, the block function of the block's Gram entries. A
  block entry `(r, ·)` is the array entry `(256 t + r, ·)` on both sides, the Gram entries of the block are those of the
  array's batch entry, and the sixteen output blocks cover the output array: so the array ends holding `Kout` of the input.
-/
import proofs.«151155_j42056319762555_1_alg».proof.Proof.KPieces
import proofs.«151155_j42056319762555_1_alg».proof.Proof.KGram
import proofs.«151155_j42056319762555_1_alg».proof.Proof.KWindows
import proofs.«151155_j42056319762555_1_alg».proof.Proof.KernelIdealFrameP

set_option maxRecDepth 16384

noncomputable section

namespace Cert.Tri

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The body's first load reads the whole input block back, so the Gram block the run carries is the product of the
    block it was called with. -/
theorem gRun_eq (c : Dev nD) (arg1 : Memref sig .tc .vmem S256x64x128 .f32) (harg1 : arg1.IsWhole)
    (x0 : Vec Ideal S256x64x128 .f32) : gRun c arg1 harg1 x0 = k0_pay2 (F := Ideal) x0 := by
  unfold gRun kernelRun0_A.sl.r
  rw [View.readAt_eq_ld, harg1.read_unread,
    View.ld_unit_zero (S := S256x64x128) (funext fun a => by fin_cases a <;> rfl)]

/-- What the body leaves in its output block is the block function of the block's Gram entries. -/
theorem out_eq_Blk (c : Dev nD) (i : grid0.Coords) (arg1 : Memref sig .tc .vmem S256x64x128 .f32) (harg1 : arg1.IsWhole)
    (arg2 : Memref sig .tc .vmem S256x2018 .f32) (harg2 : arg2.IsWhole) (x0 : Vec Ideal S256x64x128 .f32) :
    Cert.KernelIdeal.GenP.out0_A_1 (F := Ideal) c i arg1 harg1 arg2 harg2 x0 = Blk (k0_pay2 (F := Ideal) x0) := by
  unfold Cert.KernelIdeal.GenP.out0_A_1
  funext y
  rw [View.read_writes_apply_eq_canon _ _ y _ (Cert.KernelIdeal.GenP.cover0_A_1 c i arg1 harg1 arg2 harg2 x0 y),
    View.canon_apply_of_pieces (Blk (gRun c arg1 harg1 x0)) _ (pieces_eq c i arg1 harg1 arg2 harg2 x0) y
      (Cert.KernelIdeal.GenP.cover0_A_1 c i arg1 harg1 arg2 harg2 x0 y),
    gRun_eq]

/-- If row `r` of a block is batch entry `b` of the array, the block's Gram entries at `r` are the array's at `b`. -/
theorem blk_row (x0 : Vec Ideal S256x64x128 .f32) (X : SIn.Idx → EReal) (r : Fin 256) (b : Fin 4096)
    (hx : ∀ (i : Fin 64) (d : Fin 128), x0 (ix3 r i d) = X (ix3 b i d)) : gN (k0_pay2 (F := Ideal) x0) r = triN X b := by
  funext i j
  unfold gN triN
  by_cases h : i < 64 ∧ j < 64
  · rw [dif_pos h, dif_pos h, blkGram]
    unfold gram
    exact Finset.sum_congr rfl fun d _ => by rw [hx, hx]
  · rw [dif_neg h, dif_neg h]

/-- The input block of point `t` at `(r, i, d)` is the input array at `(256 t + r, i, d)`. -/
theorem iblk_apply (c : Dev nD) (t : Fin cfg0.N) (r : Fin 256) (i : Fin 64) (d : Fin 128) :
    iblk m c 0 t (ix3 r i d) = V m c main_arg0 (((cfg0.win 0).blk t).view.emb (ix3 r i d)) := rfl

/-- One entry of what point `t` leaves: the array's function at the entry's place in the array. -/
theorem flushed_entry (c : Dev nD) (t : Fin cfg0.N) (j : S256x2018.Idx) :
    Blk (k0_pay2 (F := Ideal) (iblk m c 0 t)) j = Kout (V m c main_arg0) (((cfg0.win 1).blk t).view.emb j) := by
  obtain ⟨r, col, rfl⟩ : ∃ (r : Fin 256) (col : Fin 2018), j = ix2 r col := ⟨j 0, j 1, eq_ix2 j⟩
  rw [out_blk_emb]
  unfold Blk Kout
  refine congrArg (fun γ => rowVal γ col.val) ?_
  refine blk_row (iblk m c 0 t) (V m c main_arg0) r _ fun i d => ?_
  rw [iblk_apply, in_blk_emb]

/-- What point `t` writes back is block `t` of `Kout` of the input array. -/
theorem flushed_eq (c : Dev nD) (t : Fin cfg0.N) :
    (Cert.KernelIdeal.GenP.dats m 0 c).flushed 1 t = ((cfg0.win 1).blk t).view.read (Elt Ideal) (Kout (V m c main_arg0)) := by
  show (cfg0.win 1).cut (grid0.coords t) ((Cert.KernelIdeal.GenP.dats m 0 c).after 1 t) = _
  rw [Cert.KernelIdeal.GenP.after0_1]
  unfold Cert.KernelIdeal.GenP.outsAt0
  rw [out_eq_Blk]
  funext j
  exact flushed_entry m c t j

/-- The output array after the run. -/
theorem final (c : Dev nD) : (Cert.KernelIdeal.GenP.dats m 0 c).arrAt 1 cfg0.N = Kout (V m c main_arg0) :=
  (Cert.KernelIdeal.GenP.dats m 0 c).arrAt_eq_of_cover 1 (Kout (V m c main_arg0)) (fun t _ => flushed_eq m c t) out_cover

/-- The kernel's run: every weakly fair execution ends with the result at `Kout` of the input and the input unchanged. -/
theorem kernel_run : θ_run defs (onTc (τ := τ) (main (F := Ideal))) ⟨m, fun _ => 0, ρ⟩ fun r => ∀ c : Dev nD,
      r.2.mem ((c : Thread nD τ).loc main_v0) = Kout (m ((c : Thread nD τ).loc main_arg0))
      ∧ r.2.mem ((c : Thread nD τ).loc main_arg0) = m ((c : Thread nD τ).loc main_arg0) :=
  (θ_run defs _ _).mono (fun r h c => ⟨((h c).1 1).trans (final m c),
      ((h c).1 0).trans (((Cert.KernelIdeal.GenP.dats m 0 c).arrAt_in 0 rfl _).trans
        ((Cert.KernelIdeal.GenP.A_eq m c 0).trans (V_main_arg0 m c)))⟩)
    (Cert.KernelIdeal.GenP.run_main m ρ)

end Cert.Tri

end
-- ==== Proof.RefOps.lean ====
/-
  The reference program as a straight line of host operations, and its run.

  The program's entry function calls nine module-local functions (the upper-triangular selection, two running sums,
  a clip, two floored divisions, two remainders, the standard deviation), some of which call others. A call means
  its callee's body run on the call's own buffers, so with every call unfolded the program is one list of 168
  operations, each writing one buffer of its own from buffers written before it. Every weakly fair execution
  then terminates with each buffer at the fold of the list over the launch contents.
-/
import proofs.«151155_j42056319762555_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- The program's 168 operations in order, the calls unfolded: each callee's operations at the call site, over the
    call's own buffers. -/
abbrev ops : List (HloOp τ sig (Elt F)) :=
  [
    StableHlo.binary main_arg0 main_arg0 main_v0 ((fun l r => Host.dotGeneral dot_S4096x64x128_S4096x64x128_S4096x64x64_2_2_1_1_0_0 none l r) : (⟨S4096x64x128, .f32⟩ : BufTy).Contents (Elt F) → (⟨S4096x64x128, .f32⟩ : BufTy).Contents (Elt F) → (⟨S4096x64x64, .f32⟩ : BufTy).Contents (Elt F)),
    StableHlo.nullary main_cst (constant S_ .f32 0x3F800000#32),
    StableHlo.unary main_cst main_v1 (broadcastInDim S64x64 ![] bcast_S_S64x64 : (⟨S_, .f32⟩ : BufTy).Contents (Elt F) → (⟨S64x64, .f32⟩ : BufTy).Contents (Elt F)),
    StableHlo.TRef.nullary main_call0.v0 (iotaInDim S64x64 32 0),
    StableHlo.TRef.nullary main_call0.c (constantI S_ 32 0#32),
    StableHlo.TRef.unary main_call0.c main_call0.v1 (broadcastInDim S64x64 ![] bcast_S_S64x64),
    StableHlo.TRef.binary main_call0.v0 main_call0.v1 main_call0.v2 addi,
    StableHlo.TRef.nullary main_call0.v3 (iotaInDim S64x64 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S64x64 ![] bcast_S_S64x64),
    StableHlo.TRef.ternary main_call0.v4 main_call0.v5 (.of main_v1 : StableHlo.TRef sig ⟨S64x64, .f32⟩) main_call0.v6 select,
    StableHlo.nullary main_cst_0 (constant S_ .f32 0x00000000#32),
    StableHlo.unary main_cst_0 main_v3 (broadcastInDim S64x64 ![] bcast_S_S64x64 : (⟨S_, .f32⟩ : BufTy).Contents (Elt F) → (⟨S64x64, .f32⟩ : BufTy).Contents (Elt F)),
    StableHlo.binary main_v2 main_v3 main_v4 (cmpf .une : (⟨S64x64, .f32⟩ : BufTy).Contents (Elt F) → (⟨S64x64, .f32⟩ : BufTy).Contents (Elt F) → (⟨S64x64, .i1⟩ : BufTy).Contents (Elt F)),
    StableHlo.TRef.reshape (.of main_v4 : StableHlo.TRef sig ⟨S64x64, .i1⟩) main_call1.v0 rfl shapeCasts_S64x64_S4096,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![4096] ![1] ![4095] ![0] x v reduceWindows_S4096_S4096_w4096s1p4095_0 h_S_),
    StableHlo.nullary main_c (constantI S_ 32 0#32),
    StableHlo.unary main_c main_v6 (broadcastInDim S2016 ![] bcast_S_S2016 : (⟨S_, .i32⟩ : BufTy).Contents (Elt F) → (⟨S2016, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S4096 ![] bcast_S_S4096),
    StableHlo.TRef.binary main_call2.v1 (.of main_v5 : StableHlo.TRef sig ⟨S4096, .i32⟩) main_call2.v2 maxsi,
    StableHlo.nullary main_c_2 (constantI S_ 32 0#32),
    StableHlo.unary main_c_2 main_v8 (broadcastInDim S4096 ![] bcast_S_S4096 : (⟨S_, .i32⟩ : BufTy).Contents (Elt F) → (⟨S4096, .i32⟩ : BufTy).Contents (Elt F)),
    StableHlo.binary main_v7 main_v8 main_v9 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 2016#32),
    StableHlo.unary main_c_3 main_v10 (broadcastInDim S4096 ![] bcast_S_S4096 : (⟨S_, .i32⟩ : BufTy).Contents (Elt F) → (⟨S4096, .i32⟩ : BufTy).Contents (Elt F)),
    StableHlo.binary main_v7 main_v10 main_v11 (addi : (⟨S4096, .i32⟩ : BufTy).Contents (Elt F) → (⟨S4096, .i32⟩ : BufTy).Contents (Elt F) → (⟨S4096, .i32⟩ : BufTy).Contents (Elt F)),
    StableHlo.ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v12 main_v13 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v14 (broadcastInDim S4096 ![] bcast_S_S4096 : (⟨S_, .i32⟩ : BufTy).Contents (Elt F) → (⟨S4096, .i32⟩ : BufTy).Contents (Elt F)),
    StableHlo.ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v15 : StableHlo.TRef sig ⟨S2016, .i32⟩) main_call3.call0.v0 main_call3.call0.v1 (fun x v => Host.reduceWindow IntOp.addi ![2016] ![1] ![2015] ![0] x v reduceWindows_S2016_S2016_w2016s1p2015_0 h_S_),
    StableHlo.nullary main_c_5 (constantI S_ 32 64#32),
    StableHlo.TRef.unary (.of main_c_5 : StableHlo.TRef sig ⟨S_, .i32⟩) main_call4.v0 (broadcastInDim S2016 ![] bcast_S_S2016),
    StableHlo.TRef.binary (.of main_v16 : StableHlo.TRef sig ⟨S2016, .i32⟩) main_call4.v0 main_call4.v1 Host.divsi,
    StableHlo.TRef.unary (.of main_v16 : StableHlo.TRef sig ⟨S2016, .i32⟩) main_call4.v2 signi,
    StableHlo.TRef.unary (.of main_c_5 : StableHlo.TRef sig ⟨S_, .i32⟩) main_call4.v3 signi,
    StableHlo.TRef.unary main_call4.v3 main_call4.v4 (broadcastInDim S2016 ![] bcast_S_S2016),
    StableHlo.TRef.binary main_call4.v2 main_call4.v4 main_call4.v5 (cmpi .ne),
    StableHlo.TRef.unary (.of main_c_5 : StableHlo.TRef sig ⟨S_, .i32⟩) main_call4.v6 (broadcastInDim S2016 ![] bcast_S_S2016),
    StableHlo.TRef.binary (.of main_v16 : StableHlo.TRef sig ⟨S2016, .i32⟩) main_call4.v6 main_call4.v7 Host.remsi,
    StableHlo.TRef.nullary main_call4.c (constantI S_ 32 0#32),
    StableHlo.TRef.unary main_call4.c main_call4.v8 (broadcastInDim S2016 ![] bcast_S_S2016),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S2016 ![] bcast_S_S2016),
    StableHlo.TRef.binary main_call4.v1 main_call4.v11 main_call4.v12 subi,
    StableHlo.TRef.ternary main_call4.v10 main_call4.v12 main_call4.v1 main_call4.call0.v0 select,
    StableHlo.nullary main_c_6 (constantI S_ 32 64#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S2016 ![] bcast_S_S2016),
    StableHlo.TRef.binary (.of main_v17 : StableHlo.TRef sig ⟨S2016, .i32⟩) main_call5.v3 main_call5.v4 Host.remsi,
    StableHlo.TRef.nullary main_call5.c_1 (constantI S_ 32 0#32),
    StableHlo.TRef.unary main_call5.c_1 main_call5.v5 (broadcastInDim S2016 ![] bcast_S_S2016),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S2016 ![] bcast_S_S2016),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S2016 ![] bcast_S_S2016),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S2016 ![] bcast_S_S2016),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary (.of main_c_7 : StableHlo.TRef sig ⟨S_, .i32⟩) main_call6.v0 (broadcastInDim S2016 ![] bcast_S_S2016),
    StableHlo.TRef.binary (.of main_v16 : StableHlo.TRef sig ⟨S2016, .i32⟩) main_call6.v0 main_call6.v1 Host.divsi,
    StableHlo.TRef.unary (.of main_v16 : StableHlo.TRef sig ⟨S2016, .i32⟩) main_call6.v2 signi,
    StableHlo.TRef.unary (.of main_c_7 : StableHlo.TRef sig ⟨S_, .i32⟩) main_call6.v3 signi,
    StableHlo.TRef.unary main_call6.v3 main_call6.v4 (broadcastInDim S2016 ![] bcast_S_S2016),
    StableHlo.TRef.binary main_call6.v2 main_call6.v4 main_call6.v5 (cmpi .ne),
    StableHlo.TRef.unary (.of main_c_7 : StableHlo.TRef sig ⟨S_, .i32⟩) main_call6.v6 (broadcastInDim S2016 ![] bcast_S_S2016),
    StableHlo.TRef.binary (.of main_v16 : StableHlo.TRef sig ⟨S2016, .i32⟩) main_call6.v6 main_call6.v7 Host.remsi,
    StableHlo.TRef.nullary main_call6.c (constantI S_ 32 0#32),
    StableHlo.TRef.unary main_call6.c main_call6.v8 (broadcastInDim S2016 ![] bcast_S_S2016),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S2016 ![] bcast_S_S2016),
    StableHlo.TRef.binary main_call6.v1 main_call6.v11 main_call6.v12 subi,
    StableHlo.TRef.ternary main_call6.v10 main_call6.v12 main_call6.v1 main_call6.call0.v0 select,
    StableHlo.nullary main_c_8 (constantI S_ 32 64#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S2016 ![] bcast_S_S2016),
    StableHlo.TRef.binary (.of main_v19 : StableHlo.TRef sig ⟨S2016, .i32⟩) main_call7.v3 main_call7.v4 Host.remsi,
    StableHlo.TRef.nullary main_call7.c_1 (constantI S_ 32 0#32),
    StableHlo.TRef.unary main_call7.c_1 main_call7.v5 (broadcastInDim S2016 ![] bcast_S_S2016),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S2016 ![] bcast_S_S2016),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S2016 ![] bcast_S_S2016),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S2016 ![] bcast_S_S2016),
    StableHlo.TRef.binary main_call7.v4 main_call7.v13 main_call7.v14 addi,
    StableHlo.TRef.ternary main_call7.v12 main_call7.v14 main_call7.v4 main_call7.v15 select,
    StableHlo.nullary main_c_9 (constantI S_ 32 0#32),
    StableHlo.unary main_c_9 main_v21 (broadcastInDim S2016 ![] bcast_S_S2016 : (⟨S_, .i32⟩ : BufTy).Contents (Elt F) → (⟨S2016, .i32⟩ : BufTy).Contents (Elt F)),
    StableHlo.binary main_v18 main_v21 main_v22 (cmpi .slt : (⟨S2016, .i32⟩ : BufTy).Contents (Elt F) → (⟨S2016, .i32⟩ : BufTy).Contents (Elt F) → (⟨S2016, .i1⟩ : BufTy).Contents (Elt F)),
    StableHlo.nullary main_c_10 (constantI S_ 32 64#32),
    StableHlo.unary main_c_10 main_v23 (broadcastInDim S2016 ![] bcast_S_S2016 : (⟨S_, .i32⟩ : BufTy).Contents (Elt F) → (⟨S2016, .i32⟩ : BufTy).Contents (Elt F)),
    StableHlo.binary main_v18 main_v23 main_v24 (addi : (⟨S2016, .i32⟩ : BufTy).Contents (Elt F) → (⟨S2016, .i32⟩ : BufTy).Contents (Elt F) → (⟨S2016, .i32⟩ : BufTy).Contents (Elt F)),
    StableHlo.ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.nullary main_c_11 (constantI S_ 32 0#32),
    StableHlo.unary main_c_11 main_v26 (broadcastInDim S2016 ![] bcast_S_S2016 : (⟨S_, .i32⟩ : BufTy).Contents (Elt F) → (⟨S2016, .i32⟩ : BufTy).Contents (Elt F)),
    StableHlo.binary main_v20 main_v26 main_v27 (cmpi .slt : (⟨S2016, .i32⟩ : BufTy).Contents (Elt F) → (⟨S2016, .i32⟩ : BufTy).Contents (Elt F) → (⟨S2016, .i1⟩ : BufTy).Contents (Elt F)),
    StableHlo.nullary main_c_12 (constantI S_ 32 64#32),
    StableHlo.unary main_c_12 main_v28 (broadcastInDim S2016 ![] bcast_S_S2016 : (⟨S_, .i32⟩ : BufTy).Contents (Elt F) → (⟨S2016, .i32⟩ : BufTy).Contents (Elt F)),
    StableHlo.binary main_v20 main_v28 main_v29 (addi : (⟨S2016, .i32⟩ : BufTy).Contents (Elt F) → (⟨S2016, .i32⟩ : BufTy).Contents (Elt F) → (⟨S2016, .i32⟩ : BufTy).Contents (Elt F)),
    StableHlo.ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.unary main_v25 main_v31 (broadcastInDim S2016x1 ![0] bcast_S2016_S2016x1_0 : (⟨S2016, .i32⟩ : BufTy).Contents (Elt F) → (⟨S2016x1, .i32⟩ : BufTy).Contents (Elt F)),
    StableHlo.unary main_v30 main_v32 (broadcastInDim S2016x1 ![0] bcast_S2016_S2016x1_0 : (⟨S2016, .i32⟩ : BufTy).Contents (Elt F) → (⟨S2016x1, .i32⟩ : BufTy).Contents (Elt F)),
    StableHlo.binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    StableHlo.binary main_v0 main_v33 main_v34 ((fun x i => Host.gather gather_S4096x64x64_S2016x2_S4096x2016_0_12_n_n_12_1_409611 x i) : (⟨S4096x64x64, .f32⟩ : BufTy).Contents (Elt F) → (⟨S2016x2, .i32⟩ : BufTy).Contents (Elt F) → (⟨S4096x2016, .f32⟩ : BufTy).Contents (Elt F)),
    StableHlo.nullary main_cst_13 (constant S_ .f32 0x00000000#32),
    StableHlo.binary main_v34 main_cst_13 main_v35 ((fun x v => Host.reduceAdd x v reducesTo_S4096x2016_S4096_d1 h_S_) : (⟨S4096x2016, .f32⟩ : BufTy).Contents (Elt F) → (⟨S_, .f32⟩ : BufTy).Contents (Elt F) → (⟨S4096, .f32⟩ : BufTy).Contents (Elt F)),
    StableHlo.unary main_v35 main_v36 (broadcastInDim S4096x1 ![0] bcast_S4096_S4096x1_0 : (⟨S4096, .f32⟩ : BufTy).Contents (Elt F) → (⟨S4096x1, .f32⟩ : BufTy).Contents (Elt F)),
    StableHlo.nullary main_cst_14 (constant S_ .f32 0x44FC0000#32),
    StableHlo.unary main_cst_14 main_v37 (broadcastInDim S4096x1 ![] bcast_S_S4096x1 : (⟨S_, .f32⟩ : BufTy).Contents (Elt F) → (⟨S4096x1, .f32⟩ : BufTy).Contents (Elt F)),
    StableHlo.binary main_v36 main_v37 main_v38 (Host.divf : (⟨S4096x1, .f32⟩ : BufTy).Contents (Elt F) → (⟨S4096x1, .f32⟩ : BufTy).Contents (Elt F) → (⟨S4096x1, .f32⟩ : BufTy).Contents (Elt F)),
    StableHlo.nullary main_c_15 (constantI S_ 32 0#32),
    StableHlo.TRef.nullary main_call8.call0.cst (constant S_ .f32 0x00000000#32),
    StableHlo.TRef.binary (.of main_v34 : StableHlo.TRef sig ⟨S4096x2016, .f32⟩) main_call8.call0.cst main_call8.call0.v0 (fun x v => Host.reduceAdd x v reducesTo_S4096x2016_S4096_d1 h_S_),
    StableHlo.TRef.unary main_call8.call0.v0 main_call8.call0.v1 (broadcastInDim S4096x1 ![0] bcast_S4096_S4096x1_0),
    StableHlo.TRef.nullary main_call8.call0.cst_0 (constant S_ .f32 0x44FC0000#32),
    StableHlo.TRef.unary main_call8.call0.cst_0 main_call8.call0.v2 (broadcastInDim S4096x1 ![] bcast_S_S4096x1),
    StableHlo.TRef.binary main_call8.call0.v1 main_call8.call0.v2 main_call8.call0.v3 Host.divf,
    StableHlo.TRef.unary main_call8.call0.v3 main_call8.call0.v4 (broadcastInDim S4096x2016 ![0, 1] bcast_S4096x1_S4096x2016_0_1),
    StableHlo.TRef.binary (.of main_v34 : StableHlo.TRef sig ⟨S4096x2016, .f32⟩) main_call8.call0.v4 main_call8.call0.v5 subf,
    StableHlo.TRef.binary main_call8.call0.v5 main_call8.call0.v5 main_call8.call0.v6 mulf,
    StableHlo.TRef.unary (.of main_c_15 : StableHlo.TRef sig ⟨S_, .i32⟩) main_call8.call0.v7 (sitofp .f32),
    StableHlo.TRef.nullary main_call8.call0.cst_1 (constant S_ .f32 0x44FC0000#32),
    StableHlo.TRef.binary main_call8.call0.cst_1 main_call8.call0.v7 main_call8.call0.v8 subf,
    StableHlo.TRef.nullary main_call8.call0.cst_2 (constant S_ .f32 0x00000000#32),
    StableHlo.TRef.binary main_call8.call0.v6 main_call8.call0.cst_2 main_call8.call0.v9 (fun x v => Host.reduceAdd x v reducesTo_S4096x2016_S4096_d1 h_S_),
    StableHlo.TRef.unary main_call8.call0.v9 main_call8.call0.v10 (broadcastInDim S4096x1 ![0] bcast_S4096_S4096x1_0),
    StableHlo.TRef.unary main_call8.call0.v8 main_call8.call0.v11 (broadcastInDim S4096x1 ![] bcast_S_S4096x1),
    StableHlo.TRef.binary main_call8.call0.v10 main_call8.call0.v11 main_call8.call0.v12 Host.divf,
    StableHlo.TRef.nullary main_call8.call0.cst_3 (constant S_ .f32 0x00000000#32),
    StableHlo.TRef.binary main_call8.call0.v8 main_call8.call0.cst_3 main_call8.call0.v13 (cmpf .ogt),
    StableHlo.TRef.nullary main_call8.call0.cst_4 (constant S_ .f32 0x7FC00000#32),
    StableHlo.TRef.unary main_call8.call0.cst_4 main_call8.call0.call0.v0 id,
    StableHlo.TRef.unary main_call8.call0.call0.v0 main_call8.call0.call0.v1 (broadcastInDim S4096x1 ![] bcast_S_S4096x1),
    StableHlo.TRef.ternary main_call8.call0.v13 main_call8.call0.v12 main_call8.call0.call0.v1 main_call8.call0.call0.v2 (fun p a b => select (broadcastInDim S4096x1 ![] bcast_S_S4096x1 p) a b),
    StableHlo.TRef.unary main_call8.call0.call0.v2 main_call8.v1 Host.sqrt,
    StableHlo.nary ![main_v34, main_v38, main_v39] main_v40 (fun u => concatenate S4096x2018 1 [⟨S4096x2016, u 0⟩, ⟨S4096x1, u 1⟩, ⟨S4096x1, u 2⟩] concatenates_S4096x2016_S4096x1_S4096x1_S4096x2018_d1) ]

set_option maxRecDepth 8192 in
set_option maxHeartbeats 1600000 in
/-- The entry function is that straight line: the callees' definitions unfolded at their calls, both sides are one
    chain of steps once sequencing is reassociated. -/
theorem main_eq (c : Dev nD) : main (F := F) c = seq ops := by
  simp only [main, fn_triu.body, fn_cumsum_0.body, fn_cumsum.body, fn_clip.body, fn_cumsum_2.body, fn_cumsum_1.body, fn_where.body, fn_floor_divide.body, fn_where_3.body, fn_remainder.body, fn_where_4.body, fn_var.body, fn_std.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., nullary_bufs_sub .., unary_bufs_sub .., nullary_bufs_sub .., nullary_bufs_sub .., unary_bufs_sub ..,
    binary_bufs_sub .., nullary_bufs_sub .., binary_bufs_sub .., nullary_bufs_sub .., unary_bufs_sub .., ternary_bufs_sub ..,
    nullary_bufs_sub .., unary_bufs_sub .., binary_bufs_sub .., reshape_bufs_sub .., unary_bufs_sub .., nullary_bufs_sub ..,
    unary_bufs_sub .., binary_bufs_sub .., nullary_bufs_sub .., unary_bufs_sub .., nullary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., nullary_bufs_sub .., unary_bufs_sub ..,
    ternary_bufs_sub .., nullary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub .., unary_bufs_sub .., nullary_bufs_sub ..,
    binary_bufs_sub .., nullary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    binary_bufs_sub .., unary_bufs_sub .., binary_bufs_sub .., binary_bufs_sub .., unary_bufs_sub .., binary_bufs_sub ..,
    ternary_bufs_sub .., nullary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., nary_bufs_sub ..⟩

/-- On every device, for any float values, from any memory with zero counters: every weakly fair execution of the
    entry function terminates, and every final state has each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference program's result as pure functions of its input.

  The reference lists the strict upper triangle of each batch entry's Gram matrix through an index
  table it computes at run time: the 64×64 mask "row < column" (an upper-triangular selection of an
  all-ones matrix, compared with zero), flattened; its running sum; for each count 1 … 2016 the
  number of flat positions whose running sum is below it (a histogram by scatter-add followed by a
  running sum), which is the flat position of the k-th set entry of the mask; that position split
  into row and column by floored division and remainder by 64. The Gram matrix (a batched
  dot product of the input with itself) is gathered at those pairs, and the mean and the population
  standard deviation of the 2016 gathered numbers are appended.

  Each definition below is the composition, in program order, of the pure functions of the
  operations of one stage; nothing is simplified.
-/
import proofs.«151155_j42056319762555_1_alg».proof.Proof.Gen.ReferenceIdeal

noncomputable section

namespace Cert.ReferenceIdeal.RefRun

open Cert.ReferenceIdeal Cert.ReferenceIdeal.Gen Idealize.ShloMosaic

variable {F : FTy → Type} [FloatOps F]

/-! ## The index table -/

/-- The part of a 64×64 matrix a strictly above the diagonal: zero where row ≥ column, a elsewhere. -/
def triuF (a : FVec F S64x64 .f32) : FVec F S64x64 .f32 :=
  select
    (cmpi .sge
      (addi (iotaInDim S64x64 32 0) (broadcastInDim S64x64 ![] bcast_S_S64x64 (constantI S_ 32 0#32)))
      (iotaInDim S64x64 32 1))
    (broadcastInDim S64x64 ![] bcast_S_S64x64 (constant S_ .f32 0x00000000#32))
    a

/-- The mask of the strict upper triangle: where the upper part of the all-ones matrix differs from zero. -/
def maskTerm (F : FTy → Type) [FloatOps F] : IVec S64x64 1 :=
  cmpf .une
    (triuF (F := F) (broadcastInDim S64x64 ![] bcast_S_S64x64 (constant S_ .f32 0x3F800000#32)))
    (broadcastInDim S64x64 ![] bcast_S_S64x64 (constant S_ .f32 0x00000000#32))

/-- The running sum of the flattened mask: at flat position p the number of set entries at positions up to p. -/
def cumsumF (m : IVec S64x64 1) : IVec S4096 32 :=
  Host.reduceWindow IntOp.addi ![4096] ![1] ![4095] ![0]
    (extui 32 (shapeCast S4096 m shapeCasts_S64x64_S4096) natLt_1_32)
    (broadcastInDim S_ ![] bcast_S_S_ (constantI S_ 32 0#32))
    reduceWindows_S4096_S4096_w4096s1p4095_0 h_S_

/-- The maximum of x and the scalar lo, elementwise. -/
def clipF (x : IVec S4096 32) (lo : IVec S_ 32) : IVec S4096 32 :=
  maxsi (broadcastInDim S4096 ![] bcast_S_S4096 (id lo)) x

/-- A negative entry counted from the end of a table of 2016 entries. -/
def wrapF (x : IVec S4096 32) : IVec S4096 32 :=
  select (cmpi .slt x (broadcastInDim S4096 ![] bcast_S_S4096 (constantI S_ 32 0#32)))
    (addi x (broadcastInDim S4096 ![] bcast_S_S4096 (constantI S_ 32 2016#32)))
    x

/-- The histogram of x over 2016 bins: bin k counts the entries of x equal to k. -/
def bincountF (x : IVec S4096 32) : IVec S2016 32 :=
  Host.scatter scatter_S2016_S4096x1_S4096_n_0_0_1 IntOp.addi
    (broadcastInDim S2016 ![] bcast_S_S2016 (constantI S_ 32 0#32))
    (broadcastInDim S4096x1 ![0] bcast_S4096_S4096x1_0 x)
    (broadcastInDim S4096 ![] bcast_S_S4096 (constantI S_ 32 1#32))

/-- The running sum of a table of 2016 entries. -/
def cumsum1F (x : IVec S2016 32) : IVec S2016 32 :=
  Host.reduceWindow IntOp.addi ![2016] ![1] ![2015] ![0] x
    (broadcastInDim S_ ![] bcast_S_S_ (constantI S_ 32 0#32))
    reduceWindows_S2016_S2016_w2016s1p2015_0 h_S_

/-- The flat position of the k-th set entry of the mask m, for k < 2016: the number of flat positions
    whose running count is at most k. -/
def flatF (m : IVec S64x64 1) : IVec S2016 32 :=
  cumsum1F (bincountF (wrapF (clipF (cumsumF m) (constantI S_ 32 0#32))))

/-- Floored division of x by the scalar d: the truncated quotient, less one where the signs differ and the
    division is not exact. -/
def floorDivF (x : IVec S2016 32) (d : IVec S_ 32) : IVec S2016 32 :=
  select
    (andi
      (cmpi .ne (signi x) (broadcastInDim S2016 ![] bcast_S_S2016 (signi d)))
      (cmpi .ne (Host.remsi x (broadcastInDim S2016 ![] bcast_S_S2016 d))
        (broadcastInDim S2016 ![] bcast_S_S2016 (constantI S_ 32 0#32))))
    (subi (Host.divsi x (broadcastInDim S2016 ![] bcast_S_S2016 d))
      (broadcastInDim S2016 ![] bcast_S_S2016 (constantI S_ 32 1#32)))
    (Host.divsi x (broadcastInDim S2016 ![] bcast_S_S2016 d))

/-- The divisor a remainder is taken by: d, or one where d is zero. -/
def safeDivisorF (d : IVec S_ 32) : IVec S_ 32 :=
  select (cmpi .eq (id d) (constantI S_ 32 0#32)) (constantI S_ 32 1#32) (id d)

/-- The remainder of x by the scalar d with the divisor's sign: the truncated remainder, plus the divisor
    where the remainder is not zero and its sign differs from the divisor's. -/
def remainderF (x : IVec S2016 32) (d : IVec S_ 32) : IVec S2016 32 :=
  select
    (andi
      (cmpi .ne
        (cmpi .slt (Host.remsi x (broadcastInDim S2016 ![] bcast_S_S2016 (safeDivisorF d)))
          (broadcastInDim S2016 ![] bcast_S_S2016 (constantI S_ 32 0#32)))
        (broadcastInDim S2016 ![] bcast_S_S2016 (cmpi .slt (safeDivisorF d) (constantI S_ 32 0#32))))
      (cmpi .ne (Host.remsi x (broadcastInDim S2016 ![] bcast_S_S2016 (safeDivisorF d)))
        (broadcastInDim S2016 ![] bcast_S_S2016 (constantI S_ 32 0#32))))
    (addi (Host.remsi x (broadcastInDim S2016 ![] bcast_S_S2016 (safeDivisorF d)))
      (broadcastInDim S2016 ![] bcast_S_S2016 (safeDivisorF d)))
    (Host.remsi x (broadcastInDim S2016 ![] bcast_S_S2016 (safeDivisorF d)))

/-- A negative coordinate counted from the end of an axis of 64. -/
def normF (x : IVec S2016 32) : IVec S2016 32 :=
  select (cmpi .slt x (broadcastInDim S2016 ![] bcast_S_S2016 (constantI S_ 32 0#32)))
    (addi x (broadcastInDim S2016 ![] bcast_S_S2016 (constantI S_ 32 64#32)))
    x

/-- The row coordinates of the set entries of m: flat position, floored-divided by 64, modulo 64. -/
def rowsF (m : IVec S64x64 1) : IVec S2016 32 :=
  normF (remainderF (floorDivF (flatF m) (constantI S_ 32 64#32)) (constantI S_ 32 64#32))

/-- The column coordinates of the set entries of m: flat position, floored-divided by 1, modulo 64. -/
def colsF (m : IVec S64x64 1) : IVec S2016 32 :=
  normF (remainderF (floorDivF (flatF m) (constantI S_ 32 1#32)) (constantI S_ 32 64#32))

/-- The table of (row, column) pairs of the set entries of the mask m, in flat order. -/
def idxOfMask (m : IVec S64x64 1) : IVec S2016x2 32 :=
  concatenate S2016x2 1
    [⟨S2016x1, broadcastInDim S2016x1 ![0] bcast_S2016_S2016x1_0 (rowsF m)⟩,
     ⟨S2016x1, broadcastInDim S2016x1 ![0] bcast_S2016_S2016x1_0 (colsF m)⟩]
    concatenates_S2016x1_S2016x1_S2016x2_d1

/-- The index table the reference gathers at. It depends on the input in no way; it depends on the float
    values only through the comparison of one with zero that makes the mask. -/
def idxTerm (F : FTy → Type) [FloatOps F] : (⟨2, ![2016, 2]⟩ : Shape).Idx → BitVec 32 :=
  idxOfMask (maskTerm F)

/-! ## The result -/

/-- Per batch entry the Gram matrix of the 64 rows, read at the pairs of the table idx. -/
def pairsF (x : FVec F S4096x64x128 .f32) (idx : IVec S2016x2 32) : FVec F S4096x2016 .f32 :=
  Host.gather gather_S4096x64x64_S2016x2_S4096x2016_0_12_n_n_12_1_409611
    (Host.dotGeneral dot_S4096x64x128_S4096x64x128_S4096x64x64_2_2_1_1_0_0 none x x) idx

/-- Per batch entry the sum of the 2016 numbers, divided by 2016. -/
def meanF (a : FVec F S4096x2016 .f32) : FVec F S4096x1 .f32 :=
  Host.divf
    (broadcastInDim S4096x1 ![0] bcast_S4096_S4096x1_0
      (Host.reduceAdd a (constant S_ .f32 0x00000000#32) reducesTo_S4096x2016_S4096_d1 h_S_))
    (broadcastInDim S4096x1 ![] bcast_S_S4096x1 (constant S_ .f32 0x44FC0000#32))

/-- Per batch entry the squared deviations from the mean. -/
def sqDevF (a : FVec F S4096x2016 .f32) : FVec F S4096x2016 .f32 :=
  mulf (subf a (broadcastInDim S4096x2016 ![0, 1] bcast_S4096x1_S4096x2016_0_1 (meanF a)))
    (subf a (broadcastInDim S4096x2016 ![0, 1] bcast_S4096x1_S4096x2016_0_1 (meanF a)))

/-- The number the sum of squared deviations is divided by: 2016 less the correction ddof. -/
def countF (ddof : IVec S_ 32) : FVec F S_ .f32 :=
  subf (constant S_ .f32 0x44FC0000#32) (sitofp .f32 ddof)

/-- Per batch entry the variance: the sum of squared deviations over the count, where the count is positive. -/
def varF (a : FVec F S4096x2016 .f32) (ddof : IVec S_ 32) : FVec F S4096x1 .f32 :=
  select
    (broadcastInDim S4096x1 ![] bcast_S_S4096x1 (cmpf .ogt (countF (F := F) ddof) (constant S_ .f32 0x00000000#32)))
    (Host.divf
      (broadcastInDim S4096x1 ![0] bcast_S4096_S4096x1_0
        (Host.reduceAdd (sqDevF a) (constant S_ .f32 0x00000000#32) reducesTo_S4096x2016_S4096_d1 h_S_))
      (broadcastInDim S4096x1 ![] bcast_S_S4096x1 (countF ddof)))
    (broadcastInDim S4096x1 ![] bcast_S_S4096x1 (id (constant S_ .f32 0x7FC00000#32)))

/-- Per batch entry the population standard deviation. -/
def stdF (a : FVec F S4096x2016 .f32) : FVec F S4096x1 .f32 :=
  Host.sqrt (varF a (constantI S_ 32 0#32))

/-- The gathered pair products, their mean, their standard deviation, side by side. -/
def outOfPairs (a : FVec F S4096x2016 .f32) : FVec F S4096x2018 .f32 :=
  concatenate S4096x2018 1 [⟨S4096x2016, a⟩, ⟨S4096x1, meanF a⟩, ⟨S4096x1, stdF a⟩]
    concatenates_S4096x2016_S4096x1_S4096x1_S4096x2018_d1

/-- The reference's result as a function of its input's contents. -/
def refOut (x : FVec F S4096x64x128 .f32) : FVec F S4096x2018 .f32 :=
  outOfPairs (pairsF x (idxTerm F))

end Cert.ReferenceIdeal.RefRun

end
-- ==== Proof.RefRun.lean ====
/-
  What the reference program leaves in its result buffer, read off the fold of its operations.

  The list of 168 operations is cut into ten consecutive windows (the mask and its running sum; the histogram and
  its running sum; the two floored divisions and the two remainders, one window each; the two coordinate columns;
  the index table and the gather; the mean and the standard deviation; the final concatenation). After each window the buffers still read
  later hold a named function of the input's contents (the stages of the pure functions of the program's result),
  which is read off the window's operations one result at a time.
-/
import proofs.«151155_j42056319762555_1_alg».proof.Proof.RefOps
import proofs.«151155_j42056319762555_1_alg».proof.Proof.RefTerm

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- A cast along an equation between a type and itself changes nothing. -/
theorem cast_self.{u} {α : Sort u} (h : α = α) (a : α) : cast h a = a := eq_of_heq (cast_heq h a)

/-- The fold of two lists in a row is the fold of the second from the fold of the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The operations 1 to 20 of the program. -/
abbrev part1 : List (HloOp τ sig (Elt F)) :=
  [
    StableHlo.binary main_arg0 main_arg0 main_v0 ((fun l r => Host.dotGeneral dot_S4096x64x128_S4096x64x128_S4096x64x64_2_2_1_1_0_0 none l r) : (⟨S4096x64x128, .f32⟩ : BufTy).Contents (Elt F) → (⟨S4096x64x128, .f32⟩ : BufTy).Contents (Elt F) → (⟨S4096x64x64, .f32⟩ : BufTy).Contents (Elt F)),
    StableHlo.nullary main_cst (constant S_ .f32 0x3F800000#32),
    StableHlo.unary main_cst main_v1 (broadcastInDim S64x64 ![] bcast_S_S64x64 : (⟨S_, .f32⟩ : BufTy).Contents (Elt F) → (⟨S64x64, .f32⟩ : BufTy).Contents (Elt F)),
    StableHlo.TRef.nullary main_call0.v0 (iotaInDim S64x64 32 0),
    StableHlo.TRef.nullary main_call0.c (constantI S_ 32 0#32),
    StableHlo.TRef.unary main_call0.c main_call0.v1 (broadcastInDim S64x64 ![] bcast_S_S64x64),
    StableHlo.TRef.binary main_call0.v0 main_call0.v1 main_call0.v2 addi,
    StableHlo.TRef.nullary main_call0.v3 (iotaInDim S64x64 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S64x64 ![] bcast_S_S64x64),
    StableHlo.TRef.ternary main_call0.v4 main_call0.v5 (.of main_v1 : StableHlo.TRef sig ⟨S64x64, .f32⟩) main_call0.v6 select,
    StableHlo.nullary main_cst_0 (constant S_ .f32 0x00000000#32),
    StableHlo.unary main_cst_0 main_v3 (broadcastInDim S64x64 ![] bcast_S_S64x64 : (⟨S_, .f32⟩ : BufTy).Contents (Elt F) → (⟨S64x64, .f32⟩ : BufTy).Contents (Elt F)),
    StableHlo.binary main_v2 main_v3 main_v4 (cmpf .une : (⟨S64x64, .f32⟩ : BufTy).Contents (Elt F) → (⟨S64x64, .f32⟩ : BufTy).Contents (Elt F) → (⟨S64x64, .i1⟩ : BufTy).Contents (Elt F)),
    StableHlo.TRef.reshape (.of main_v4 : StableHlo.TRef sig ⟨S64x64, .i1⟩) main_call1.v0 rfl shapeCasts_S64x64_S4096,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![4096] ![1] ![4095] ![0] x v reduceWindows_S4096_S4096_w4096s1p4095_0 h_S_) ]

/-- The operations 21 to 40 of the program. -/
abbrev part2 : List (HloOp τ sig (Elt F)) :=
  [
    StableHlo.nullary main_c (constantI S_ 32 0#32),
    StableHlo.unary main_c main_v6 (broadcastInDim S2016 ![] bcast_S_S2016 : (⟨S_, .i32⟩ : BufTy).Contents (Elt F) → (⟨S2016, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S4096 ![] bcast_S_S4096),
    StableHlo.TRef.binary main_call2.v1 (.of main_v5 : StableHlo.TRef sig ⟨S4096, .i32⟩) main_call2.v2 maxsi,
    StableHlo.nullary main_c_2 (constantI S_ 32 0#32),
    StableHlo.unary main_c_2 main_v8 (broadcastInDim S4096 ![] bcast_S_S4096 : (⟨S_, .i32⟩ : BufTy).Contents (Elt F) → (⟨S4096, .i32⟩ : BufTy).Contents (Elt F)),
    StableHlo.binary main_v7 main_v8 main_v9 (cmpi .slt : (⟨S4096, .i32⟩ : BufTy).Contents (Elt F) → (⟨S4096, .i32⟩ : BufTy).Contents (Elt F) → (⟨S4096, .i1⟩ : BufTy).Contents (Elt F)),
    StableHlo.nullary main_c_3 (constantI S_ 32 2016#32),
    StableHlo.unary main_c_3 main_v10 (broadcastInDim S4096 ![] bcast_S_S4096 : (⟨S_, .i32⟩ : BufTy).Contents (Elt F) → (⟨S4096, .i32⟩ : BufTy).Contents (Elt F)),
    StableHlo.binary main_v7 main_v10 main_v11 (addi : (⟨S4096, .i32⟩ : BufTy).Contents (Elt F) → (⟨S4096, .i32⟩ : BufTy).Contents (Elt F) → (⟨S4096, .i32⟩ : BufTy).Contents (Elt F)),
    StableHlo.ternary main_v9 main_v11 main_v7 main_v12 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v12 main_v13 (broadcastInDim S4096x1 ![0] bcast_S4096_S4096x1_0 : (⟨S4096, .i32⟩ : BufTy).Contents (Elt F) → (⟨S4096x1, .i32⟩ : BufTy).Contents (Elt F)),
    StableHlo.nullary main_c_4 (constantI S_ 32 1#32),
    StableHlo.unary main_c_4 main_v14 (broadcastInDim S4096 ![] bcast_S_S4096 : (⟨S_, .i32⟩ : BufTy).Contents (Elt F) → (⟨S4096, .i32⟩ : BufTy).Contents (Elt F)),
    StableHlo.ternary main_v6 main_v13 main_v14 main_v15 ((fun x i u => Host.scatter scatter_S2016_S4096x1_S4096_n_0_0_1 IntOp.addi x i u) : (⟨S2016, .i32⟩ : BufTy).Contents (Elt F) → (⟨S4096x1, .i32⟩ : BufTy).Contents (Elt F) → (⟨S4096, .i32⟩ : BufTy).Contents (Elt F) → (⟨S2016, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v15 : StableHlo.TRef sig ⟨S2016, .i32⟩) main_call3.call0.v0 main_call3.call0.v1 (fun x v => Host.reduceWindow IntOp.addi ![2016] ![1] ![2015] ![0] x v reduceWindows_S2016_S2016_w2016s1p2015_0 h_S_) ]

/-- The operations 41 to 57 of the program. -/
abbrev part3 : List (HloOp τ sig (Elt F)) :=
  [
    StableHlo.nullary main_c_5 (constantI S_ 32 64#32),
    StableHlo.TRef.unary (.of main_c_5 : StableHlo.TRef sig ⟨S_, .i32⟩) main_call4.v0 (broadcastInDim S2016 ![] bcast_S_S2016),
    StableHlo.TRef.binary (.of main_v16 : StableHlo.TRef sig ⟨S2016, .i32⟩) main_call4.v0 main_call4.v1 Host.divsi,
    StableHlo.TRef.unary (.of main_v16 : StableHlo.TRef sig ⟨S2016, .i32⟩) main_call4.v2 signi,
    StableHlo.TRef.unary (.of main_c_5 : StableHlo.TRef sig ⟨S_, .i32⟩) main_call4.v3 signi,
    StableHlo.TRef.unary main_call4.v3 main_call4.v4 (broadcastInDim S2016 ![] bcast_S_S2016),
    StableHlo.TRef.binary main_call4.v2 main_call4.v4 main_call4.v5 (cmpi .ne),
    StableHlo.TRef.unary (.of main_c_5 : StableHlo.TRef sig ⟨S_, .i32⟩) main_call4.v6 (broadcastInDim S2016 ![] bcast_S_S2016),
    StableHlo.TRef.binary (.of main_v16 : StableHlo.TRef sig ⟨S2016, .i32⟩) main_call4.v6 main_call4.v7 Host.remsi,
    StableHlo.TRef.nullary main_call4.c (constantI S_ 32 0#32),
    StableHlo.TRef.unary main_call4.c main_call4.v8 (broadcastInDim S2016 ![] bcast_S_S2016),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S2016 ![] bcast_S_S2016),
    StableHlo.TRef.binary main_call4.v1 main_call4.v11 main_call4.v12 subi,
    StableHlo.TRef.ternary main_call4.v10 main_call4.v12 main_call4.v1 main_call4.call0.v0 select ]

/-- The operations 58 to 79 of the program. -/
abbrev part4 : List (HloOp τ sig (Elt F)) :=
  [
    StableHlo.nullary main_c_6 (constantI S_ 32 64#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S2016 ![] bcast_S_S2016),
    StableHlo.TRef.binary (.of main_v17 : StableHlo.TRef sig ⟨S2016, .i32⟩) main_call5.v3 main_call5.v4 Host.remsi,
    StableHlo.TRef.nullary main_call5.c_1 (constantI S_ 32 0#32),
    StableHlo.TRef.unary main_call5.c_1 main_call5.v5 (broadcastInDim S2016 ![] bcast_S_S2016),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S2016 ![] bcast_S_S2016),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S2016 ![] bcast_S_S2016),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S2016 ![] bcast_S_S2016),
    StableHlo.TRef.binary main_call5.v4 main_call5.v13 main_call5.v14 addi,
    StableHlo.TRef.ternary main_call5.v12 main_call5.v14 main_call5.v4 main_call5.v15 select ]

/-- The operations 80 to 96 of the program. -/
abbrev part5 : List (HloOp τ sig (Elt F)) :=
  [
    StableHlo.nullary main_c_7 (constantI S_ 32 1#32),
    StableHlo.TRef.unary (.of main_c_7 : StableHlo.TRef sig ⟨S_, .i32⟩) main_call6.v0 (broadcastInDim S2016 ![] bcast_S_S2016),
    StableHlo.TRef.binary (.of main_v16 : StableHlo.TRef sig ⟨S2016, .i32⟩) main_call6.v0 main_call6.v1 Host.divsi,
    StableHlo.TRef.unary (.of main_v16 : StableHlo.TRef sig ⟨S2016, .i32⟩) main_call6.v2 signi,
    StableHlo.TRef.unary (.of main_c_7 : StableHlo.TRef sig ⟨S_, .i32⟩) main_call6.v3 signi,
    StableHlo.TRef.unary main_call6.v3 main_call6.v4 (broadcastInDim S2016 ![] bcast_S_S2016),
    StableHlo.TRef.binary main_call6.v2 main_call6.v4 main_call6.v5 (cmpi .ne),
    StableHlo.TRef.unary (.of main_c_7 : StableHlo.TRef sig ⟨S_, .i32⟩) main_call6.v6 (broadcastInDim S2016 ![] bcast_S_S2016),
    StableHlo.TRef.binary (.of main_v16 : StableHlo.TRef sig ⟨S2016, .i32⟩) main_call6.v6 main_call6.v7 Host.remsi,
    StableHlo.TRef.nullary main_call6.c (constantI S_ 32 0#32),
    StableHlo.TRef.unary main_call6.c main_call6.v8 (broadcastInDim S2016 ![] bcast_S_S2016),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S2016 ![] bcast_S_S2016),
    StableHlo.TRef.binary main_call6.v1 main_call6.v11 main_call6.v12 subi,
    StableHlo.TRef.ternary main_call6.v10 main_call6.v12 main_call6.v1 main_call6.call0.v0 select ]

/-- The operations 97 to 118 of the program. -/
abbrev part6 : List (HloOp τ sig (Elt F)) :=
  [
    StableHlo.nullary main_c_8 (constantI S_ 32 64#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S2016 ![] bcast_S_S2016),
    StableHlo.TRef.binary (.of main_v19 : StableHlo.TRef sig ⟨S2016, .i32⟩) main_call7.v3 main_call7.v4 Host.remsi,
    StableHlo.TRef.nullary main_call7.c_1 (constantI S_ 32 0#32),
    StableHlo.TRef.unary main_call7.c_1 main_call7.v5 (broadcastInDim S2016 ![] bcast_S_S2016),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S2016 ![] bcast_S_S2016),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S2016 ![] bcast_S_S2016),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S2016 ![] bcast_S_S2016),
    StableHlo.TRef.binary main_call7.v4 main_call7.v13 main_call7.v14 addi,
    StableHlo.TRef.ternary main_call7.v12 main_call7.v14 main_call7.v4 main_call7.v15 select ]

/-- The operations 119 to 134 of the program. -/
abbrev part7 : List (HloOp τ sig (Elt F)) :=
  [
    StableHlo.nullary main_c_9 (constantI S_ 32 0#32),
    StableHlo.unary main_c_9 main_v21 (broadcastInDim S2016 ![] bcast_S_S2016 : (⟨S_, .i32⟩ : BufTy).Contents (Elt F) → (⟨S2016, .i32⟩ : BufTy).Contents (Elt F)),
    StableHlo.binary main_v18 main_v21 main_v22 (cmpi .slt : (⟨S2016, .i32⟩ : BufTy).Contents (Elt F) → (⟨S2016, .i32⟩ : BufTy).Contents (Elt F) → (⟨S2016, .i1⟩ : BufTy).Contents (Elt F)),
    StableHlo.nullary main_c_10 (constantI S_ 32 64#32),
    StableHlo.unary main_c_10 main_v23 (broadcastInDim S2016 ![] bcast_S_S2016 : (⟨S_, .i32⟩ : BufTy).Contents (Elt F) → (⟨S2016, .i32⟩ : BufTy).Contents (Elt F)),
    StableHlo.binary main_v18 main_v23 main_v24 (addi : (⟨S2016, .i32⟩ : BufTy).Contents (Elt F) → (⟨S2016, .i32⟩ : BufTy).Contents (Elt F) → (⟨S2016, .i32⟩ : BufTy).Contents (Elt F)),
    StableHlo.ternary main_v22 main_v24 main_v18 main_v25 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.nullary main_c_11 (constantI S_ 32 0#32),
    StableHlo.unary main_c_11 main_v26 (broadcastInDim S2016 ![] bcast_S_S2016 : (⟨S_, .i32⟩ : BufTy).Contents (Elt F) → (⟨S2016, .i32⟩ : BufTy).Contents (Elt F)),
    StableHlo.binary main_v20 main_v26 main_v27 (cmpi .slt : (⟨S2016, .i32⟩ : BufTy).Contents (Elt F) → (⟨S2016, .i32⟩ : BufTy).Contents (Elt F) → (⟨S2016, .i1⟩ : BufTy).Contents (Elt F)),
    StableHlo.nullary main_c_12 (constantI S_ 32 64#32),
    StableHlo.unary main_c_12 main_v28 (broadcastInDim S2016 ![] bcast_S_S2016 : (⟨S_, .i32⟩ : BufTy).Contents (Elt F) → (⟨S2016, .i32⟩ : BufTy).Contents (Elt F)),
    StableHlo.binary main_v20 main_v28 main_v29 (addi : (⟨S2016, .i32⟩ : BufTy).Contents (Elt F) → (⟨S2016, .i32⟩ : BufTy).Contents (Elt F) → (⟨S2016, .i32⟩ : BufTy).Contents (Elt F)),
    StableHlo.ternary main_v27 main_v29 main_v20 main_v30 (select : (⟨S2016, .i1⟩ : BufTy).Contents (Elt F) → (⟨S2016, .i32⟩ : BufTy).Contents (Elt F) → (⟨S2016, .i32⟩ : BufTy).Contents (Elt F) → (⟨S2016, .i32⟩ : BufTy).Contents (Elt F)),
    StableHlo.unary main_v25 main_v31 (broadcastInDim S2016x1 ![0] bcast_S2016_S2016x1_0 : (⟨S2016, .i32⟩ : BufTy).Contents (Elt F) → (⟨S2016x1, .i32⟩ : BufTy).Contents (Elt F)),
    StableHlo.unary main_v30 main_v32 (broadcastInDim S2016x1 ![0] bcast_S2016_S2016x1_0 : (⟨S2016, .i32⟩ : BufTy).Contents (Elt F) → (⟨S2016x1, .i32⟩ : BufTy).Contents (Elt F)) ]

/-- The operations 135 to 136 of the program. -/
abbrev part8 : List (HloOp τ sig (Elt F)) :=
  [
    StableHlo.binary main_v31 main_v32 main_v33 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    StableHlo.binary main_v0 main_v33 main_v34 ((fun x i => Host.gather gather_S4096x64x64_S2016x2_S4096x2016_0_12_n_n_12_1_409611 x i) : (⟨S4096x64x64, .f32⟩ : BufTy).Contents (Elt F) → (⟨S2016x2, .i32⟩ : BufTy).Contents (Elt F) → (⟨S4096x2016, .f32⟩ : BufTy).Contents (Elt F)) ]

/-- The operations 137 to 167 of the program. -/
abbrev part9 : List (HloOp τ sig (Elt F)) :=
  [
    StableHlo.nullary main_cst_13 (constant S_ .f32 0x00000000#32),
    StableHlo.binary main_v34 main_cst_13 main_v35 ((fun x v => Host.reduceAdd x v reducesTo_S4096x2016_S4096_d1 h_S_) : (⟨S4096x2016, .f32⟩ : BufTy).Contents (Elt F) → (⟨S_, .f32⟩ : BufTy).Contents (Elt F) → (⟨S4096, .f32⟩ : BufTy).Contents (Elt F)),
    StableHlo.unary main_v35 main_v36 (broadcastInDim S4096x1 ![0] bcast_S4096_S4096x1_0 : (⟨S4096, .f32⟩ : BufTy).Contents (Elt F) → (⟨S4096x1, .f32⟩ : BufTy).Contents (Elt F)),
    StableHlo.nullary main_cst_14 (constant S_ .f32 0x44FC0000#32),
    StableHlo.unary main_cst_14 main_v37 (broadcastInDim S4096x1 ![] bcast_S_S4096x1 : (⟨S_, .f32⟩ : BufTy).Contents (Elt F) → (⟨S4096x1, .f32⟩ : BufTy).Contents (Elt F)),
    StableHlo.binary main_v36 main_v37 main_v38 (Host.divf : (⟨S4096x1, .f32⟩ : BufTy).Contents (Elt F) → (⟨S4096x1, .f32⟩ : BufTy).Contents (Elt F) → (⟨S4096x1, .f32⟩ : BufTy).Contents (Elt F)),
    StableHlo.nullary main_c_15 (constantI S_ 32 0#32),
    StableHlo.TRef.nullary main_call8.call0.cst (constant S_ .f32 0x00000000#32),
    StableHlo.TRef.binary (.of main_v34 : StableHlo.TRef sig ⟨S4096x2016, .f32⟩) main_call8.call0.cst main_call8.call0.v0 (fun x v => Host.reduceAdd x v reducesTo_S4096x2016_S4096_d1 h_S_),
    StableHlo.TRef.unary main_call8.call0.v0 main_call8.call0.v1 (broadcastInDim S4096x1 ![0] bcast_S4096_S4096x1_0),
    StableHlo.TRef.nullary main_call8.call0.cst_0 (constant S_ .f32 0x44FC0000#32),
    StableHlo.TRef.unary main_call8.call0.cst_0 main_call8.call0.v2 (broadcastInDim S4096x1 ![] bcast_S_S4096x1),
    StableHlo.TRef.binary main_call8.call0.v1 main_call8.call0.v2 main_call8.call0.v3 Host.divf,
    StableHlo.TRef.unary main_call8.call0.v3 main_call8.call0.v4 (broadcastInDim S4096x2016 ![0, 1] bcast_S4096x1_S4096x2016_0_1),
    StableHlo.TRef.binary (.of main_v34 : StableHlo.TRef sig ⟨S4096x2016, .f32⟩) main_call8.call0.v4 main_call8.call0.v5 subf,
    StableHlo.TRef.binary main_call8.call0.v5 main_call8.call0.v5 main_call8.call0.v6 mulf,
    StableHlo.TRef.unary (.of main_c_15 : StableHlo.TRef sig ⟨S_, .i32⟩) main_call8.call0.v7 (sitofp .f32),
    StableHlo.TRef.nullary main_call8.call0.cst_1 (constant S_ .f32 0x44FC0000#32),
    StableHlo.TRef.binary main_call8.call0.cst_1 main_call8.call0.v7 main_call8.call0.v8 subf,
    StableHlo.TRef.nullary main_call8.call0.cst_2 (constant S_ .f32 0x00000000#32),
    StableHlo.TRef.binary main_call8.call0.v6 main_call8.call0.cst_2 main_call8.call0.v9 (fun x v => Host.reduceAdd x v reducesTo_S4096x2016_S4096_d1 h_S_),
    StableHlo.TRef.unary main_call8.call0.v9 main_call8.call0.v10 (broadcastInDim S4096x1 ![0] bcast_S4096_S4096x1_0),
    StableHlo.TRef.unary main_call8.call0.v8 main_call8.call0.v11 (broadcastInDim S4096x1 ![] bcast_S_S4096x1),
    StableHlo.TRef.binary main_call8.call0.v10 main_call8.call0.v11 main_call8.call0.v12 Host.divf,
    StableHlo.TRef.nullary main_call8.call0.cst_3 (constant S_ .f32 0x00000000#32),
    StableHlo.TRef.binary main_call8.call0.v8 main_call8.call0.cst_3 main_call8.call0.v13 (cmpf .ogt),
    StableHlo.TRef.nullary main_call8.call0.cst_4 (constant S_ .f32 0x7FC00000#32),
    StableHlo.TRef.unary main_call8.call0.cst_4 main_call8.call0.call0.v0 id,
    StableHlo.TRef.unary main_call8.call0.call0.v0 main_call8.call0.call0.v1 (broadcastInDim S4096x1 ![] bcast_S_S4096x1),
    StableHlo.TRef.ternary main_call8.call0.v13 main_call8.call0.v12 main_call8.call0.call0.v1 main_call8.call0.call0.v2 (fun p a b => select (broadcastInDim S4096x1 ![] bcast_S_S4096x1 p) a b),
    StableHlo.TRef.unary main_call8.call0.call0.v2 main_call8.v1 Host.sqrt ]

/-- The operations 168 to 168 of the program. -/
abbrev part10 : List (HloOp τ sig (Elt F)) :=
  [
    StableHlo.nary ![main_v34, main_v38, main_v39] main_v40 (fun u => concatenate S4096x2018 1 [⟨S4096x2016, u 0⟩, ⟨S4096x1, u 1⟩, ⟨S4096x1, u 2⟩] concatenates_S4096x2016_S4096x1_S4096x1_S4096x2018_d1) ]

/-- The program's operations are the ten windows in order. -/
theorem ops_eq : (ops : List (HloOp τ sig (Elt F))) = part1 ++ (part2 ++ (part3 ++ (part4 ++ (part5 ++ (part6 ++ (part7 ++ (part8 ++ (part9 ++ (part10))))))))) := rfl

/-- The buffers' contents before the first window. -/
def val0 (V : Valuation τ sig (Elt F)) : Valuation τ sig (Elt F) := V

theorem val0_main_arg0 (V : Valuation τ sig (Elt F)) : val0 V (no_index (Proc.devRef .tc main_arg0)) = V (Proc.devRef .tc main_arg0) := rfl

/-- The buffers' contents after the first 1 window. -/
def val1 (V : Valuation τ sig (Elt F)) : Valuation τ sig (Elt F) := after part1 (val0 V)

attribute [local irreducible] Host.reduceWindow Host.scatter Host.gather Host.reduceAdd concatenate in
set_option maxRecDepth 8192 in
set_option maxHeartbeats 2000000 in
theorem val1_main_v0 (V : Valuation τ sig (Elt F)) :
    val1 V (no_index (Proc.devRef .tc main_v0)) = Host.dotGeneral dot_S4096x64x128_S4096x64x128_S4096x64x64_2_2_1_1_0_0 none (V (Proc.devRef .tc main_arg0)) (V (Proc.devRef .tc main_arg0)) := by
  unfold val1
  simp only [part1]
  after_results_simp
  try simp only [val0_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val1_main_v5 (V : Valuation τ sig (Elt F)) :
    val1 V (no_index (Proc.devRef .tc main_v5)) = cumsumF (maskTerm F) := by
  unfold val1
  simp only [part1]
  after_results_simp
  try simp only [val0_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val1_main_arg0 (V : Valuation τ sig (Elt F)) :
    val1 V (no_index (Proc.devRef .tc main_arg0)) = V (Proc.devRef .tc main_arg0) := by
  unfold val1
  simp only [part1]
  after_results_simp
  try simp only [val0_main_arg0]
  try simp only [TRef.toBuf, TRef.ofBuf, cast_self]
  all_goals rfl

/-- The buffers' contents after the first 2 windows. -/
def val2 (V : Valuation τ sig (Elt F)) : Valuation τ sig (Elt F) := after part2 (val1 V)

attribute [local irreducible] Host.reduceWindow Host.scatter Host.gather Host.reduceAdd concatenate in
set_option maxRecDepth 8192 in
set_option maxHeartbeats 2000000 in
theorem val2_main_v0 (V : Valuation τ sig (Elt F)) :
    val2 V (no_index (Proc.devRef .tc main_v0)) = Host.dotGeneral dot_S4096x64x128_S4096x64x128_S4096x64x64_2_2_1_1_0_0 none (V (Proc.devRef .tc main_arg0)) (V (Proc.devRef .tc main_arg0)) := by
  unfold val2
  simp only [part2]
  after_results_simp
  try simp only [val1_main_v0, val1_main_v5, val1_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val2_main_v16 (V : Valuation τ sig (Elt F)) :
    val2 V (no_index (Proc.devRef .tc main_v16)) = flatF (maskTerm F) := by
  unfold val2
  simp only [part2]
  after_results_simp
  try simp only [val1_main_v0, val1_main_v5, val1_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val2_main_arg0 (V : Valuation τ sig (Elt F)) :
    val2 V (no_index (Proc.devRef .tc main_arg0)) = V (Proc.devRef .tc main_arg0) := by
  unfold val2
  simp only [part2]
  after_results_simp
  try simp only [val1_main_v0, val1_main_v5, val1_main_arg0]
  try simp only [TRef.toBuf, TRef.ofBuf, cast_self]
  all_goals rfl

/-- The buffers' contents after the first 3 windows. -/
def val3 (V : Valuation τ sig (Elt F)) : Valuation τ sig (Elt F) := after part3 (val2 V)

attribute [local irreducible] Host.reduceWindow Host.scatter Host.gather Host.reduceAdd concatenate in
set_option maxRecDepth 8192 in
set_option maxHeartbeats 2000000 in
theorem val3_main_v0 (V : Valuation τ sig (Elt F)) :
    val3 V (no_index (Proc.devRef .tc main_v0)) = Host.dotGeneral dot_S4096x64x128_S4096x64x128_S4096x64x64_2_2_1_1_0_0 none (V (Proc.devRef .tc main_arg0)) (V (Proc.devRef .tc main_arg0)) := by
  unfold val3
  simp only [part3]
  after_results_simp
  try simp only [val2_main_v0, val2_main_v16, val2_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val3_main_v16 (V : Valuation τ sig (Elt F)) :
    val3 V (no_index (Proc.devRef .tc main_v16)) = flatF (maskTerm F) := by
  unfold val3
  simp only [part3]
  after_results_simp
  try simp only [val2_main_v0, val2_main_v16, val2_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val3_main_v17 (V : Valuation τ sig (Elt F)) :
    val3 V (no_index (Proc.devRef .tc main_v17)) = floorDivF (flatF (maskTerm F)) (constantI S_ 32 64#32) := by
  unfold val3
  simp only [part3]
  after_results_simp
  try simp only [val2_main_v0, val2_main_v16, val2_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val3_main_arg0 (V : Valuation τ sig (Elt F)) :
    val3 V (no_index (Proc.devRef .tc main_arg0)) = V (Proc.devRef .tc main_arg0) := by
  unfold val3
  simp only [part3]
  after_results_simp
  try simp only [val2_main_v0, val2_main_v16, val2_main_arg0]
  try simp only [TRef.toBuf, TRef.ofBuf, cast_self]
  all_goals rfl

/-- The buffers' contents after the first 4 windows. -/
def val4 (V : Valuation τ sig (Elt F)) : Valuation τ sig (Elt F) := after part4 (val3 V)

attribute [local irreducible] Host.reduceWindow Host.scatter Host.gather Host.reduceAdd concatenate in
set_option maxRecDepth 8192 in
set_option maxHeartbeats 2000000 in
theorem val4_main_v0 (V : Valuation τ sig (Elt F)) :
    val4 V (no_index (Proc.devRef .tc main_v0)) = Host.dotGeneral dot_S4096x64x128_S4096x64x128_S4096x64x64_2_2_1_1_0_0 none (V (Proc.devRef .tc main_arg0)) (V (Proc.devRef .tc main_arg0)) := by
  unfold val4
  simp only [part4]
  after_results_simp
  try simp only [val3_main_v0, val3_main_v16, val3_main_v17, val3_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val4_main_v16 (V : Valuation τ sig (Elt F)) :
    val4 V (no_index (Proc.devRef .tc main_v16)) = flatF (maskTerm F) := by
  unfold val4
  simp only [part4]
  after_results_simp
  try simp only [val3_main_v0, val3_main_v16, val3_main_v17, val3_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val4_main_v18 (V : Valuation τ sig (Elt F)) :
    val4 V (no_index (Proc.devRef .tc main_v18)) = remainderF (floorDivF (flatF (maskTerm F)) (constantI S_ 32 64#32)) (constantI S_ 32 64#32) := by
  unfold val4
  simp only [part4]
  after_results_simp
  try simp only [val3_main_v0, val3_main_v16, val3_main_v17, val3_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val4_main_arg0 (V : Valuation τ sig (Elt F)) :
    val4 V (no_index (Proc.devRef .tc main_arg0)) = V (Proc.devRef .tc main_arg0) := by
  unfold val4
  simp only [part4]
  after_results_simp
  try simp only [val3_main_v0, val3_main_v16, val3_main_v17, val3_main_arg0]
  try simp only [TRef.toBuf, TRef.ofBuf, cast_self]
  all_goals rfl

/-- The buffers' contents after the first 5 windows. -/
def val5 (V : Valuation τ sig (Elt F)) : Valuation τ sig (Elt F) := after part5 (val4 V)

attribute [local irreducible] Host.reduceWindow Host.scatter Host.gather Host.reduceAdd concatenate in
set_option maxRecDepth 8192 in
set_option maxHeartbeats 2000000 in
theorem val5_main_v0 (V : Valuation τ sig (Elt F)) :
    val5 V (no_index (Proc.devRef .tc main_v0)) = Host.dotGeneral dot_S4096x64x128_S4096x64x128_S4096x64x64_2_2_1_1_0_0 none (V (Proc.devRef .tc main_arg0)) (V (Proc.devRef .tc main_arg0)) := by
  unfold val5
  simp only [part5]
  after_results_simp
  try simp only [val4_main_v0, val4_main_v16, val4_main_v18, val4_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val5_main_v18 (V : Valuation τ sig (Elt F)) :
    val5 V (no_index (Proc.devRef .tc main_v18)) = remainderF (floorDivF (flatF (maskTerm F)) (constantI S_ 32 64#32)) (constantI S_ 32 64#32) := by
  unfold val5
  simp only [part5]
  after_results_simp
  try simp only [val4_main_v0, val4_main_v16, val4_main_v18, val4_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val5_main_v19 (V : Valuation τ sig (Elt F)) :
    val5 V (no_index (Proc.devRef .tc main_v19)) = floorDivF (flatF (maskTerm F)) (constantI S_ 32 1#32) := by
  unfold val5
  simp only [part5]
  after_results_simp
  try simp only [val4_main_v0, val4_main_v16, val4_main_v18, val4_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val5_main_arg0 (V : Valuation τ sig (Elt F)) :
    val5 V (no_index (Proc.devRef .tc main_arg0)) = V (Proc.devRef .tc main_arg0) := by
  unfold val5
  simp only [part5]
  after_results_simp
  try simp only [val4_main_v0, val4_main_v16, val4_main_v18, val4_main_arg0]
  try simp only [TRef.toBuf, TRef.ofBuf, cast_self]
  all_goals rfl

/-- The buffers' contents after the first 6 windows. -/
def val6 (V : Valuation τ sig (Elt F)) : Valuation τ sig (Elt F) := after part6 (val5 V)

attribute [local irreducible] Host.reduceWindow Host.scatter Host.gather Host.reduceAdd concatenate in
set_option maxRecDepth 8192 in
set_option maxHeartbeats 2000000 in
theorem val6_main_v0 (V : Valuation τ sig (Elt F)) :
    val6 V (no_index (Proc.devRef .tc main_v0)) = Host.dotGeneral dot_S4096x64x128_S4096x64x128_S4096x64x64_2_2_1_1_0_0 none (V (Proc.devRef .tc main_arg0)) (V (Proc.devRef .tc main_arg0)) := by
  unfold val6
  simp only [part6]
  after_results_simp
  try simp only [val5_main_v0, val5_main_v18, val5_main_v19, val5_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val6_main_v18 (V : Valuation τ sig (Elt F)) :
    val6 V (no_index (Proc.devRef .tc main_v18)) = remainderF (floorDivF (flatF (maskTerm F)) (constantI S_ 32 64#32)) (constantI S_ 32 64#32) := by
  unfold val6
  simp only [part6]
  after_results_simp
  try simp only [val5_main_v0, val5_main_v18, val5_main_v19, val5_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val6_main_v20 (V : Valuation τ sig (Elt F)) :
    val6 V (no_index (Proc.devRef .tc main_v20)) = remainderF (floorDivF (flatF (maskTerm F)) (constantI S_ 32 1#32)) (constantI S_ 32 64#32) := by
  unfold val6
  simp only [part6]
  after_results_simp
  try simp only [val5_main_v0, val5_main_v18, val5_main_v19, val5_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val6_main_arg0 (V : Valuation τ sig (Elt F)) :
    val6 V (no_index (Proc.devRef .tc main_arg0)) = V (Proc.devRef .tc main_arg0) := by
  unfold val6
  simp only [part6]
  after_results_simp
  try simp only [val5_main_v0, val5_main_v18, val5_main_v19, val5_main_arg0]
  try simp only [TRef.toBuf, TRef.ofBuf, cast_self]
  all_goals rfl

/-- The buffers' contents after the first 7 windows. -/
def val7 (V : Valuation τ sig (Elt F)) : Valuation τ sig (Elt F) := after part7 (val6 V)

attribute [local irreducible] Host.reduceWindow Host.scatter Host.gather Host.reduceAdd concatenate in
set_option maxRecDepth 8192 in
set_option maxHeartbeats 2000000 in
theorem val7_main_v0 (V : Valuation τ sig (Elt F)) :
    val7 V (no_index (Proc.devRef .tc main_v0)) = Host.dotGeneral dot_S4096x64x128_S4096x64x128_S4096x64x64_2_2_1_1_0_0 none (V (Proc.devRef .tc main_arg0)) (V (Proc.devRef .tc main_arg0)) := by
  unfold val7
  simp only [part7]
  after_results_simp
  try simp only [val6_main_v0, val6_main_v18, val6_main_v20, val6_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val7_main_v31 (V : Valuation τ sig (Elt F)) :
    val7 V (no_index (Proc.devRef .tc main_v31)) = broadcastInDim S2016x1 ![0] bcast_S2016_S2016x1_0 (rowsF (maskTerm F)) := by
  unfold val7
  simp only [part7]
  after_results_simp
  try simp only [val6_main_v0, val6_main_v18, val6_main_v20, val6_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val7_main_v32 (V : Valuation τ sig (Elt F)) :
    val7 V (no_index (Proc.devRef .tc main_v32)) = broadcastInDim S2016x1 ![0] bcast_S2016_S2016x1_0 (colsF (maskTerm F)) := by
  unfold val7
  simp only [part7]
  after_results_simp
  try simp only [val6_main_v0, val6_main_v18, val6_main_v20, val6_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val7_main_arg0 (V : Valuation τ sig (Elt F)) :
    val7 V (no_index (Proc.devRef .tc main_arg0)) = V (Proc.devRef .tc main_arg0) := by
  unfold val7
  simp only [part7]
  after_results_simp
  try simp only [val6_main_v0, val6_main_v18, val6_main_v20, val6_main_arg0]
  try simp only [TRef.toBuf, TRef.ofBuf, cast_self]
  all_goals rfl

/-- The buffers' contents after the first 8 windows. -/
def val8 (V : Valuation τ sig (Elt F)) : Valuation τ sig (Elt F) := after part8 (val7 V)

attribute [local irreducible] Host.reduceWindow Host.scatter Host.gather Host.reduceAdd concatenate in
set_option maxRecDepth 8192 in
set_option maxHeartbeats 2000000 in
theorem val8_main_v34 (V : Valuation τ sig (Elt F)) :
    val8 V (no_index (Proc.devRef .tc main_v34)) = pairsF (V (Proc.devRef .tc main_arg0)) (idxTerm F) := by
  unfold val8
  simp only [part8]
  after_results_simp
  rw [val7_main_v0 V, val7_main_v31 V, val7_main_v32 V]
  rfl

attribute [local irreducible] Host.reduceWindow Host.scatter Host.gather Host.reduceAdd concatenate in
set_option maxRecDepth 8192 in
set_option maxHeartbeats 2000000 in
theorem val8_main_arg0 (V : Valuation τ sig (Elt F)) :
    val8 V (no_index (Proc.devRef .tc main_arg0)) = V (Proc.devRef .tc main_arg0) := by
  unfold val8
  simp only [part8]
  after_results_simp
  try simp only [val7_main_v0, val7_main_v31, val7_main_v32, val7_main_arg0]
  try simp only [TRef.toBuf, TRef.ofBuf, cast_self]
  all_goals rfl

/-- The buffers' contents after the first 9 windows. -/
def val9 (V : Valuation τ sig (Elt F)) : Valuation τ sig (Elt F) := after part9 (val8 V)

attribute [local irreducible] Host.reduceWindow Host.scatter Host.gather Host.reduceAdd concatenate in
set_option maxRecDepth 8192 in
set_option maxHeartbeats 2000000 in
theorem val9_main_v34 (V : Valuation τ sig (Elt F)) :
    val9 V (no_index (Proc.devRef .tc main_v34)) = pairsF (V (Proc.devRef .tc main_arg0)) (idxTerm F) := by
  unfold val9
  simp only [part9]
  after_results_simp
  try simp only [val8_main_v34, val8_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val9_main_v38 (V : Valuation τ sig (Elt F)) :
    val9 V (no_index (Proc.devRef .tc main_v38)) = meanF (pairsF (V (Proc.devRef .tc main_arg0)) (idxTerm F)) := by
  unfold val9
  simp only [part9]
  after_results_simp
  try simp only [val8_main_v34, val8_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val9_main_v39 (V : Valuation τ sig (Elt F)) :
    val9 V (no_index (Proc.devRef .tc main_v39)) = stdF (pairsF (V (Proc.devRef .tc main_arg0)) (idxTerm F)) := by
  unfold val9
  simp only [part9]
  after_results_simp
  try simp only [val8_main_v34, val8_main_arg0]
  try simp only [TRef.toBuf, TRef.ofBuf, cast_self]
  all_goals rfl

attribute [local irreducible] Host.reduceWindow Host.scatter Host.gather Host.reduceAdd concatenate in
set_option maxRecDepth 8192 in
set_option maxHeartbeats 2000000 in
theorem val9_main_arg0 (V : Valuation τ sig (Elt F)) :
    val9 V (no_index (Proc.devRef .tc main_arg0)) = V (Proc.devRef .tc main_arg0) := by
  unfold val9
  simp only [part9]
  after_results_simp
  try simp only [val8_main_v34, val8_main_arg0]
  try simp only [TRef.toBuf, TRef.ofBuf, cast_self]
  all_goals rfl

/-- The buffers' contents after the first 10 windows. -/
def val10 (V : Valuation τ sig (Elt F)) : Valuation τ sig (Elt F) := after part10 (val9 V)

attribute [local irreducible] Host.reduceWindow Host.scatter Host.gather Host.reduceAdd concatenate in
set_option maxRecDepth 8192 in
set_option maxHeartbeats 2000000 in
theorem val10_main_v40 (V : Valuation τ sig (Elt F)) :
    val10 V (no_index (Proc.devRef .tc main_v40)) = refOut (V (Proc.devRef .tc main_arg0)) := by
  unfold val10
  simp only [part10]
  after_results_simp
  dsimp only [Matrix.cons_val]
  rw [val9_main_v34 V, val9_main_v38 V, val9_main_v39 V]
  rfl

attribute [local irreducible] Host.reduceWindow Host.scatter Host.gather Host.reduceAdd concatenate in
set_option maxRecDepth 8192 in
set_option maxHeartbeats 2000000 in
theorem val10_main_arg0 (V : Valuation τ sig (Elt F)) :
    val10 V (no_index (Proc.devRef .tc main_arg0)) = V (Proc.devRef .tc main_arg0) := by
  unfold val10
  simp only [part10]
  after_results_simp
  try simp only [val9_main_v34, val9_main_v38, val9_main_v39, val9_main_arg0]
  try simp only [TRef.toBuf, TRef.ofBuf, cast_self]
  all_goals rfl

/-- The fold of the whole list is the fold window by window. -/
theorem after_ops (V : Valuation τ sig (Elt F)) : after ops V = val10 V := by
  rw [ops_eq]
  simp only [after_app]
  rfl

/-- The result buffer ends at the reference's pure function of the input's contents. -/
theorem out_eq (V : Valuation τ sig (Elt F)) :
    after ops V (main_v40 : DevRef τ sig) = refOut (V (main_arg0 : DevRef τ sig)) := by
  rw [after_ops]
  exact val10_main_v40 V

/-- The input buffer is left as it was. -/
theorem arg0_eq (V : Valuation τ sig (Elt F)) :
    after ops V (main_arg0 : DevRef τ sig) = V (main_arg0 : DevRef τ sig) := by
  rw [after_ops]
  exact val10_main_arg0 V

/-- On every device, for any float values, from any memory with zero counters: every weakly fair execution of the
    reference terminates with its result buffer at the pure function of the input's launch contents, and the
    input unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = refOut (m ((c.tc : Thread nD τ).loc main_arg0))
      ∧ r.2.mem ((c.tc : Thread nD τ).loc main_arg0) = m ((c.tc : Thread nD τ).loc main_arg0) :=
  (θ_run defs _ _).mono
    (fun _ h c => ⟨(h c main_v40).trans (out_eq _), (h c main_arg0).trans (arg0_eq _)⟩)
    (run_main m ρ)

end Cert.ReferenceIdeal.RefRun

end
-- ==== Proof.LibWindowScatter.lean ====
/-
  General lemmas reading two host operations at an index.

  * A `reduce_window` over a one-axis array whose window is as long as the array, padded on the low side by one less
    than the length, with body word addition from the initial value zero: element `p` of the result is the sum of
    the operand's elements `0 … p` (an inclusive running sum).
  * A `scatter` with body word addition, of scalar updates into a one-axis array at one start index per update:
    element `k` of the result is the operand's element plus the sum of the updates whose start index, read as a
    signed integer, is `k`; an update whose start index lies outside the array is dropped. With all updates one and
    the operand zero this is a histogram of the start indices.
  * The integer floor-division and remainder composites as they are written with sign corrections, the negative-index
    wrap and the clip at zero, on small nonnegative words: plain `/`, `%` and the identity on natural numbers.
-/
import Idealize.ShloMosaic.PureOps.Ideal
import Idealize.ShloMosaic.Lib.ValueIdx
import Idealize.ShloMosaic.Lib.Affine
import Mathlib.Data.BitVec

open scoped BigOperators

namespace Cert.Tri

open Idealize.ShloMosaic Idealize.ShloMosaic.ValueIdx

/-! ## Small nonnegative words -/

theorem toNat_ofNat_lt {n : ℕ} (h : n < 2 ^ 32) : (BitVec.ofNat 32 n).toNat = n := by
  rw [BitVec.toNat_ofNat]; exact Nat.mod_eq_of_lt h

theorem msb_ofNat {n : ℕ} (h : n < 2 ^ 31) : (BitVec.ofNat 32 n).msb = false := by
  rw [BitVec.msb_eq_false_iff_two_mul_lt, toNat_ofNat_lt (by omega)]; omega

theorem toInt_ofNat_lt {n : ℕ} (h : n < 2 ^ 31) : (BitVec.ofNat 32 n).toInt = (n : ℤ) := by
  rw [BitVec.toInt_eq_toNat_of_msb (msb_ofNat h), toNat_ofNat_lt (by omega)]

theorem ofNat_inj_lt {a b : ℕ} (ha : a < 2 ^ 32) (hb : b < 2 ^ 32) (h : BitVec.ofNat 32 a = BitVec.ofNat 32 b) : a = b := by
  have := congrArg BitVec.toNat h
  rwa [toNat_ofNat_lt ha, toNat_ofNat_lt hb] at this

/-- Signed division of a small nonnegative word by a small positive word is the quotient of the numbers. -/
theorem divsi_ofNat (u : ArithUnit) {n k : ℕ} (hn : n < 2 ^ 31) (hk0 : 0 < k) (hk : k < 2 ^ 31) :
    IntOp.divsi u (BitVec.ofNat 32 n) (BitVec.ofNat 32 k) = BitVec.ofNat 32 (n / k) := by
  have hq : n / k < 2 ^ 31 := lt_of_le_of_lt (Nat.div_le_self _ _) hn
  unfold IntOp.divsi
  rw [if_neg (IntOp.not_corner_of_pos (by rw [toInt_ofNat_lt hk]; exact_mod_cast hk0)), BitVec.sdiv_eq,
    msb_ofNat hn, msb_ofNat hk]
  dsimp only
  rw [BitVec.udiv_eq]
  apply BitVec.eq_of_toNat_eq
  rw [BitVec.toNat_udiv, toNat_ofNat_lt (by omega), toNat_ofNat_lt (by omega), toNat_ofNat_lt (by omega)]

/-- Signed remainder of a small nonnegative word by a small positive word is the remainder of the numbers. -/
theorem remsi_ofNat (u : ArithUnit) {n k : ℕ} (hn : n < 2 ^ 31) (hk0 : 0 < k) (hk : k < 2 ^ 31) :
    IntOp.remsi u (BitVec.ofNat 32 n) (BitVec.ofNat 32 k) = BitVec.ofNat 32 (n % k) := by
  have hq : n % k < 2 ^ 31 := lt_of_le_of_lt (Nat.mod_le _ _) hn
  apply BitVec.eq_of_toNat_eq
  rw [IntOp.toNat_remsi u (by rw [toNat_ofNat_lt (by omega)]; omega) k hk0 (by omega), toNat_ofNat_lt (by omega),
    toNat_ofNat_lt (by omega)]

/-- The sign word: zero at zero, all ones at a negative word, one at a positive word. -/
def sgnW (v : BitVec 32) : BitVec 32 := if v = 0 then 0 else if v.msb then -1 else 1

theorem sgnW_ofNat_pos {n : ℕ} (h0 : 0 < n) (h : n < 2 ^ 31) : sgnW (BitVec.ofNat 32 n) = 1 := by
  unfold sgnW
  rw [if_neg, msb_ofNat h]; · rfl
  intro h'
  have := congrArg BitVec.toNat h'
  rw [toNat_ofNat_lt (by omega)] at this
  simp at this; omega

/-- A signed "less than zero" test of a small nonnegative word fails. -/
theorem cmpi_slt_zero_ofNat {n : ℕ} (h : n < 2 ^ 31) : IntOp.cmpi .slt (BitVec.ofNat 32 n) 0#32 = 0#1 := by
  apply eq_zero_of_ne_one
  rw [IntOp.cmpi_slt, toInt_ofNat_lt h]
  simp

/-- Floored division as it is written with a sign correction: the truncated quotient, less one where the signs of
    dividend and divisor differ and the division leaves a remainder. -/
def floorDivW (x d : BitVec 32) : BitVec 32 :=
  Scalar.select
    (IntOp.andi (IntOp.cmpi .ne (sgnW x) (sgnW d)) (IntOp.cmpi .ne (IntOp.remsi .host x d) 0#32))
    (IntOp.subi (IntOp.divsi .host x d) 1#32)
    (IntOp.divsi .host x d)

/-- On a small nonnegative dividend and a small positive divisor no correction applies: the quotient. -/
theorem floorDivW_ofNat {n k : ℕ} (hn : n < 2 ^ 31) (hk0 : 0 < k) (hk : k < 2 ^ 31) :
    floorDivW (BitVec.ofNat 32 n) (BitVec.ofNat 32 k) = BitVec.ofNat 32 (n / k) := by
  unfold floorDivW
  rw [divsi_ofNat .host hn hk0 hk, remsi_ofNat .host hn hk0 hk]
  have hc : IntOp.andi (IntOp.cmpi .ne (sgnW (BitVec.ofNat 32 n)) (sgnW (BitVec.ofNat 32 k)))
      (IntOp.cmpi .ne (BitVec.ofNat 32 (n % k)) 0#32) = 0#1 := by
    apply eq_zero_of_ne_one
    rw [IntOp.andi_eq_one, IntOp.cmpi_ne, IntOp.cmpi_ne]
    rintro ⟨h1, h2⟩
    rcases Nat.eq_zero_or_pos n with h0 | h0
    · subst h0; apply h2; simp
    · apply h1; rw [sgnW_ofNat_pos h0 hn, sgnW_ofNat_pos hk0 hk]
  rw [hc, select_zero]

/-- The divisor a remainder is taken by: the divisor, or one where it is zero. -/
def safeDivW (d : BitVec 32) : BitVec 32 := Scalar.select (IntOp.cmpi .eq d 0#32) 1#32 d

theorem safeDivW_ofNat {k : ℕ} (hk0 : 0 < k) (hk : k < 2 ^ 31) : safeDivW (BitVec.ofNat 32 k) = BitVec.ofNat 32 k := by
  unfold safeDivW
  have : IntOp.cmpi .eq (BitVec.ofNat 32 k) 0#32 = 0#1 := by
    apply eq_zero_of_ne_one
    rw [IntOp.cmpi_eq]
    intro h
    have := ofNat_inj_lt (a := k) (b := 0) (by omega) (by omega) h
    omega
  rw [this, select_zero]

/-- The remainder with the divisor's sign as it is written: the truncated remainder, plus the divisor where the remainder
    is not zero and its sign differs from the divisor's. -/
def remainderW (x d : BitVec 32) : BitVec 32 :=
  Scalar.select
    (IntOp.andi
      (IntOp.cmpi .ne (IntOp.cmpi .slt (IntOp.remsi .host x (safeDivW d)) 0#32) (IntOp.cmpi .slt (safeDivW d) 0#32))
      (IntOp.cmpi .ne (IntOp.remsi .host x (safeDivW d)) 0#32))
    (IntOp.addi (IntOp.remsi .host x (safeDivW d)) (safeDivW d))
    (IntOp.remsi .host x (safeDivW d))

/-- On a small nonnegative dividend and a small positive divisor no correction applies: the remainder. -/
theorem remainderW_ofNat {n k : ℕ} (hn : n < 2 ^ 31) (hk0 : 0 < k) (hk : k < 2 ^ 31) :
    remainderW (BitVec.ofNat 32 n) (BitVec.ofNat 32 k) = BitVec.ofNat 32 (n % k) := by
  have hq : n % k < 2 ^ 31 := lt_of_le_of_lt (Nat.mod_le _ _) hn
  unfold remainderW
  rw [safeDivW_ofNat hk0 hk, remsi_ofNat .host hn hk0 hk, cmpi_slt_zero_ofNat hq, cmpi_slt_zero_ofNat hk]
  have hc : IntOp.andi (IntOp.cmpi .ne (0#1) (0#1)) (IntOp.cmpi .ne (BitVec.ofNat 32 (n % k)) 0#32) = 0#1 := by
    apply eq_zero_of_ne_one
    rw [IntOp.andi_eq_one, IntOp.cmpi_ne]
    rintro ⟨h1, -⟩
    exact h1 rfl
  rw [hc, select_zero]

/-- A negative word counted from the end of an axis of length `m`; other words unchanged. -/
def wrapW (m x : BitVec 32) : BitVec 32 := Scalar.select (IntOp.cmpi .slt x 0#32) (IntOp.addi x m) x

theorem wrapW_ofNat (m : BitVec 32) {n : ℕ} (hn : n < 2 ^ 31) : wrapW m (BitVec.ofNat 32 n) = BitVec.ofNat 32 n := by
  unfold wrapW
  rw [cmpi_slt_zero_ofNat hn, select_zero]

/-- The signed maximum with zero leaves a small nonnegative word unchanged. -/
theorem maxsi_zero_ofNat {n : ℕ} (hn : n < 2 ^ 31) : IntOp.maxsi 0#32 (BitVec.ofNat 32 n) = BitVec.ofNat 32 n := by
  unfold IntOp.maxsi
  rw [if_neg]
  rw [BitVec.slt_iff_toInt_lt, toInt_ofNat_lt hn]
  simp

/-! ## Running sums -/

/-- A one-axis shape of length `n` has `n` elements. -/
theorem numel_one (n : ℕ) : (⟨1, ![n]⟩ : Shape).numel = n := by
  simp [Shape.numel]

/-- In a one-axis shape the multi-index at row-major position `m` has coordinate `m`. -/
theorem rowMajor_symm_one {n : ℕ} (m : Fin (⟨1, ![n]⟩ : Shape).numel) :
    ((⟨1, ![n]⟩ : Shape).rowMajor.symm m 0).val = m.val := by
  have := Shape.rowMajor_val_one ((⟨1, ![n]⟩ : Shape).rowMajor.symm m)
  rw [Equiv.apply_symm_apply] at this
  exact this.symm

/-- A left fold of word addition along a list is the start value plus the sum of the terms. -/
theorem foldl_addi_list {β : Type} (g : β → BitVec 32) (l : List β) (v : BitVec 32) :
    l.foldl (fun r m => IntOp.addi r (g m)) v = v + (l.map g).sum := by
  induction l generalizing v with
  | nil => simp
  | cons a l ih =>
    simp only [List.foldl_cons, List.map_cons, List.sum_cons]
    rw [ih]; simp only [IntOp.addi]; rw [add_assoc]

/-- A left fold of word addition over all positions below `N` is the start value plus the sum over them. -/
theorem foldl_addi_finRange {N : ℕ} (g : Fin N → BitVec 32) (v : BitVec 32) :
    (List.finRange N).foldl (fun r m => IntOp.addi r (g m)) v = v + ∑ m, g m := by
  rw [foldl_addi_list, Fin.sum_univ_def]

/-- THE RUNNING SUM. A window as long as the array (`n = lo + 1`), stride one, low padding `lo`, no high padding,
    word addition from zero: result element `p` is `x 0 + … + x p`. (Window position `m` of result element `p`
    reads operand position `p + m − lo` when that is in range and the initial value otherwise.) -/
theorem reduceWindow_cumsum {n lo : ℕ} (hlo : lo + 1 = n) (x : (⟨1, ![n]⟩ : Shape).Idx → BitVec 32)
    (init : (⟨0, ![]⟩ : Shape).Idx → BitVec 32) (hinit : ∀ i, init i = 0#32)
    (h : (⟨1, ![n]⟩ : Shape).ReduceWindows ![n] ![1] ![lo] ![0] ⟨1, ![n]⟩) (hu : 0 < (⟨0, ![]⟩ : Shape).numel)
    (p : Fin n) :
    Host.reduceWindow IntOp.addi ![n] ![1] ![lo] ![0] x init h hu (ix1 p)
      = ∑ q ∈ Finset.range (p.val + 1), if hq : q < n then x (ix1 ⟨q, hq⟩) else 0#32 := by
  have hp := p.isLt
  unfold Host.reduceWindow
  dsimp only
  rw [hinit]
  let X : ℕ → BitVec 32 := fun q => if hq : q < n then x (ix1 ⟨q, hq⟩) else 0
  let G : ℕ → BitVec 32 := fun m => if lo ≤ p.val + m then X (p.val + m - lo) else 0
  rw [List.foldl_ext _ (fun r (m : Fin (⟨1, ![n]⟩ : Shape).numel) => IntOp.addi r (G m.val))]
  · rw [foldl_addi_finRange (fun m => G m.val), BitVec.zero_add, Fin.sum_univ_eq_sum_range G, numel_one]
    show ∑ m ∈ Finset.range n, (if lo ≤ p.val + m then X (p.val + m - lo) else 0) = ∑ q ∈ Finset.range (p.val + 1), X q
    rw [← Finset.sum_filter]
    refine Finset.sum_nbij' (fun m => p.val + m - lo) (fun q => q + lo - p.val) ?_ ?_ ?_ ?_ ?_
    · intro m hm; simp only [Finset.mem_filter, Finset.mem_range] at hm ⊢; omega
    · intro q hq; simp only [Finset.mem_filter, Finset.mem_range] at hq ⊢; omega
    · intro m hm; simp only [Finset.mem_filter, Finset.mem_range] at hm ⊢; omega
    · intro q hq; simp only [Finset.mem_filter, Finset.mem_range] at hq ⊢; omega
    · intro m _; rfl
  · intro r m _
    congr 1
    have hm := rowMajor_symm_one m
    split
    · next hin =>
      have h0 := hin 0
      change lo ≤ p.val * 1 + ((⟨1, ![n]⟩ : Shape).rowMajor.symm m 0).val ∧
        p.val * 1 + ((⟨1, ![n]⟩ : Shape).rowMajor.symm m 0).val - lo < n at h0
      rw [hm, Nat.mul_one] at h0
      show _ = G m.val
      simp only [G, X]
      rw [if_pos h0.1, dif_pos h0.2]
      congr 1
      funext a
      obtain rfl : a = 0 := Subsingleton.elim _ _
      apply Fin.ext
      show p.val * 1 + ((⟨1, ![n]⟩ : Shape).rowMajor.symm m 0).val - lo = p.val + m.val - lo
      rw [hm, Nat.mul_one]
    · next hin =>
      show _ = G m.val
      simp only [G, X]
      split
      · next h1 =>
        have hneg : ¬ (p.val + m.val - lo < n) := by
          intro h2
          apply hin
          intro a
          obtain rfl : a = 0 := Subsingleton.elim _ _
          change lo ≤ p.val * 1 + ((⟨1, ![n]⟩ : Shape).rowMajor.symm m 0).val ∧
            p.val * 1 + ((⟨1, ![n]⟩ : Shape).rowMajor.symm m 0).val - lo < n
          rw [hm, Nat.mul_one]
          exact ⟨h1, h2⟩
        rw [dif_neg hneg]
        rfl
      · rfl

/-- A word of a sum of natural numbers is the sum of the words. -/
theorem ofNat_sum (s : Finset ℕ) (a : ℕ → ℕ) : BitVec.ofNat 32 (∑ q ∈ s, a q) = ∑ q ∈ s, BitVec.ofNat 32 (a q) := by
  induction s using Finset.induction_on with
  | empty => simp
  | insert q s hq ih => rw [Finset.sum_insert hq, Finset.sum_insert hq, BitVec.ofNat_add, ih]

/-- THE RUNNING SUM OF WORDS OF NATURAL NUMBERS: where the operand's element `q` is the word of `a q`, result element
    `p` is the word of `a 0 + … + a p`. -/
theorem reduceWindow_cumsum_ofNat {n lo : ℕ} (hlo : lo + 1 = n) (x : (⟨1, ![n]⟩ : Shape).Idx → BitVec 32) (a : ℕ → ℕ)
    (hx : ∀ q : Fin n, x (ix1 q) = BitVec.ofNat 32 (a q.val))
    (init : (⟨0, ![]⟩ : Shape).Idx → BitVec 32) (hinit : ∀ i, init i = 0#32)
    (h : (⟨1, ![n]⟩ : Shape).ReduceWindows ![n] ![1] ![lo] ![0] ⟨1, ![n]⟩) (hu : 0 < (⟨0, ![]⟩ : Shape).numel)
    (p : Fin n) :
    Host.reduceWindow IntOp.addi ![n] ![1] ![lo] ![0] x init h hu (ix1 p)
      = BitVec.ofNat 32 (∑ q ∈ Finset.range (p.val + 1), a q) := by
  have hp := p.isLt
  rw [reduceWindow_cumsum hlo x init hinit h hu p, ofNat_sum]
  refine Finset.sum_congr rfl fun q hq => ?_
  have hqn : q < n := by have := Finset.mem_range.mp hq; omega
  rw [dif_pos hqn]
  exact hx ⟨q, hqn⟩

/-! ## Scatter with body addition -/

/-- A left fold whose every step adds an increment to each element: the result is the start plus the sum of the
    increments. -/
theorem foldl_step_add {ι σ : Type} (step : (σ → BitVec 32) → ι → (σ → BitVec 32)) (inc : ι → σ → BitVec 32)
    (hstep : ∀ r n i, step r n i = r i + inc n i) (l : List ι) (x : σ → BitVec 32) (i : σ) :
    (l.foldl step x) i = x i + (l.map fun n => inc n i).sum := by
  induction l generalizing x with
  | nil => simp
  | cons n l ih => rw [List.foldl_cons, ih, hstep, List.map_cons, List.sum_cons, add_assoc]

/-- THE SCATTER-ADD AT AN ELEMENT: the operand's element plus the sum of the updates whose result index is that element
    (an update whose result index is outside the operand lands nowhere). -/
theorem scatter_addi_apply {s si u : Shape} {w : ℕ} (d : ScatterDims s si u) (x : s.Idx → BitVec 32) (idx : IVec si w)
    (upd : u.Idx → BitVec 32) (i : s.Idx) :
    Host.scatter d IntOp.addi x idx upd i
      = x i + ∑ j : u.Idx, if d.resultIdx? j idx = some i then upd j else 0 := by
  unfold Host.scatter
  refine (foldl_step_add _ (fun (n : Fin u.numel) i =>
    if d.resultIdx? (u.rowMajor.symm n) idx = some i then upd (u.rowMajor.symm n) else 0) ?_ _ x i).trans ?_
  · intro r n i'
    cases hk : d.resultIdx? (u.rowMajor.symm n) idx with
    | none => simp
    | some i0 =>
      by_cases hi : i' = i0
      · subst hi; simp [IntOp.addi]
      · have : ¬ i0 = i' := fun h => hi h.symm
        simp [hi, this]
  · congr 1
    rw [← Fin.sum_univ_def]
    exact Equiv.sum_comp u.rowMajor.symm (fun j => if d.resultIdx? j idx = some i then upd j else 0)

/-! ## The histogram's dimension numbers -/

/-- Scalar updates `[M]` scattered into a one-axis operand `[K]` at the start indices `[M, 1]`: no update window
    axes, the operand's axis inserted, the index vector along axis 1 holding the one start coordinate. -/
abbrev histDims (K M : ℕ) (wf : ScatterDims.WF ⟨1, ![K]⟩ ⟨2, ![M, 1]⟩ ⟨1, ![M]⟩ [] [0] [0] 1) :
    ScatterDims ⟨1, ![K]⟩ ⟨2, ![M, 1]⟩ ⟨1, ![M]⟩ where
  updateWindowDims := []
  insertedWindowDims := [0]
  scatterDimsToOperandDims := [0]
  indexVectorDim := 1
  wf := wf

variable {K M : ℕ} (wf : ScatterDims.WF ⟨1, ![K]⟩ ⟨2, ![M, 1]⟩ ⟨1, ![M]⟩ [] [0] [0] 1)

/-- Update `j`'s start on the operand's axis is the start index `idx[j, 0]` read signed. -/
theorem histDims_start {w : ℕ} (j : (⟨1, ![M]⟩ : Shape).Idx) (idx : IVec ⟨2, ![M, 1]⟩ w) :
    (histDims K M wf).start j idx 0 = (idx (ix2 (j 0) (0 : Fin 1))).toInt := by
  unfold ScatterDims.start
  rw [dif_pos (show (0 : Fin 1) ∈ (histDims K M wf).scatterDimsToOperandDims from List.mem_singleton.mpr rfl)]
  congr 2
  funext b
  refine Fin.ext ?_
  match b with
  | ⟨0, _⟩ => rfl
  | ⟨1, _⟩ => rfl

/-- The updates are scalars: their window coordinate on the operand's axis is zero. -/
theorem histDims_window (j : (⟨1, ![M]⟩ : Shape).Idx) : (histDims K M wf).window j 0 = 0 := by
  unfold ScatterDims.window
  rw [dif_neg]
  simp [ScatterDims.sKept, Shape.kept]

/-- Update `j` lands on element `k` exactly when its start index, read signed, is `k`. -/
theorem histDims_resultIdx_iff {w : ℕ} (j : (⟨1, ![M]⟩ : Shape).Idx) (idx : IVec ⟨2, ![M, 1]⟩ w) (k : Fin K) :
    (histDims K M wf).resultIdx? j idx = some (ix1 k) ↔ (idx (ix2 (j 0) (0 : Fin 1))).toInt = (k.val : ℤ) := by
  have hk := k.isLt
  unfold ScatterDims.resultIdx?
  split
  · next h =>
    rw [Option.some.injEq]
    have h0 := h 0
    rw [histDims_start, histDims_window] at h0
    constructor
    · intro he
      have hv : ((histDims K M wf).start j idx 0 + ((histDims K M wf).window j 0 : ℕ)).toNat = k.val :=
        congrArg Fin.val (congrFun he 0)
      rw [histDims_start, histDims_window] at hv
      omega
    · intro he
      funext a
      obtain rfl : a = 0 := Subsingleton.elim _ _
      apply Fin.ext
      show ((histDims K M wf).start j idx 0 + ((histDims K M wf).window j 0 : ℕ)).toNat = k.val
      rw [histDims_start, histDims_window, he]
      simp
  · next h =>
    constructor
    · intro he; exact absurd he (by simp)
    · intro he
      exfalso
      apply h
      intro a
      obtain rfl : a = 0 := Subsingleton.elim _ _
      rw [histDims_start, histDims_window, he]
      show (0 : ℤ) ≤ (k.val : ℤ) + ((0 : ℕ) : ℤ) ∧ (k.val : ℤ) + ((0 : ℕ) : ℤ) < ((K : ℕ) : ℤ)
      omega

/-- A one-axis index set is its coordinate range. -/
def idxEquiv1 {n : ℕ} : (⟨1, ![n]⟩ : Shape).Idx ≃ Fin n where
  toFun i := i 0
  invFun p := ix1 p
  left_inv i := (eq_ix1 i).symm
  right_inv _ := rfl

/-- A sum over a one-axis index set is the sum over the coordinate, as natural numbers below the length. -/
theorem sum_idx1_range {n : ℕ} (f : ℕ → BitVec 32) :
    ∑ j : (⟨1, ![n]⟩ : Shape).Idx, f (j 0).val = ∑ p ∈ Finset.range n, f p := by
  rw [← Fin.sum_univ_eq_sum_range f n]
  exact Equiv.sum_comp (idxEquiv1 (n := n)) (fun p => f p.val)

/-- A sum of ones over the members of a set that satisfy a condition is their number, as a word. -/
theorem sum_boole_word (s : Finset ℕ) (P : ℕ → Prop) [DecidablePred P] :
    (∑ p ∈ s, if P p then (1#32 : BitVec 32) else 0) = BitVec.ofNat 32 (s.filter P).card := by
  induction s using Finset.induction_on with
  | empty => simp
  | insert q s hq ih =>
    rw [Finset.sum_insert hq, ih, Finset.filter_insert]
    by_cases hP : P q
    · rw [if_pos hP, if_pos hP, Finset.card_insert_of_notMem (by simp [hq]), Nat.add_comm, BitVec.ofNat_add]
    · rw [if_neg hP, if_neg hP, zero_add]

/-- THE HISTOGRAM. Start indices that are small nonnegative words `c p`, all updates one, the operand zero: element `k`
    of the scatter-add is the number of updates `p` with `c p = k` (start indices at or beyond the operand's length
    are dropped: no `k` below the length equals them). -/
theorem scatter_hist (idx : IVec ⟨2, ![M, 1]⟩ 32) (c : ℕ → ℕ) (hc : ∀ p, p < M → c p < 2 ^ 31)
    (hidx : ∀ p : Fin M, idx (ix2 p (0 : Fin 1)) = BitVec.ofNat 32 (c p.val))
    (x0 : (⟨1, ![K]⟩ : Shape).Idx → BitVec 32) (hx0 : ∀ i, x0 i = 0#32)
    (upd : (⟨1, ![M]⟩ : Shape).Idx → BitVec 32) (hupd : ∀ j, upd j = 1#32) (k : Fin K) :
    Host.scatter (histDims K M wf) IntOp.addi x0 idx upd (ix1 k)
      = BitVec.ofNat 32 ((Finset.range M).filter fun p => c p = k.val).card := by
  rw [scatter_addi_apply, hx0, BitVec.zero_add, ← sum_boole_word, ← sum_idx1_range]
  refine Finset.sum_congr rfl fun j _ => ?_
  rw [hupd]
  have hj : (j 0).val < M := (j 0).isLt
  have hi : idx (ix2 (j 0) (0 : Fin 1)) = BitVec.ofNat 32 (c (j 0).val) := hidx (j 0)
  have : ((histDims K M wf).resultIdx? j idx = some (ix1 k)) ↔ c (j 0).val = k.val := by
    rw [histDims_resultIdx_iff, hi, toInt_ofNat_lt (hc _ hj)]
    exact Int.natCast_inj
  by_cases hP : c (j 0).val = k.val
  · rw [if_pos (this.mpr hP), if_pos hP]
  · rw [if_neg (fun h => hP (this.mp h)), if_neg hP]

end Cert.Tri
-- ==== Proof.LibCount.lean ====
/-
  Why "running count of the true entries, histogram of the counts, running sum of the histogram" lists the
  positions of the true entries of a mask in increasing order.

  Let `c p` be the number of true entries at positions `≤ p`. If `pos 0 < pos 1 < …` are the true positions
  in increasing order, then `c p ≤ k` exactly when `p < pos k`: below `pos k` only `pos 0 … pos (k−1)` are
  true, and from `pos k` on at least `k + 1` are. So the number of positions `p` with `c p ≤ k` is `pos k`.
  The instance used: the mask `row < column` on the flattened 64 × 64 grid, whose true positions in
  increasing order are the flat indices `64·rowOf k + colOf k` of the listed pairs.
-/
import proofs.«151155_j42056319762555_1_alg».proof.Proof.LibPairs
import Mathlib

open scoped BigOperators

namespace Cert.Tri

/-- If `pos` lists the true positions of `mask` below `N` in increasing order, the number of positions whose
running count of true entries is at most `k` equals `pos k`. -/
theorem count_le_card (N L : ℕ) (mask : ℕ → Bool) (pos : ℕ → ℕ)
    (hmono : ∀ k k', k < k' → k' < L → pos k < pos k') (hlt : ∀ k < L, pos k < N)
    (htrue : ∀ k < L, mask (pos k) = true)
    (hsurj : ∀ p < N, mask p = true → ∃ k < L, pos k = p) (k : ℕ) (hk : k < L) :
    ((Finset.range N).filter fun p =>
      ((Finset.range (p + 1)).filter fun q => mask q = true).card ≤ k).card = pos k := by
  have hmono' : ∀ a b, a ≤ b → b < L → pos a ≤ pos b := by
    intro a b hab hb
    rcases Nat.lt_or_eq_of_le hab with h | h
    · exact (hmono a b h hb).le
    · subst h; exact le_rfl
  -- the running count is at most `k` exactly below `pos k`
  have key : ∀ p, p < N →
      (((Finset.range (p + 1)).filter fun q => mask q = true).card ≤ k ↔ p < pos k) := by
    intro p hp
    constructor
    · -- from `pos k` on, the `k + 1` positions `pos 0 … pos k` are counted
      intro hc
      by_contra hnot
      have hle : pos k ≤ p := Nat.le_of_not_lt hnot
      have hsub : (Finset.range (k + 1)).image pos
          ⊆ (Finset.range (p + 1)).filter fun q => mask q = true := by
        intro q hq
        rw [Finset.mem_image] at hq
        obtain ⟨k', hk', rfl⟩ := hq
        rw [Finset.mem_range] at hk'
        rw [Finset.mem_filter, Finset.mem_range]
        have hk'L : k' < L := by omega
        refine ⟨?_, htrue k' hk'L⟩
        have := hmono' k' k (by omega) hk
        omega
      have hcard : ((Finset.range (k + 1)).image pos).card = k + 1 := by
        rw [Finset.card_image_of_injOn, Finset.card_range]
        intro a ha b hb hab
        simp only [Finset.coe_range, Set.mem_Iio] at ha hb
        by_contra hne
        rcases Nat.lt_or_gt_of_ne hne with h | h
        · have := hmono a b h (by omega); omega
        · have := hmono b a h (by omega); omega
      have := Finset.card_le_card hsub
      omega
    · -- below `pos k`, every true position is one of `pos 0 … pos (k − 1)`
      intro hlt'
      have hsub : ((Finset.range (p + 1)).filter fun q => mask q = true)
          ⊆ (Finset.range k).image pos := by
        intro q hq
        rw [Finset.mem_filter, Finset.mem_range] at hq
        obtain ⟨hq1, hq2⟩ := hq
        obtain ⟨k', hk'L, rfl⟩ := hsurj q (by omega) hq2
        rw [Finset.mem_image]
        refine ⟨k', ?_, rfl⟩
        rw [Finset.mem_range]
        by_contra hge
        have := hmono' k k' (Nat.le_of_not_lt hge) hk'L
        omega
      calc ((Finset.range (p + 1)).filter fun q => mask q = true).card
          ≤ ((Finset.range k).image pos).card := Finset.card_le_card hsub
        _ ≤ (Finset.range k).card := Finset.card_image_le
        _ = k := Finset.card_range k
  have hfil : ((Finset.range N).filter fun p =>
      ((Finset.range (p + 1)).filter fun q => mask q = true).card ≤ k) = Finset.range (pos k) := by
    ext p
    rw [Finset.mem_filter, Finset.mem_range, Finset.mem_range]
    constructor
    · rintro ⟨hp, hc⟩; exact (key p hp).1 hc
    · intro hp
      have hpN : p < N := lt_trans hp (hlt k hk)
      exact ⟨hpN, (key p hpN).2 hp⟩
  rw [hfil, Finset.card_range]

/-- On the flattened 64 × 64 grid (position `p` is row `p / 64`, column `p % 64`) with the mask
`row < column`: the number of positions whose running count of true entries is at most `k` is the flat
index of the `k`-th listed pair. -/
theorem triu_count (k : Fin 2016) :
    ((Finset.range 4096).filter fun p =>
      ((Finset.range (p + 1)).filter fun q => q / 64 < q % 64).card ≤ k.val).card
      = 64 * rowOf k.val + colOf k.val := by
  have h := count_le_card 4096 2016 (fun p => decide (p / 64 < p % 64))
    (fun k => 64 * rowOf k + colOf k) ?_ ?_ ?_ ?_ k.val k.isLt
  · simp only [decide_eq_true_eq] at h
    exact h
  · intro a b hab hb
    exact flat_strictMono (a := ⟨a, by omega⟩) (b := ⟨b, hb⟩) (Fin.mk_lt_mk.2 hab)
  · intro a ha
    have h1 := rowOf_lt a
    have h2 := colOf_lt ⟨a, ha⟩
    simp only at h2 ⊢
    omega
  · intro a ha
    have h1 := row_lt_col ⟨a, ha⟩
    have h2 := colOf_lt ⟨a, ha⟩
    simp only at h1 h2 ⊢
    exact decide_eq_true (by omega)
  · intro p hp hm
    have hm' : p / 64 < p % 64 := of_decide_eq_true hm
    have hj : p % 64 < 64 := Nat.mod_lt _ (by norm_num)
    obtain ⟨h1, h2, h3⟩ := pair_of_pos ⟨p / 64, by omega⟩ ⟨p % 64, hj⟩ hm'
    simp only at h1 h2 h3
    refine ⟨_, h1, ?_⟩
    simp only [h2, h3]
    omega

end Cert.Tri
-- ==== Proof.IdxTable.lean ====
/-
  The index table the reference program computes at run time is the list of (row, column) pairs of the strict
  upper triangle, row by row.

  The program's table is built from the 64 × 64 mask "row < column", flattened: the running count `cnt p` of true
  entries at flat positions up to `p`; the histogram of those counts over 2016 bins (counts equal to 2016, past the last
  true entry, fall outside and are dropped); the running sum of the histogram, which at `k` is the number of flat
  positions whose running count is at most `k`, that is, the flat position `64 · row + column` of the `k`-th true
  entry; that position floor-divided by 64 and reduced modulo 64 (the row), and reduced modulo 64 (the column).
  Every step below reads one operation at an index by a lemma; nothing is evaluated.
-/
import proofs.«151155_j42056319762555_1_alg».proof.Proof.RefTerm
import proofs.«151155_j42056319762555_1_alg».proof.Proof.LibWindowScatter
import proofs.«151155_j42056319762555_1_alg».proof.Proof.LibCount
import Idealize.ShloMosaic.Lib.Pipeline.Value
import Idealize.ShloMosaic.Lib.IdealHost

open scoped BigOperators

namespace Cert.Tri

open Idealize.ShloMosaic Idealize.ShloMosaic.ValueIdx
open Cert.ReferenceIdeal Cert.ReferenceIdeal.Gen Cert.ReferenceIdeal.RefRun

/-! ## The mask -/

/-- The mask is "row < column": the upper part of the all-ones matrix is one there and zero elsewhere, and one differs
    from zero. -/
theorem maskTerm_apply (i j : Fin 64) : maskTerm Ideal (ix2 i j) = if i.val < j.val then 1#1 else 0#1 := by
  have hi := i.isLt
  have hj := j.isLt
  show Ideal.cmp .une (Scalar.select
      (IntOp.cmpi .sge (IntOp.addi (BitVec.ofNat 32 i.val) 0#32) (BitVec.ofNat 32 j.val))
      (Ideal.ofBits .f32 0x00000000#32) (Ideal.ofBits .f32 0x3F800000#32)) (Ideal.ofBits .f32 0x00000000#32) = _
  rw [Ideal.ofBits_zero_f32, Ideal.ofBits_one_f32]
  have hadd : IntOp.addi (BitVec.ofNat 32 i.val) 0#32 = BitVec.ofNat 32 i.val := by
    simp only [IntOp.addi, BitVec.add_zero]
  rw [hadd]
  by_cases h : i.val < j.val
  · rw [if_pos h]
    have hc : IntOp.cmpi .sge (BitVec.ofNat 32 i.val) (BitVec.ofNat 32 j.val) = 0#1 := by
      apply eq_zero_of_ne_one
      rw [IntOp.cmpi_sge, toInt_ofNat_lt (by omega), toInt_ofNat_lt (by omega)]
      omega
    rw [hc, select_zero]
    simp [Ideal.cmp]
  · rw [if_neg h]
    have hc : IntOp.cmpi .sge (BitVec.ofNat 32 i.val) (BitVec.ofNat 32 j.val) = 1#1 := by
      rw [IntOp.cmpi_sge, toInt_ofNat_lt (by omega), toInt_ofNat_lt (by omega)]
      omega
    rw [hc, select_one]
    simp [Ideal.cmp]

/-! ## The running count of the flattened mask -/

/-- The number of true entries of the flattened mask at positions up to `p`. -/
def cnt (p : ℕ) : ℕ := ((Finset.range (p + 1)).filter fun q => q / 64 < q % 64).card

theorem cnt_le (p : ℕ) : cnt p ≤ p + 1 := by
  unfold cnt
  exact (Finset.card_filter_le _ _).trans (by rw [Finset.card_range])

/-- The flattened mask, widened to a word, at flat position `q`. -/
theorem maskWord_apply (q : Fin 4096) :
    extui 32 (shapeCast S4096 (maskTerm Ideal) shapeCasts_S64x64_S4096) natLt_1_32 (ix1 q)
      = BitVec.ofNat 32 (if q.val / 64 < q.val % 64 then 1 else 0) := by
  have hq := q.isLt
  rw [extui_apply]
  rw [shapeCast_apply (maskTerm Ideal) shapeCasts_S64x64_S4096 (ix1 q)
    (ix2 (⟨q.val / 64, by omega⟩ : Fin 64) (⟨q.val % 64, by omega⟩ : Fin 64))
    (by rw [Shape.rowMajor_val_two, Shape.rowMajor_val_one]
        show q.val / 64 * 64 + q.val % 64 = q.val
        omega)]
  rw [maskTerm_apply]
  by_cases h : q.val / 64 < q.val % 64
  · rw [if_pos h, if_pos h]; rfl
  · rw [if_neg h, if_neg h]; rfl

/-- The program's running sum of the flattened mask is the running count. -/
theorem cumsumF_apply (p : Fin 4096) : cumsumF (maskTerm Ideal) (ix1 p) = BitVec.ofNat 32 (cnt p.val) := by
  unfold cumsumF
  refine (reduceWindow_cumsum_ofNat (n := 4096) (lo := 4095) rfl _
    (fun q => if q / 64 < q % 64 then 1 else 0) maskWord_apply _ (fun _ => rfl) _ _ p).trans ?_
  rw [cnt, Finset.card_filter]

/-- Clipped at zero and wrapped as an index into 2016 bins, the running count is unchanged. -/
theorem binIdx_apply (p : Fin 4096) :
    wrapF (clipF (cumsumF (maskTerm Ideal)) (constantI S_ 32 0#32)) (ix1 p) = BitVec.ofNat 32 (cnt p.val) := by
  have hp := p.isLt
  have hc := cnt_le p.val
  show wrapW 2016#32 (IntOp.maxsi 0#32 (cumsumF (maskTerm Ideal) (ix1 p))) = _
  rw [cumsumF_apply, maxsi_zero_ofNat (by omega), wrapW_ofNat _ (by omega)]

/-! ## The histogram of the running counts and its running sum -/

/-- Bin `k` of the histogram: the number of flat positions whose running count is `k`. -/
theorem bincountF_apply (k : Fin 2016) :
    bincountF (wrapF (clipF (cumsumF (maskTerm Ideal)) (constantI S_ 32 0#32))) (ix1 k)
      = BitVec.ofNat 32 ((Finset.range 4096).filter fun p => cnt p = k.val).card := by
  unfold bincountF
  show Host.scatter (histDims 2016 4096 scatter_S2016_S4096x1_S4096_n_0_0_1_wf) IntOp.addi _ _ _ (ix1 k) = _
  refine scatter_hist _ _ cnt (fun p hp => by have := cnt_le p; omega) (fun p => ?_) _ (fun _ => rfl) _ (fun _ => rfl) k
  rw [broadcastInDim_apply _ _ _ (ix2 p (0 : Fin 1)) (ix1 p)
    (fun a => by obtain rfl : a = 0 := Subsingleton.elim _ _; rfl)]
  exact binIdx_apply p

/-- The running sum of the histogram at `k`: the number of flat positions whose running count is at most `k`, which is
    the flat position of the `k`-th true entry. -/
theorem flatF_apply (k : Fin 2016) :
    flatF (maskTerm Ideal) (ix1 k) = BitVec.ofNat 32 (64 * rowOf k.val + colOf k.val) := by
  have hk := k.isLt
  unfold flatF cumsum1F
  refine (reduceWindow_cumsum_ofNat (n := 2016) (lo := 2015) rfl _
    (fun k' => ((Finset.range 4096).filter fun p => cnt p = k').card) bincountF_apply _ (fun _ => rfl) _ _ k).trans ?_
  congr 1
  rw [← triu_count k]
  have hmaps : Set.MapsTo cnt ↑((Finset.range 4096).filter fun p => cnt p ≤ k.val) ↑(Finset.range (k.val + 1)) := by
    intro p hp
    rw [Finset.mem_coe, Finset.mem_filter] at hp
    rw [Finset.mem_coe, Finset.mem_range]
    omega
  show _ = ((Finset.range 4096).filter fun p => cnt p ≤ k.val).card
  rw [Finset.card_eq_sum_card_fiberwise hmaps]
  refine Finset.sum_congr rfl fun b hb => ?_
  rw [Finset.mem_range] at hb
  congr 1
  ext p
  simp only [Finset.mem_filter, Finset.mem_range]
  constructor
  · rintro ⟨h1, h2⟩; exact ⟨⟨h1, by omega⟩, h2⟩
  · rintro ⟨⟨h1, -⟩, h2⟩; exact ⟨h1, h2⟩

/-! ## Rows and columns -/

/-- The row of the `k`-th pair: the flat position floor-divided by 64, modulo 64. -/
theorem rowsF_apply (k : Fin 2016) : rowsF (maskTerm Ideal) (ix1 k) = BitVec.ofNat 32 (rowOf k.val) := by
  have hr := rowOf_lt k.val
  have hc := colOf_lt k
  show wrapW 64#32 (remainderW (floorDivW (flatF (maskTerm Ideal) (ix1 k)) (BitVec.ofNat 32 64)) (BitVec.ofNat 32 64)) = _
  rw [flatF_apply, floorDivW_ofNat (by omega) (by omega) (by omega),
    remainderW_ofNat (by omega) (by omega) (by omega), wrapW_ofNat _ (by omega)]
  congr 1
  omega

/-- The column of the `k`-th pair: the flat position floor-divided by 1, modulo 64. -/
theorem colsF_apply (k : Fin 2016) : colsF (maskTerm Ideal) (ix1 k) = BitVec.ofNat 32 (colOf k.val) := by
  have hr := rowOf_lt k.val
  have hc := colOf_lt k
  show wrapW 64#32 (remainderW (floorDivW (flatF (maskTerm Ideal) (ix1 k)) (BitVec.ofNat 32 1)) (BitVec.ofNat 32 64)) = _
  rw [flatF_apply, floorDivW_ofNat (by omega) (by omega) (by omega),
    remainderW_ofNat (by omega) (by omega) (by omega), wrapW_ofNat _ (by omega)]
  congr 1
  omega

/-! ## The table -/

/-- Column 0 of the table holds the rows of the listed pairs. -/
theorem idxTerm_row (k : Fin 2016) : idxTerm Ideal (ix2 k (0 : Fin 2)) = BitVec.ofNat 32 (rowOf k.val) := by
  unfold idxTerm idxOfMask
  rw [concatenate_pair_apply_left (t := S2016x2) (s₁ := S2016x1) (s₂ := S2016x1) (1 : Fin 2) _ _
    concatenates_S2016x1_S2016x1_S2016x2_d1 (ix2 k (0 : Fin 2)) rfl
    (ix2 k (0 : Fin 1) : (⟨2, ![2016, 1]⟩ : Shape).Idx) (fun b => match b with | ⟨0, _⟩ => rfl | ⟨1, _⟩ => rfl)]
  rw [broadcastInDim_apply _ _ _ (ix2 k (0 : Fin 1)) (ix1 k)
    (fun a => by obtain rfl : a = 0 := Subsingleton.elim _ _; rfl)]
  exact rowsF_apply k

/-- Column 1 of the table holds the columns of the listed pairs. -/
theorem idxTerm_col (k : Fin 2016) : idxTerm Ideal (ix2 k (1 : Fin 2)) = BitVec.ofNat 32 (colOf k.val) := by
  unfold idxTerm idxOfMask
  rw [concatenate_pair_apply_right (t := S2016x2) (s₁ := S2016x1) (s₂ := S2016x1) (1 : Fin 2) _ _
    concatenates_S2016x1_S2016x1_S2016x2_d1 (ix2 k (1 : Fin 2)) rfl rfl
    (ix2 k (0 : Fin 1) : (⟨2, ![2016, 1]⟩ : Shape).Idx)
    (fun b hb => match b, hb with | ⟨0, _⟩, _ => rfl | ⟨1, _⟩, hb => absurd rfl hb) rfl]
  rw [broadcastInDim_apply _ _ _ (ix2 k (0 : Fin 1)) (ix1 k)
    (fun a => by obtain rfl : a = 0 := Subsingleton.elim _ _; rfl)]
  exact colsF_apply k

end Cert.Tri
-- ==== Proof.RefGather.lean ====
/-
  The reference's gathered pair products, read at an entry.

  The reference forms the batched product of the input with itself along the last axis — per batch entry the Gram matrix
  of the 64 rows — and gathers it at the pairs of its index table: result entry `(b, k)` reads the product at
  `(b, row k, column k)`, the two start coordinates read off the table as signed integers and clamped into `0 … 63`
  (they already lie there). With the table's entries known to be the listed pairs of the strict upper triangle, that is
  the `k`-th listed entry of batch entry `b`'s Gram matrix.
-/
import proofs.«151155_j42056319762555_1_alg».proof.Proof.IdxTable
import proofs.«151155_j42056319762555_1_alg».proof.Proof.Spec
import Idealize.ShloMosaic.PureOps.Ideal.Laws

noncomputable section

open scoped BigOperators

namespace Cert.Tri

open Idealize.ShloMosaic Idealize.ShloMosaic.ValueIdx
open Cert.ReferenceIdeal Cert.ReferenceIdeal.Gen Cert.ReferenceIdeal.RefRun

/-- The product's dimension numbers: batch axis 0, free axis 1 on both sides, contracted axis 2. -/
abbrev RD : DotDims S4096x64x128 S4096x64x128 S4096x64x64 := dot_S4096x64x128_S4096x64x128_S4096x64x64_2_2_1_1_0_0

/-- The gather's dimension numbers: the batch axis is kept whole (an offset axis), the two matrix axes are collapsed
    and start at the table's two entries. -/
abbrev GD : GatherDims S4096x64x64 S2016x2 S4096x2016 := gather_S4096x64x64_S2016x2_S4096x2016_0_12_n_n_12_1_409611

theorem RD_lhs0 (j : S4096x64x64.Idx) (q : RD.contr.Idx) : (RD.lhsIdx j q 0).val = (j 0).val := by
  unfold DotDims.lhsIdx
  rw [dif_pos (show (0 : Fin S4096x64x128.rank) ∈ RD.lhsBatch by decide)]
  rfl
theorem RD_lhs1 (j : S4096x64x64.Idx) (q : RD.contr.Idx) : (RD.lhsIdx j q 1).val = (j 1).val := by
  unfold DotDims.lhsIdx
  rw [dif_neg (show ¬(1 : Fin S4096x64x128.rank) ∈ RD.lhsBatch by decide),
    dif_pos (show (1 : Fin S4096x64x128.rank) ∈ RD.lhsNonContracting by decide)]
  rfl
theorem RD_lhs2 (j : S4096x64x64.Idx) (q : RD.contr.Idx) : (RD.lhsIdx j q 2).val = (q ⟨0, by decide⟩).val :=
  RD.lhsIdx_val_of_single rfl j q
theorem RD_rhs0 (j : S4096x64x64.Idx) (q : RD.contr.Idx) : (RD.rhsIdx j q 0).val = (j 0).val := by
  unfold DotDims.rhsIdx
  rw [dif_pos (show (0 : Fin S4096x64x128.rank) ∈ RD.rhsBatch by decide)]
  rfl
theorem RD_rhs1 (j : S4096x64x64.Idx) (q : RD.contr.Idx) : (RD.rhsIdx j q 1).val = (j 2).val := by
  unfold DotDims.rhsIdx
  rw [dif_neg (show ¬(1 : Fin S4096x64x128.rank) ∈ RD.rhsBatch by decide),
    dif_pos (show (1 : Fin S4096x64x128.rank) ∈ RD.rhsNonContracting by decide)]
  rfl
theorem RD_rhs2 (j : S4096x64x64.Idx) (q : RD.contr.Idx) : (RD.rhsIdx j q 2).val = (q ⟨0, by decide⟩).val :=
  RD.rhsIdx_val_of_single rfl j q

/-- The batched product of the input with itself at `(b, i, j)`: the inner product of rows `i` and `j` of batch
    entry `b`. -/
theorem refGram_apply (x : FVec Ideal S4096x64x128 .f32) (b : Fin 4096) (i j : Fin 64) :
    Host.dotGeneral RD none x x (ix3 b i j) = gram x b i j := by
  refine (Ideal.dotGeneral_apply RD none .single x x (ix3 b i j)).trans ?_
  rw [← Equiv.sum_comp (contrEquiv1 RD 128 rfl rfl).symm]
  unfold gram
  refine Finset.sum_congr rfl fun d _ => ?_
  have hd := contrEquiv1_symm_val RD 128 rfl rfl d
  have el : RD.lhsIdx (ix3 b i j) ((contrEquiv1 RD 128 rfl rfl).symm d) = ix3 b i d := funext fun a => Fin.ext (by
    match a with
    | ⟨0, _⟩ => exact RD_lhs0 _ _
    | ⟨1, _⟩ => exact RD_lhs1 _ _
    | ⟨2, _⟩ => exact (RD_lhs2 _ _).trans hd)
  have er : RD.rhsIdx (ix3 b i j) ((contrEquiv1 RD 128 rfl rfl).symm d) = ix3 b j d := funext fun a => Fin.ext (by
    match a with
    | ⟨0, _⟩ => exact RD_rhs0 _ _
    | ⟨1, _⟩ => exact RD_rhs1 _ _
    | ⟨2, _⟩ => exact (RD_rhs2 _ _).trans hd)
  rw [el, er]

/-- The start of the gathered slice on a matrix axis: the table's entry for that axis (a pair coordinate below 64),
    unchanged by the clamp into `0 … 63`. -/
theorem GD_start1 (b : Fin 4096) (k : Fin 2016) : GD.start (ix2 b k) (idxTerm Ideal) 1 = rowOf k.val := by
  have hr := rowOf_lt k.val
  unfold GatherDims.start
  rw [dif_pos (show (1 : Fin S4096x64x64.rank) ∈ GD.startIndexMap by decide)]
  have hsi : GD.siIdx (ix2 b k) ⟨List.idxOf (1 : Fin S4096x64x64.rank) GD.startIndexMap,
      List.idxOf_lt_length_iff.2 (by decide)⟩ = ix2 k (0 : Fin 2) := by
    funext c; refine Fin.ext ?_
    match c with
    | ⟨0, _⟩ => rfl
    | ⟨1, _⟩ => rfl
  rw [hsi, idxTerm_row, toInt_ofNat_lt (by omega), Int.toNat_natCast]
  show min (rowOf k.val) (64 - 1) = rowOf k.val
  omega

theorem GD_start2 (b : Fin 4096) (k : Fin 2016) : GD.start (ix2 b k) (idxTerm Ideal) 2 = colOf k.val := by
  have hc := colOf_lt k
  unfold GatherDims.start
  rw [dif_pos (show (2 : Fin S4096x64x64.rank) ∈ GD.startIndexMap by decide)]
  have hsi : GD.siIdx (ix2 b k) ⟨List.idxOf (2 : Fin S4096x64x64.rank) GD.startIndexMap,
      List.idxOf_lt_length_iff.2 (by decide)⟩ = ix2 k (1 : Fin 2) := by
    funext c; refine Fin.ext ?_
    match c with
    | ⟨0, _⟩ => rfl
    | ⟨1, _⟩ => rfl
  rw [hsi, idxTerm_col, toInt_ofNat_lt (by omega), Int.toNat_natCast]
  show min (colOf k.val) (64 - 1) = colOf k.val
  omega

/-- The operand index the gather reads for result entry `(b, k)`: batch entry `b`, row and column of the `k`-th pair. -/
theorem GD_operandIdx (b : Fin 4096) (k : Fin 2016) :
    GD.operandIdx (ix2 b k) (idxTerm Ideal) = ix3 b (pI k) (pJ k) := by
  funext a
  refine Fin.ext ?_
  match a with
  | ⟨0, _⟩ =>
    show GD.start (ix2 b k) (idxTerm Ideal) 0 + GD.batchCoord (ix2 b k) 0 + GD.offCoord (ix2 b k) 0 = b.val
    rw [GatherDims.batchCoord_eq_zero _ _ _ List.not_mem_nil]
    have hs : GD.start (ix2 b k) (idxTerm Ideal) 0 = 0 := by
      unfold GatherDims.start
      rw [dif_neg (show ¬(0 : Fin S4096x64x64.rank) ∈ GD.startIndexMap by decide)]
    have ho : GD.offCoord (ix2 b k) 0 = b.val := by
      unfold GatherDims.offCoord
      rw [dif_pos (show (0 : Fin S4096x64x64.rank) ∈ GD.sKept by decide)]
      rfl
    rw [hs, ho]
    omega
  | ⟨1, _⟩ =>
    show GD.start (ix2 b k) (idxTerm Ideal) 1 + GD.batchCoord (ix2 b k) 1 + GD.offCoord (ix2 b k) 1 = rowOf k.val
    rw [GatherDims.batchCoord_eq_zero _ _ _ List.not_mem_nil,
      GatherDims.offCoord_eq_zero _ _ _ (show ¬(1 : Fin S4096x64x64.rank) ∈ GD.sKept by decide), GD_start1]
    omega
  | ⟨2, _⟩ =>
    show GD.start (ix2 b k) (idxTerm Ideal) 2 + GD.batchCoord (ix2 b k) 2 + GD.offCoord (ix2 b k) 2 = colOf k.val
    rw [GatherDims.batchCoord_eq_zero _ _ _ List.not_mem_nil,
      GatherDims.offCoord_eq_zero _ _ _ (show ¬(2 : Fin S4096x64x64.rank) ∈ GD.sKept by decide), GD_start2]
    omega

/-- THE GATHERED PAIR PRODUCTS: entry `(b, k)` is the `k`-th listed entry of the strict upper triangle of batch entry
    `b`'s Gram matrix. -/
theorem pairsF_apply (x : FVec Ideal S4096x64x128 .f32) (b : Fin 4096) (k : Fin 2016) :
    pairsF (F := Ideal) x (idxTerm Ideal) (ix2 b k) = tri x b k := by
  show Host.dotGeneral RD none x x (GD.operandIdx (ix2 b k) (idxTerm Ideal)) = _
  rw [GD_operandIdx, refGram_apply]
  rfl

end Cert.Tri

end
-- ==== Proof.RefConcat.lean ====
/-
  The reference's result, read at an entry: per batch entry the 2016 gathered numbers, then their mean, then their
  standard deviation, laid side by side along the second axis. Entry `(b, c)` is the gathered number `c` where
  `c < 2016`, the mean of batch entry `b` at `c = 2016`, and its standard deviation at `c = 2017`.
-/
import proofs.«151155_j42056319762555_1_alg».proof.Proof.RefTerm
import Idealize.ShloMosaic.Lib.Pipeline.Value
import Idealize.ShloMosaic.Lib.ValueIdx

noncomputable section

namespace Cert.ReferenceIdeal.RefRun

open Cert.ReferenceIdeal Cert.ReferenceIdeal.Gen Idealize.ShloMosaic Idealize.ShloMosaic.ValueIdx

/-- The three pieces have extents 2016, 1 and 1 along the second axis: a column below 2016 falls in the first piece, column
    2016 is the second piece's one column, column 2017 the third's. -/
theorem outOfPairs_apply (a : FVec Ideal S4096x2016 .f32) (b : Fin 4096) (c : Fin 2018) :
    outOfPairs (F := Ideal) a (ix2 b c)
      = if h : c.val < 2016 then a (ix2 b ⟨c.val, h⟩)
        else if c.val = 2016 then meanF (F := Ideal) a (ix2 b (0 : Fin 1))
        else stdF (F := Ideal) a (ix2 b (0 : Fin 1)) := by
  have hc := c.isLt
  unfold outOfPairs
  by_cases h0 : c.val < 2016
  · rw [dif_pos h0]
    exact concatenate_apply_piece (t := S4096x2018) (1 : Fin 2) [⟨S4096x2016, a⟩, ⟨S4096x1, meanF a⟩, ⟨S4096x1, stdF a⟩]
      concatenates_S4096x2016_S4096x1_S4096x1_S4096x2018_d1 (ix2 b c) 0 (by show 0 < 3; omega) S4096x2016 a rfl rfl 0 rfl
      (ix2 b (⟨c.val, h0⟩ : Fin 2016) : (⟨2, ![4096, 2016]⟩ : Shape).Idx)
      (fun d hd => match d, hd with | ⟨0, _⟩, _ => rfl | ⟨1, _⟩, hd => absurd rfl hd)
      (by show 0 + c.val = c.val; omega)
  · rw [dif_neg h0]
    by_cases h1 : c.val = 2016
    · rw [if_pos h1]
      exact concatenate_apply_piece (t := S4096x2018) (1 : Fin 2) [⟨S4096x2016, a⟩, ⟨S4096x1, meanF a⟩, ⟨S4096x1, stdF a⟩]
        concatenates_S4096x2016_S4096x1_S4096x1_S4096x2018_d1 (ix2 b c) 1 (by show 1 < 3; omega) S4096x1 (meanF a) rfl rfl 2016 rfl
        (ix2 b (0 : Fin 1) : (⟨2, ![4096, 1]⟩ : Shape).Idx)
        (fun d hd => match d, hd with | ⟨0, _⟩, _ => rfl | ⟨1, _⟩, hd => absurd rfl hd)
        (by show 2016 + 0 = c.val; omega)
    · rw [if_neg h1]
      exact concatenate_apply_piece (t := S4096x2018) (1 : Fin 2) [⟨S4096x2016, a⟩, ⟨S4096x1, meanF a⟩, ⟨S4096x1, stdF a⟩]
        concatenates_S4096x2016_S4096x1_S4096x1_S4096x2018_d1 (ix2 b c) 2 (by show 2 < 3; omega) S4096x1 (stdF a) rfl rfl 2017 rfl
        (ix2 b (0 : Fin 1) : (⟨2, ![4096, 1]⟩ : Shape).Idx)
        (fun d hd => match d, hd with | ⟨0, _⟩, _ => rfl | ⟨1, _⟩, hd => absurd rfl hd)
        (by show 2017 + 0 = c.val; omega)

end Cert.ReferenceIdeal.RefRun

end
-- ==== Proof.RefMean.lean ====
/-
  The reference's mean and standard deviation of the 2016 gathered numbers, read at an index.

  Per batch entry `b` the mean is `(0 + ∑ₖ a(b,k)) / 2016`: a sum started from the zero word, divided by the
  word of `2016`. The variance divides the sum (again started from zero) of the squared deviations from that
  mean by the count `2016 − 0` (the correction `ddof` is the integer zero); the count is positive, so the
  selection on "count > 0" takes that quotient, and the standard deviation is its square root.
-/
import proofs.«151155_j42056319762555_1_alg».proof.Proof.RefTerm
import proofs.«151155_j42056319762555_1_alg».proof.Proof.KSpec
import Idealize.ShloMosaic.PureOps.Ideal.Laws
import Idealize.ShloMosaic.Lib.IdealHost
import Idealize.ShloMosaic.Lib.ValueIdx
import Idealize.ShloMosaic.Lib.Pipeline.Value

noncomputable section

open scoped BigOperators

namespace Cert.ReferenceIdeal.RefRun

open Cert.ReferenceIdeal Cert.ReferenceIdeal.Gen Idealize.ShloMosaic Idealize.ShloMosaic.ValueIdx

/-- The float word `0x44FC0000` denotes `2016`. -/
theorem c2016_eq : Cert.Tri.c2016 = ((2016 : ℝ) : EReal) := by
  unfold Cert.Tri.c2016
  simp [Ideal.ofBits, Ideal.ieee, -EReal.coe_mul]; norm_num

/-- The sum along a row of a `4096 × 2016` array, started from the zero word, at row `b`. -/
theorem rowSumF_apply (a : FVec Ideal S4096x2016 .f32) (b : Fin 4096) :
    Host.reduceAdd a (constant S_ .f32 0x00000000#32) reducesTo_S4096x2016_S4096_d1 h_S_ (ix1 b)
      = 0 + ∑ k : Fin 2016, a (ix2 b k) := by
  have hR : S4096x2016.Reduces [(1 : Fin 2)] S4096 := by decide
  rw [hostReduceAdd_apply]
  refine (Ideal.hostReduceAdd_single reducesTo_S4096x2016_S4096_d1 hR a _ (ix1 b)).trans ?_
  rw [constant_apply, Ideal.ofBits_zero_f32]
  refine congrArg (fun s => (0 : EReal) + s) (Finset.sum_congr rfl fun k _ => congrArg a ?_)
  funext d
  match d with
  | ⟨0, _⟩ => exact Fin.ext rfl
  | ⟨1, _⟩ => exact Fin.ext rfl

/-- A `[4096]` vector broadcast to a `[4096, 1]` column, at `(b, j)`. -/
theorem colBcast_apply {α : Type} (v : S4096.Idx → α) (b : Fin 4096) (j : Fin 1) :
    broadcastInDim S4096x1 ![0] bcast_S4096_S4096x1_0 v (ix2 b j) = v (ix1 b) :=
  broadcastInDim_apply ![0] bcast_S4096_S4096x1_0 v (ix2 b j) (ix1 b) (fun d => by
    match d with
    | ⟨0, _⟩ => exact (if_neg (by show ¬ (4096 : ℕ) = 1; decide)).symm)

/-- A `[4096, 1]` column broadcast along the rows of a `[4096, 2016]` array, at `(b, k)`. -/
theorem rowBcast_apply {α : Type} (v : S4096x1.Idx → α) (b : Fin 4096) (k : Fin 2016) :
    broadcastInDim S4096x2016 ![0, 1] bcast_S4096x1_S4096x2016_0_1 v (ix2 b k) = v (ix2 b (0 : Fin 1)) :=
  broadcastInDim_apply ![0, 1] bcast_S4096x1_S4096x2016_0_1 v (ix2 b k) (ix2 b (0 : Fin 1)) (fun d => by
    match d with
    | ⟨0, _⟩ => exact (if_neg (by show ¬ (4096 : ℕ) = 1; decide)).symm
    | ⟨1, _⟩ => exact (if_pos rfl).symm)

/-- The reference's mean of row `b`: the sum from zero of the row, over the word of `2016`. -/
theorem meanF_apply (a : FVec Ideal S4096x2016 .f32) (b : Fin 4096) (j : Fin 1) :
    meanF (F := Ideal) a (ix2 b j) = Ideal.div (0 + ∑ k : Fin 2016, a (ix2 b k)) Cert.Tri.c2016 := by
  unfold meanF
  rw [hostDivf_apply, colBcast_apply, rowSumF_apply, broadcastInDim_scalar_apply, constant_apply]
  rfl

/-- The squared deviation of entry `(b, k)` from the mean of row `b`. -/
theorem sqDevF_apply (a : FVec Ideal S4096x2016 .f32) (b : Fin 4096) (k : Fin 2016) :
    sqDevF (F := Ideal) a (ix2 b k)
      = (a (ix2 b k) - meanF (F := Ideal) a (ix2 b 0)) * (a (ix2 b k) - meanF (F := Ideal) a (ix2 b 0)) := by
  unfold sqDevF
  rw [mulf_apply, subf_apply, rowBcast_apply]

/-- The count the variance divides by, at correction zero: `2016 − 0`. -/
theorem countF_zero : countF (F := Ideal) (constantI S_ 32 0#32) ix0 = Cert.Tri.c2016 - 0 := by
  unfold countF
  rw [subf_apply, constant_apply, sitofp_apply]
  show Ideal.ofBits .f32 0x44FC0000#32 - (((0#32 : BitVec 32).toInt : ℝ) : EReal) = Cert.Tri.c2016 - 0
  simp [Cert.Tri.c2016]

/-- The reference's standard deviation of row `b`: the root of the sum from zero of the squared deviations
over the count `2016 − 0`. -/
theorem stdF_apply (a : FVec Ideal S4096x2016 .f32) (b : Fin 4096) (j : Fin 1) :
    stdF (F := Ideal) a (ix2 b j)
      = Ideal.sqrt (Ideal.div
          (0 + ∑ k : Fin 2016, (a (ix2 b k) - meanF (F := Ideal) a (ix2 b 0))
            * (a (ix2 b k) - meanF (F := Ideal) a (ix2 b 0)))
          (Cert.Tri.c2016 - 0)) := by
  have hpos : Ideal.cmp .ogt (Cert.Tri.c2016 - 0) (Ideal.ofBits .f32 0x00000000#32) = 1#1 := by
    rw [Ideal.ofBits_zero_f32, sub_zero, c2016_eq]
    have h : (0 : EReal) < ((2016 : ℝ) : EReal) := EReal.coe_pos.2 (by norm_num)
    simp [Ideal.cmp, h]
  unfold stdF
  show Ideal.sqrt (varF (F := Ideal) a (constantI S_ 32 0#32) (ix2 b j)) = _
  unfold varF
  rw [select_apply, broadcastInDim_scalar_apply, cmpf_apply, countF_zero, constant_apply]
  show Ideal.sqrt (Scalar.select (Ideal.cmp .ogt (Cert.Tri.c2016 - 0) (Ideal.ofBits .f32 0x00000000#32)) _ _) = _
  rw [hpos, select_one, hostDivf_apply, colBcast_apply, rowSumF_apply, broadcastInDim_scalar_apply, countF_zero]
  simp only [sqDevF_apply]

end Cert.ReferenceIdeal.RefRun

end
-- ==== Proof.RSpec.lean ====
/-
  One batch entry's result row, in the arrangement the reference computes it.

  The reference lists the 2016 pairs `k ↦ (pI k, pJ k)`, takes the Gram entries `tri X b k` there, and appends their mean
  `(0 + ∑ₖ aₖ)/2016` and the root of the mean squared deviation `√((0 + ∑ₖ (aₖ − mean)²)/(2016 − 0))`.
-/
import proofs.«151155_j42056319762555_1_alg».proof.Proof.KSpec

noncomputable section

open scoped BigOperators

namespace Cert.Tri

open Idealize.ShloMosaic Idealize.ShloMosaic.ValueIdx

/-- The mean of the listed entries, as the reference takes it (a sum started from zero, divided by 2016). -/
def meanR (X : SIn.Idx → EReal) (b : Fin 4096) : EReal := Ideal.div (0 + ∑ k : Fin 2016, tri X b k) c2016

/-- The population standard deviation of the listed entries, as the reference takes it. -/
def stdR (X : SIn.Idx → EReal) (b : Fin 4096) : EReal :=
  Ideal.sqrt (Ideal.div (0 + ∑ k : Fin 2016, (tri X b k - meanR X b) * (tri X b k - meanR X b)) (c2016 - 0))

/-- The whole result in the reference's arrangement. -/
def Rout (X : SIn.Idx → EReal) : SOut.Idx → EReal := fun y =>
  if h : (y 1).val < 2016 then tri X (y 0) ⟨(y 1).val, h⟩ else if (y 1).val = 2016 then meanR X (y 0) else stdR X (y 0)

end Cert.Tri

end
-- ==== Proof.RefRead.lean ====
/-
  The reference's result is the arrangement of the specification: per batch entry the 2016 listed Gram entries,
  then their mean, then the root of their mean squared deviation.

  Column c of batch entry b of the result is, by the layout of the three pieces laid side by side: below 2016 the
  gathered number c, which is the Gram entry of the c-th listed pair; at 2016 the mean of the gathered numbers;
  at 2017 the root of the mean of their squared deviations. Each is the specification's entry once the gathered
  numbers are read as the listed Gram entries.
-/
import proofs.«151155_j42056319762555_1_alg».proof.Proof.RefGather
import proofs.«151155_j42056319762555_1_alg».proof.Proof.RefConcat
import proofs.«151155_j42056319762555_1_alg».proof.Proof.RefMean
import proofs.«151155_j42056319762555_1_alg».proof.Proof.RSpec

noncomputable section

open scoped BigOperators

namespace Cert.ReferenceIdeal.RefRun

open Cert.ReferenceIdeal Cert.ReferenceIdeal.Gen Idealize.ShloMosaic Idealize.ShloMosaic.ValueIdx

/-- The mean column of the reference's result is the specification's mean. -/
theorem meanF_pairs (x : FVec Ideal S4096x64x128 .f32) (b : Fin 4096) :
    meanF (F := Ideal) (pairsF x (idxTerm Ideal)) (ix2 b (0 : Fin 1)) = Cert.Tri.meanR x b := by
  rw [meanF_apply]
  simp only [Cert.Tri.pairsF_apply]
  rfl

/-- The deviation column of the reference's result is the specification's standard deviation. -/
theorem stdF_pairs (x : FVec Ideal S4096x64x128 .f32) (b : Fin 4096) :
    stdF (F := Ideal) (pairsF x (idxTerm Ideal)) (ix2 b (0 : Fin 1)) = Cert.Tri.stdR x b := by
  rw [stdF_apply, meanF_pairs]
  simp only [Cert.Tri.pairsF_apply]
  rfl

/-- The reference's result, entry by entry, is the specification's arrangement of it. -/
theorem refOut_eq_Rout (x : FVec Ideal S4096x64x128 .f32) : refOut (F := Ideal) x = Cert.Tri.Rout x := by
  funext y
  obtain ⟨b, c, rfl⟩ : ∃ (b : Fin 4096) (c : Fin 2018), y = ix2 b c := ⟨y 0, y 1, eq_ix2 y⟩
  show outOfPairs (pairsF x (idxTerm Ideal)) (ix2 b c)
    = if h : c.val < 2016 then Cert.Tri.tri x b ⟨c.val, h⟩
      else if c.val = 2016 then Cert.Tri.meanR x b else Cert.Tri.stdR x b
  rw [outOfPairs_apply]
  by_cases h0 : c.val < 2016
  · rw [dif_pos h0, dif_pos h0]
    exact Cert.Tri.pairsF_apply x b ⟨c.val, h0⟩
  · rw [dif_neg h0, dif_neg h0]
    by_cases h1 : c.val = 2016
    · rw [if_pos h1, if_pos h1]
      exact meanF_pairs x b
    · rw [if_neg h1, if_neg h1]
      exact stdF_pairs x b

end Cert.ReferenceIdeal.RefRun

end
-- ==== Proof.LibVariance.lean ====
/-
  The algebra joining the two forms of the population standard deviation, over real sequences read as
  extended reals.

  For real numbers `a_0 … a_2015` with mean `m = (∑ a_k)/2016`:
  `(∑ a_k²)/2016 − m² = (∑ (a_k − m)²)/2016 ≥ 0`, so the maximum with `0` changes nothing and the two
  square roots agree. Also: a finite sum of reals read in the extended reals is the sum of the readings,
  the float word `0x44FC0000` denotes `2016`, and the Gram matrix of a real input is real.
-/
import proofs.«151155_j42056319762555_1_alg».proof.Proof.Spec
import Mathlib

open scoped BigOperators

namespace Cert.Tri

open Idealize.ShloMosaic Idealize.ShloMosaic.ValueIdx

/-- Reading a finite sum of reals in the extended reals gives the sum of the readings. -/
theorem coe_sum_fin {n : ℕ} (a : Fin n → ℝ) : ((∑ k, a k : ℝ) : EReal) = ∑ k, (a k : EReal) := by
  induction (Finset.univ : Finset (Fin n)) using Finset.induction_on with
  | empty => simp
  | insert _ _ h ih => rw [Finset.sum_insert h, Finset.sum_insert h, EReal.coe_add, ih]

/-- The float word `0x44FC0000` (sign 0, exponent 137, significand `0x7C0000`) denotes `2016`. -/
theorem ofBits_2016 : Ideal.ofBits .f32 0x44FC0000#32 = ((2016 : ℝ) : EReal) := by
  simp [Ideal.ofBits, Ideal.ieee, -EReal.coe_mul]; norm_num

/-- Dividing a real by `2016` in the extended reals is the real quotient. -/
theorem div_2016_coe (x : ℝ) :
    Ideal.div (x : EReal) ((2016 : ℝ) : EReal) = ((x / 2016 : ℝ) : EReal) := by
  rw [Ideal.div_coe (by norm_num : (2016 : ℝ) ≠ 0), ← EReal.coe_mul]
  congr 1; ring

/-- Mean of squares minus square of the mean is the mean of the squared deviations. -/
theorem var_real (a : Fin 2016 → ℝ) :
    (∑ k, a k * a k) / 2016 - (∑ k, a k) / 2016 * ((∑ k, a k) / 2016)
      = (∑ k, (a k - (∑ k, a k) / 2016) * (a k - (∑ k, a k) / 2016)) / 2016 := by
  obtain ⟨S, hS⟩ : ∃ S : ℝ, S = ∑ k, a k := ⟨_, rfl⟩
  rw [← hS]
  have hk : ∀ k, (a k - S / 2016) * (a k - S / 2016)
      = a k * a k - 2 * (S / 2016) * a k + S / 2016 * (S / 2016) := fun k => by ring
  simp only [hk, Finset.sum_add_distrib, Finset.sum_sub_distrib, ← Finset.mul_sum, Finset.sum_const,
    Finset.card_univ, Fintype.card_fin, nsmul_eq_mul, ← hS]
  push_cast; ring

/-- The mean of the squared deviations is nonnegative. -/
theorem var_nonneg (a : Fin 2016 → ℝ) :
    0 ≤ (∑ k, (a k - (∑ k, a k) / 2016) * (a k - (∑ k, a k) / 2016)) / 2016 :=
  div_nonneg (Finset.sum_nonneg fun _ _ => mul_self_nonneg _) (by norm_num)

/-- The two forms of the population standard deviation of 2016 real numbers agree: the square root of
`max (mean of squares − mean², 0)` and the square root of the mean of the squared deviations. -/
theorem std_forms (a : Fin 2016 → ℝ) :
    Ideal.sqrt (max (Ideal.div ((∑ k, a k * a k : ℝ) : EReal) ((2016 : ℝ) : EReal)
        - Ideal.div ((∑ k, a k : ℝ) : EReal) ((2016 : ℝ) : EReal)
          * Ideal.div ((∑ k, a k : ℝ) : EReal) ((2016 : ℝ) : EReal)) 0)
      = Ideal.sqrt (Ideal.div
          ((∑ k, (a k - (∑ k, a k) / 2016) * (a k - (∑ k, a k) / 2016) : ℝ) : EReal)
          ((2016 : ℝ) : EReal)) := by
  simp only [div_2016_coe]
  rw [← EReal.coe_mul, ← EReal.coe_sub, var_real, max_eq_left]
  exact EReal.coe_nonneg.2 (var_nonneg a)

/-- The Gram matrix of a real input, read in the extended reals, is the real inner product. -/
theorem gram_coe (x : SIn.Idx → ℝ) (b : Fin 4096) (i j : Fin 64) :
    gram (fun t => (x t : EReal)) b i j
      = ((∑ d : Fin 128, x (ix3 b i d) * x (ix3 b j d) : ℝ) : EReal) := by
  unfold gram
  rw [coe_sum_fin]
  simp only [EReal.coe_mul]

end Cert.Tri
-- ==== Proof.Bridge.lean ====
/-
  The two arrangements of one batch entry's result row give the same numbers on a finite input.

  The first 2016 columns are the listed Gram entries in both. The kernel's row-by-row sums `S₁`, `S₂` are the
  sums over the 2016 listed pairs of the entries and of their squares (the regrouping of the flat sum into
  rows), so the two means agree; and for finite entries the two standard deviations agree because mean of
  squares minus square of mean is the (nonnegative) mean of the squared deviations.
-/
import proofs.«151155_j42056319762555_1_alg».proof.Proof.RSpec
import proofs.«151155_j42056319762555_1_alg».proof.Proof.LibPairs
import proofs.«151155_j42056319762555_1_alg».proof.Proof.LibVariance
import Idealize.ShloMosaic.PureOps.Ideal.Laws
import Mathlib

open scoped BigOperators

namespace Cert.Tri

open Idealize.ShloMosaic Idealize.ShloMosaic.ValueIdx

/-- At a listed pair the Gram entries as a function of two naturals give the listed entry. -/
theorem triN_pair (X : SIn.Idx → EReal) (b : Fin 4096) (k : Fin 2016) :
    triN X b (rowOf k.val) (colOf k.val) = tri X b k := by
  unfold triN tri pI pJ
  rw [dif_pos ⟨rowOf_lt k.val, colOf_lt k⟩]

/-- The kernel's row-by-row sum is the sum of the 2016 listed entries. -/
theorem S1_eq (X : SIn.Idx → EReal) (b : Fin 4096) :
    S1 (triN X b) = ∑ k : Fin 2016, tri X b k := by
  unfold S1
  rw [← sum_pairs (triN X b)]
  exact Finset.sum_congr rfl fun k _ => triN_pair X b k

/-- The kernel's row-by-row sum of squares is the sum of the squares of the 2016 listed entries. -/
theorem S2_eq (X : SIn.Idx → EReal) (b : Fin 4096) :
    S2 (triN X b) = ∑ k : Fin 2016, tri X b k * tri X b k := by
  unfold S2
  rw [← sum_pairs (fun i j => triN X b i j * triN X b i j)]
  exact Finset.sum_congr rfl fun k _ => by rw [triN_pair X b k]

/-- The two means agree (on any input). -/
theorem mean_eq (X : SIn.Idx → EReal) (b : Fin 4096) : meanR X b = meanK (triN X b) := by
  unfold meanR meanK
  rw [S1_eq, zero_add]

/-- The two standard deviations agree on a finite input. -/
theorem std_eq (x : SIn.Idx → ℝ) (b : Fin 4096) :
    stdR (fun t => (x t : EReal)) b = stdK (triN (fun t => (x t : EReal)) b) := by
  obtain ⟨a, htri⟩ : ∃ a : Fin 2016 → ℝ, ∀ k, tri (fun t => (x t : EReal)) b k = (a k : EReal) :=
    ⟨fun k => ∑ d : Fin 128, x (ix3 b (pI k) d) * x (ix3 b (pJ k) d),
      fun k => gram_coe x b (pI k) (pJ k)⟩
  have hc : c2016 = ((2016 : ℝ) : EReal) := ofBits_2016
  have hmR : meanR (fun t => (x t : EReal)) b = (((∑ k, a k) / 2016 : ℝ) : EReal) := by
    unfold meanR
    rw [zero_add, hc]
    simp only [htri]
    rw [← coe_sum_fin, div_2016_coe]
  have hR : stdR (fun t => (x t : EReal)) b
      = Ideal.sqrt (Ideal.div
          ((∑ k, (a k - (∑ k, a k) / 2016) * (a k - (∑ k, a k) / 2016) : ℝ) : EReal)
          ((2016 : ℝ) : EReal)) := by
    unfold stdR
    rw [zero_add, sub_zero, hc, hmR]
    simp only [htri, ← EReal.coe_sub, ← EReal.coe_mul]
    rw [← coe_sum_fin]
  have hK : stdK (triN (fun t => (x t : EReal)) b)
      = Ideal.sqrt (max (Ideal.div ((∑ k, a k * a k : ℝ) : EReal) ((2016 : ℝ) : EReal)
          - Ideal.div ((∑ k, a k : ℝ) : EReal) ((2016 : ℝ) : EReal)
            * Ideal.div ((∑ k, a k : ℝ) : EReal) ((2016 : ℝ) : EReal)) 0) := by
    unfold stdK meanK
    rw [S1_eq, S2_eq, hc, Ideal.ofBits_zero_f32]
    simp only [htri, ← EReal.coe_mul]
    rw [← coe_sum_fin, ← coe_sum_fin]
  rw [hR, hK, std_forms]

/-- One batch entry's row at column `col` is the same in both arrangements, on a finite input. -/
theorem row_eq (x : SIn.Idx → ℝ) (b : Fin 4096) (col : ℕ) :
    (if h : col < 2016 then tri (fun t => (x t : EReal)) b ⟨col, h⟩
      else if col = 2016 then meanR (fun t => (x t : EReal)) b else stdR (fun t => (x t : EReal)) b)
      = rowVal (triN (fun t => (x t : EReal)) b) col := by
  unfold rowVal
  by_cases h : col < 2016
  · rw [dif_pos h, if_pos h]
    exact (triN_pair _ b ⟨col, h⟩).symm
  · rw [dif_neg h, if_neg h]
    by_cases h2 : col = 2016
    · rw [if_pos h2, if_pos h2]
      exact mean_eq _ b
    · rw [if_neg h2, if_neg h2]
      exact std_eq x b

/-- On an input all of whose entries are finite, the reference's arrangement and the kernel's arrangement of
the result are the same function. -/
theorem Rout_eq_Kout (X : SIn.Idx → EReal) (hfin : ∀ t, ∃ x : ℝ, X t = (x : EReal)) :
    Rout X = Kout X := by
  choose x hx using hfin
  obtain rfl : X = fun t => (x t : EReal) := funext hx
  funext y
  exact row_eq x (y 0) (y 1).val

end Cert.Tri
-- ==== Proof.Finite.lean ====
/-
  From the precondition "every input entry has absolute value below +∞" to "every input entry is a real".

  The precondition is the conjunction over all entries of `|x| < +∞`, where `|x| = max x (−x)` and the float
  word `0x7F800000` denotes `⊤`. An extended real with `max x (−x) < ⊤` is neither `⊤` (then `max = ⊤`) nor
  `⊥` (then `−x = ⊤`), so it is a real.
-/
import proofs.«151155_j42056319762555_1_alg».proof.Proof.Gen.Pre_finite_inputs
import proofs.«151155_j42056319762555_1_alg».proof.Pre_finite_inputs
import Idealize.ShloMosaic.Lib.ReduceAll
import Idealize.ShloMosaic.Lib.ValueIdx
import Idealize.ShloMosaic.PureOps.Ideal
import Mathlib

namespace Cert.Tri

open Idealize.ShloMosaic

/-- The float word `0x7F800000` (exponent all ones, significand zero, sign plus) denotes `⊤`. -/
theorem ofBits_inf : Ideal.ofBits .f32 0x7F800000#32 = (⊤ : EReal) := by
  simp [Ideal.ofBits, Ideal.ieee]

/-- An extended real whose absolute value `max x (−x)` is below `⊤` is a real. -/
theorem real_of_abs_lt_top (x : EReal) (h : max x (-x) < ⊤) : ∃ r : ℝ, x = (r : EReal) := by
  have hne_top : x ≠ ⊤ := by
    intro e; rw [e] at h; simp at h
  have hne_bot : x ≠ ⊥ := by
    intro e; rw [e] at h; simp at h
  exact ⟨x.toReal, (EReal.coe_toReal hne_top hne_bot).symm⟩

/-- If the precondition (all entries have absolute value below `+∞`) holds of the input, every entry of
the input is a real. -/
theorem finite_of_pre (X : FVec Ideal Cert.Pre_finite_inputs.S4096x64x128 .f32)
    (h : Cert.Pre_finite_inputs.fn (F := Ideal) X = fun _ => 1#1) :
    ∀ t, ∃ x : ℝ, X t = (x : EReal) := by
  intro t
  haveI : Subsingleton Cert.Pre_finite_inputs.S_.Idx := ⟨fun a b => funext fun d => d.elim0⟩
  have h0 := congrFun h ValueIdx.ix0
  dsimp only [Cert.Pre_finite_inputs.fn] at h0
  have ht := Host.reduce_andi_all _ _ _ _ _ h0 t
  change Ideal.cmp .olt (max (X t) (-(X t))) (Ideal.ofBits .f32 0x7F800000#32) = 1#1 at ht
  rw [ofBits_inf] at ht
  refine real_of_abs_lt_top (X t) ?_
  by_contra hn
  simp [Ideal.cmp, hn] at ht

end Cert.Tri
-- ==== Proof.lean ====
/-
  The proof of `Cert.Claim`: the kernel, its idealization and the reference all run and leave their argument unchanged,
  and at the extended reals the idealized kernel and the idealized reference end with equal results.

  THE MATHEMATICS. The input is 4096 batch entries of 64 rows of 128 numbers. For one batch entry let `γ i j` be the
  inner product of rows `i` and `j`. Both programs produce, per batch entry, the 2016 entries `γ i j` with `i < j`
  listed row by row (row `i` starts at position `i (127 − i) / 2`), then their mean, then their population standard
  deviation.
  * The kernel takes one matrix product per block of 256 batch entries, walks the rows `i = 0 … 62`, stores row `i`'s
    entries right of the diagonal at their positions, keeps the running sums of the row sums and of the row sums of
    squares, and ends with `S₁ / 2016` and `√(max(S₂ / 2016 − mean², 0))` (KSpec.lean, KBlock.lean, KRows.lean,
    KPieces.lean, KGram.lean, KWindows.lean, KArray.lean).
  * The reference finds the pairs at run time: the running count of the mask `i < j` over the flattened 64 × 64
    square, the histogram of that running count, and the running sum of the histogram give the position of the
    `k`-th true entry (LibCount.lean, LibWindowScatter.lean, IdxTable.lean); it gathers the Gram entries there
    (RefGather.lean), and takes `(0 + ∑ a) / 2016` and `√((0 + ∑ (a − mean)²) / (2016 − 0))` (RefTerm.lean, RefOps.lean,
    RefRun.lean, RefRead.lean, RSpec.lean).
  * The two listings name the same pairs (LibPairs.lean), so the flat sum over the 2016 pairs is the sum row by row;
    and for REAL entries the mean of squares minus the square of the mean is the mean squared deviation, which is
    nonnegative, so the kernel's clamp at zero is inert (LibVariance.lean, Bridge.lean). The entries are real because
    the precondition says every input is finite (Finite.lean) — distributivity fails at the infinities, so it is used.
  `preserves` asks nothing: the idealization rewrote no operation.
-/
import proofs.«151155_j42056319762555_1_alg».proof.Defs
import proofs.«151155_j42056319762555_1_alg».proof.Proof.Gen.Kernel
import proofs.«151155_j42056319762555_1_alg».proof.Proof.Gen.KernelIdeal
import proofs.«151155_j42056319762555_1_alg».proof.Proof.Gen.ReferenceIdeal
import proofs.«151155_j42056319762555_1_alg».proof.Proof.Gen.Pre_finite_inputs
import proofs.«151155_j42056319762555_1_alg».proof.Proof.KernelFrameP
import proofs.«151155_j42056319762555_1_alg».proof.Proof.KernelIdealFrameP
import proofs.«151155_j42056319762555_1_alg».proof.Proof.KArray
import proofs.«151155_j42056319762555_1_alg».proof.Proof.RefRun
import proofs.«151155_j42056319762555_1_alg».proof.Proof.RefRead
import proofs.«151155_j42056319762555_1_alg».proof.Proof.Bridge
import proofs.«151155_j42056319762555_1_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its argument unchanged. -/
theorem frame_k : Cert.frame_Kernel (hKernel := Cert.Kernel.Gen.facts) (hPre_finite_inputs := Cert.Pre_finite_inputs.Gen.facts) :=
  fun m ρ _ => Cert.Kernel.GenP.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference's run, its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefRun.run (F := Ideal) m ρ)

/-- The idealization rewrote nothing. -/
theorem preserves : Cert.preserves_Kernel_KernelIdeal := trivial

/-- Both idealized programs end with the kernel's arrangement `Kout` of the input: the kernel by its run, the reference
    because its own arrangement `Rout` equals `Kout` on finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Tri.Kout (m ((c.tc : Thread Cert.KernelIdeal.nD Cert.KernelIdeal.τ).loc Cert.KernelIdeal.main_arg0)),
    Cert.Tri.kernel_run m ρ, ?_⟩
  refine (θ_run Cert.ReferenceIdeal.defs _ _).mono (fun _ h c => ⟨(h c).1.trans ?_, (h c).2⟩)
    (Cert.ReferenceIdeal.RefRun.run (F := Ideal) m' ρ')
  rw [hagree c, Cert.ReferenceIdeal.RefRun.refOut_eq_Rout]
  exact Cert.Tri.Rout_eq_Kout _ (Cert.Tri.finite_of_pre _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
